-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S16x2048 : Shape := ⟨2, ![16, 2048]⟩
abbrev S16 : Shape := ⟨1, ![16]⟩
abbrev S256x2048 : Shape := ⟨2, ![256, 2048]⟩
abbrev S256 : Shape := ⟨1, ![256]⟩
abbrev S1024x2048 : Shape := ⟨2, ![1024, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part2 {F : FTy → Type} [FloatOps F] (main_arg7 : FVec F S1024x2048 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  main_v38

def fn_part1 {F : FTy → Type} [FloatOps F] (main_arg4 : FVec F S256 .f32) (main_arg5 : FVec F S256x2048 .f32) (main_arg6 : FVec F S256 .f32) (main_arg7 : FVec F S1024x2048 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x2048 .f32 := Host.absf main_arg5
  let main_cst_8 : FVec F S_ .f32 := constant S_ .f32 0x7F800000#32
  let main_v25 : FVec F S256x2048 .f32 := broadcastInDim S256x2048 ![] bcast_S_S256x2048 main_cst_8
  let main_v26 : IVec S256x2048 1 := cmpf .olt main_v24 main_v25
  let main_c_9 : IVec S_ 1 := constantI S_ 1 1#1
  let main_v27 : IVec S_ 1 := (fun x v => Host.reduce IntOp.andi x v reducesTo_S256x2048_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S4x4096x2048 .f32) (main_arg1 : FVec F S16x2048 .f32) (main_arg2 : FVec F S16 .f32) (main_arg3 : FVec F S256x2048 .f32) (main_arg4 : FVec F S256 .f32) (main_arg5 : FVec F S256x2048 .f32) (main_arg6 : FVec F S256 .f32) (main_arg7 : FVec F S1024x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_arg7 main_v13 main_v16
-- ==== Kernel.lean ====
abbrev S4x4096x2048 : Shape := ⟨3, ![4, 4096, 2048]⟩
abbrev S16x2048 : Shape := ⟨2, ![16, 2048]⟩
abbrev S16 : Shape := ⟨1, ![16]⟩
abbrev S256x2048 : Shape := ⟨2, ![256, 2048]⟩
abbrev S256 : Shape := ⟨1, ![256]⟩
abbrev S1024x2048 : Shape := ⟨2, ![1024, 2048]⟩
abbrev S1552x2048 : Shape := ⟨2, ![1552, 2048]⟩
abbrev S_ : Shape := ⟨0, ![]⟩
abbrev S1024 : Shape := ⟨1, ![1024]⟩
abbrev S1552 : Shape := ⟨1, ![1552]⟩
abbrev S1552x1 : Shape := ⟨2, ![1552, 1]⟩
abbrev S4x3088x4096 : Shape := ⟨3, ![4, 3088, 4096]⟩
abbrev S1x512x2048 : Shape := ⟨3, ![1, 512, 2048]⟩
abbrev S1x3088x512 : Shape := ⟨3, ![1, 3088, 512]⟩
abbrev S512x2048 : Shape := ⟨2, ![512, 2048]⟩
abbrev S1552x512 : Shape := ⟨2, ![1552, 512]⟩
abbrev S256x512 : Shape := ⟨2, ![256, 512]⟩
abbrev S1024x512 : Shape := ⟨2, ![1024, 512]⟩
abbrev S16x512 : Shape := ⟨2, ![16, 512]⟩
abbrev S64x512 : Shape := ⟨2, ![64, 512]⟩
abbrev S1x64x512 : Shape := ⟨3, ![1, 64, 512]⟩
abbrev S1x1024x512 : Shape := ⟨3, ![1, 1024, 512]⟩
abbrev S1x16x512 : Shape := ⟨3, ![1, 16, 512]⟩

abbrev nBuf : Space → Nat
  | .hbm => 15
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16, .f32⟩
  | .hbm, ⟨3, _⟩ => ⟨S256x2048, .f32⟩
  | .hbm, ⟨4, _⟩ => ⟨S256, .f32⟩
  | .hbm, ⟨5, _⟩ => ⟨S256x2048, .f32⟩
  | .hbm, ⟨6, _⟩ => ⟨S256, .f32⟩
  | .hbm, ⟨7, _⟩ => ⟨S1024x2048, .f32⟩
  | .hbm, ⟨8, _⟩ => ⟨S1552x2048, .f32⟩
  | .hbm, ⟨9, _⟩ => ⟨S1552x2048, .bf16⟩
  | .hbm, ⟨10, _⟩ => ⟨S_, .f32⟩
  | .hbm, ⟨11, _⟩ => ⟨S1024, .f32⟩
  | .hbm, ⟨12, _⟩ => ⟨S1552, .f32⟩
  | .hbm, ⟨13, _⟩ => ⟨S1552x1, .f32⟩
  | .hbm, ⟨14, _⟩ => ⟨S4x3088x4096, .f32⟩
  | .local _ .vmem, ⟨0, _⟩ => ⟨S1x512x2048, .f32⟩
  | .local _ .vmem, ⟨1, _⟩ => ⟨S1x512x2048, .f32⟩
  | .local _ .vmem, ⟨2, _⟩ => ⟨S1552x2048, .bf16⟩
  | .local _ .vmem, ⟨3, _⟩ => ⟨S1552x1, .f32⟩
  | .local _ .vmem, ⟨4, _⟩ => ⟨S1x3088x512, .f32⟩
  | .local _ .vmem, ⟨5, _⟩ => ⟨S1x3088x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1552x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1552x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  concatenates_S256x2048_S256x2048_S1024x2048_S16x2048_S1552x2048_d0 : Shape.Concatenates [S256x2048, S256x2048, S1024x2048, S16x2048] S1552x2048 0
  bitsLt_bf16_f32 : FTy.bits .bf16 < FTy.bits .f32
  bcast_S_S1024 : S_.BroadcastsInDim S1024 (![] : Fin 0 → Fin S1024.rank)
  concatenates_S256_S256_S1024_S16_S1552_d0 : Shape.Concatenates [S256, S256, S1024, S16] S1552 0
  shapeCasts_S1552_S1552x1 : S1552.ShapeCasts S1552x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1552x2048_S1552x2048_0_0 : ∀ a, (![0, 0] : Fin 2 → Nat) a + S1552x2048.size a ≤ S1552x2048.size a
  h_S1552x2048 : 0 < S1552x2048.numel
  shapeCasts_S1552x2048_S1552x2048 : S1552x2048.ShapeCasts S1552x2048
  inb_S1552x1_S1552x1_0_0 : ∀ a, (![0, 0] : Fin 2 → Nat) a + S1552x1.size a ≤ S1552x1.size a
  h_S1552x1 : 0 < S1552x1.numel
  shapeCasts_S1552x1_S1552x1 : S1552x1.ShapeCasts S1552x1
  broadcasts_S1552x1_S1552x512 : S1552x1.Broadcasts S1552x512
  slices_S1552x512_o0_0_S256x512 : S1552x512.Slices ![0, 0] S256x512
  slices_S1552x512_o256_0_S256x512 : S1552x512.Slices ![256, 0] S256x512
  slices_S1552x512_o512_0_S1024x512 : S1552x512.Slices ![512, 0] S1024x512
  slices_S1552x512_o1536_0_S16x512 : S1552x512.Slices ![1536, 0] S16x512
  slices_S256x512_o0_0_S64x512 : S256x512.Slices ![0, 0] S64x512
  inb_S1x3088x512_S1x64x512_0_0_0 : ∀ a, (![0, 0, 0] : Fin 3 → Nat) a + S1x64x512.size a ≤ S1x3088x512.size a
  h_S1x64x512 : 0 < S1x64x512.numel
  shapeCasts_S1x64x512_S64x512 : S1x64x512.ShapeCasts S64x512
  shapeCasts_S64x512_S1x64x512 : S64x512.ShapeCasts S1x64x512
  inb_S1x3088x512_S1x64x512_0_64_0 : ∀ a, (![0, 64, 0] : Fin 3 → Nat) a + S1x64x512.size a ≤ S1x3088x512.size a
  inb_S1x3088x512_S1x64x512_0_128_0 : ∀ a, (![0, 128, 0] : Fin 3 → Nat) a + S1x64x512.size a ≤ S1x3088x512.size a
  inb_S1x3088x512_S1x64x512_0_192_0 : ∀ a, (![0, 192, 0] : Fin 3 → Nat) a + S1x64x512.size a ≤ S1x3088x512.size a
  slices_S256x512_o64_0_S64x512 : S256x512.Slices ![64, 0] S64x512
  inb_S1x3088x512_S1x64x512_0_256_0 : ∀ a, (![0, 256, 0] : Fin 3 → Nat) a + S1x64x512.size a ≤ S1x3088x512.size a
  inb_S1x3088x512_S1x64x512_0_320_0 : ∀ a, (![0, 320, 0] : Fin 3 → Nat) a + S1x64x512.size a ≤ S1x3088x512.size a
  inb_S1x3088x512_S1x64x512_0_384_0 : ∀ a, (![0, 384, 0] : Fin 3 → Nat) a + S1x64x512.size a ≤ S1x3088x512.size a
  inb_S1x3088x512_S1x64x512_0_448_0 : ∀ a, (![0, 448, 0] : Fin 3 → Nat) a + S1x64x512.size a ≤ S1x3088x512.size a
  slices_S256x512_o128_0_S64x512 : S256x512.Slices ![128, 0] S64x512
  inb_S1x3088x512_S1x64x512_0_512_0 : ∀ a, (![0, 512, 0] : Fin 3 → Nat) a + S1x64x512.size a ≤ S1x3088x512.size a
  inb_S1x3088x512_S1x64x512_0_576_0 : ∀ a, (![0, 576, 0] : Fin 3 → Nat) a + S1x64x512.size a ≤ S1x3088x512.size a
  inb_S1x3088x512_S1x64x512_0_640_0 : ∀ a, (![0, 640, 0] : Fin 3 → Nat) a + S1x64x512.size a ≤ S1x3088x512.size a
  inb_S1x3088x512_S1x64x512_0_704_0 : ∀ a, (![0, 704, 0] : Fin 3 → Nat) a + S1x64x512.size a ≤ S1x3088x512.size a
  slices_S256x512_o192_0_S64x512 : S256x512.Slices ![192, 0] S64x512
  inb_S1x3088x512_S1x64x512_0_768_0 : ∀ a, (![0, 768, 0] : Fin 3 → Nat) a + S1x64x512.size a ≤ S1x3088x512.size a
  inb_S1x3088x512_S1x64x512_0_832_0 : ∀ a, (![0, 832, 0] : Fin 3 → Nat) a + S1x64x512.size a ≤ S1x3088x512.size a
  inb_S1x3088x512_S1x64x512_0_896_0 : ∀ a, (![0, 896, 0] : Fin 3 → Nat) a + S1x64x512.size a ≤ S1x3088x512.size a
  inb_S1x3088x512_S1x64x512_0_960_0 : ∀ a, (![0, 960, 0] : Fin 3 → Nat) a + S1x64x512.size a ≤ S1x3088x512.size a
  inb_S1x3088x512_S1x1024x512_0_1024_0 : ∀ a, (![0, 1024, 0] : Fin 3 → Nat) a + S1x1024x512.size a ≤ S1x3088x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S1x3088x512_S1x64x512_0_2048_0 : ∀ a, (![0, 2048, 0] : Fin 3 → Nat) a + S1x64x512.size a ≤ S1x3088x512.size a
  inb_S1x3088x512_S1x64x512_0_2112_0 : ∀ a, (![0, 2112, 0] : Fin 3 → Nat) a + S1x64x512.size a ≤ S1x3088x512.size a
  inb_S1x3088x512_S1x64x512_0_2176_0 : ∀ a, (![0, 2176, 0] : Fin 3 → Nat) a + S1x64x512.size a ≤ S1x3088x512.size a
  inb_S1x3088x512_S1x64x512_0_2240_0 : ∀ a, (![0, 2240, 0] : Fin 3 → Nat) a + S1x64x512.size a ≤ S1x3088x512.size a
  inb_S1x3088x512_S1x64x512_0_2304_0 : ∀ a, (![0, 2304, 0] : Fin 3 → Nat) a + S1x64x512.size a ≤ S1x3088x512.size a
  inb_S1x3088x512_S1x64x512_0_2368_0 : ∀ a, (![0, 2368, 0] : Fin 3 → Nat) a + S1x64x512.size a ≤ S1x3088x512.size a
  inb_S1x3088x512_S1x64x512_0_2432_0 : ∀ a, (![0, 2432, 0] : Fin 3 → Nat) a + S1x64x512.size a ≤ S1x3088x512.size a
  inb_S1x3088x512_S1x64x512_0_2496_0 : ∀ a, (![0, 2496, 0] : Fin 3 → Nat) a + S1x64x512.size a ≤ S1x3088x512.size a
  inb_S1x3088x512_S1x64x512_0_2560_0 : ∀ a, (![0, 2560, 0] : Fin 3 → Nat) a + S1x64x512.size a ≤ S1x3088x512.size a
  inb_S1x3088x512_S1x64x512_0_2624_0 : ∀ a, (![0, 2624, 0] : Fin 3 → Nat) a + S1x64x512.size a ≤ S1x3088x512.size a
  inb_S1x3088x512_S1x64x512_0_2688_0 : ∀ a, (![0, 2688, 0] : Fin 3 → Nat) a + S1x64x512.size a ≤ S1x3088x512.size a
  inb_S1x3088x512_S1x64x512_0_2752_0 : ∀ a, (![0, 2752, 0] : Fin 3 → Nat) a + S1x64x512.size a ≤ S1x3088x512.size a
  inb_S1x3088x512_S1x64x512_0_2816_0 : ∀ a, (![0, 2816, 0] : Fin 3 → Nat) a + S1x64x512.size a ≤ S1x3088x512.size a
  inb_S1x3088x512_S1x64x512_0_2880_0 : ∀ a, (![0, 2880, 0] : Fin 3 → Nat) a + S1x64x512.size a ≤ S1x3088x512.size a
  inb_S1x3088x512_S1x64x512_0_2944_0 : ∀ a, (![0, 2944, 0] : Fin 3 → Nat) a + S1x64x512.size a ≤ S1x3088x512.size a
  inb_S1x3088x512_S1x64x512_0_3008_0 : ∀ a, (![0, 3008, 0] : Fin 3 → Nat) a + S1x64x512.size a ≤ S1x3088x512.size a
  inb_S1x3088x512_S1x16x512_0_3072_0 : ∀ a, (![0, 3072, 0] : Fin 3 → Nat) a + S1x16x512.size a ≤ S1x3088x512.size a
  h_S1x16x512 : 0 < S1x16x512.numel
  shapeCasts_S1x16x512_S16x512 : S1x16x512.ShapeCasts S16x512
  shapeCasts_S16x512_S1x16x512 : S16x512.ShapeCasts S1x16x512
  dot_S1552x2048_S512x2048_S1552x512_1_1_0_0_n_n_wf : DotDims.WF S1552x2048 S512x2048 S1552x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1552x2048.size a ≤ S1552x2048.size a
  hwx0_1 : ∀ i : grid0.Coords, EltTy.bits .bf16 = 32 ∨ (Rect.block (s := S1552x2048) S1552x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1552x1.size a ≤ S1552x1.size a
  hwx0_2 : ∀ i : grid0.Coords, EltTy.bits .f32 = 32 ∨ (Rect.block (s := S1552x1) S1552x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3088x512.size a ≤ S4x3088x4096.size a
  hwx0_3 : ∀ i : grid0.Coords, EltTy.bits .f32 = 32 ∨ (Rect.block (s := S4x3088x4096) S1x3088x512.size (cc0_transform_3 i) (hinb0_3 i)).WholeWords (EltTy.packing .f32)

variable [Facts₀]

def dot_S1552x2048_S512x2048_S1552x512_1_1_0_0_n_n : DotDims S1552x2048 S512x2048 S1552x512 where
  lhsContracting := [1]
  rhsContracting := [1]
  lhsNonContracting := [0]
  rhsNonContracting := [0]
  lhsBatch := []
  rhsBatch := []
  wf := dot_S1552x2048_S512x2048_S1552x512_1_1_0_0_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1552x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1552x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x3088x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S16x2048 : Shape := ⟨2, ![16, 2048]⟩
abbrev S16 : Shape := ⟨1, ![16]⟩
abbrev S256x2048 : Shape := ⟨2, ![256, 2048]⟩
abbrev S256 : Shape := ⟨1, ![256]⟩
abbrev S1024x2048 : Shape := ⟨2, ![1024, 2048]⟩
abbrev S16x4x4096 : Shape := ⟨3, ![16, 4, 4096]⟩
abbrev S4x16x4096 : Shape := ⟨3, ![4, 16, 4096]⟩
abbrev S1x16x1 : Shape := ⟨3, ![1, 16, 1]⟩
abbrev S256x4x4096 : Shape := ⟨3, ![256, 4, 4096]⟩
abbrev S4x256x4096 : Shape := ⟨3, ![4, 256, 4096]⟩
abbrev S1x256x1 : Shape := ⟨3, ![1, 256, 1]⟩
abbrev S1024x4x4096 : Shape := ⟨3, ![1024, 4, 4096]⟩
abbrev S4x1024x4096 : Shape := ⟨3, ![4, 1024, 4096]⟩
abbrev S_ : Shape := ⟨0, ![]⟩
abbrev S4x4x64x4096 : Shape := ⟨4, ![4, 4, 64, 4096]⟩
abbrev S16x1 : Shape := ⟨2, ![16, 1]⟩
abbrev S4x16x64x4096 : Shape := ⟨4, ![4, 16, 64, 4096]⟩
abbrev S4x3088x4096 : Shape := ⟨3, ![4, 3088, 4096]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16, .f32⟩
  | .hbm, ⟨3, _⟩ => ⟨S256x2048, .f32⟩
  | .hbm, ⟨4, _⟩ => ⟨S256, .f32⟩
  | .hbm, ⟨5, _⟩ => ⟨S256x2048, .f32⟩
  | .hbm, ⟨6, _⟩ => ⟨S256, .f32⟩
  | .hbm, ⟨7, _⟩ => ⟨S1024x2048, .f32⟩
  | .hbm, ⟨8, _⟩ => ⟨S16x4x4096, .f32⟩
  | .hbm, ⟨9, _⟩ => ⟨S4x16x4096, .f32⟩
  | .hbm, ⟨10, _⟩ => ⟨S1x16x1, .f32⟩
  | .hbm, ⟨11, _⟩ => ⟨S4x16x4096, .f32⟩
  | .hbm, ⟨12, _⟩ => ⟨S4x16x4096, .f32⟩
  | .hbm, ⟨13, _⟩ => ⟨S256x4x4096, .f32⟩
  | .hbm, ⟨14, _⟩ => ⟨S4x256x4096, .f32⟩
  | .hbm, ⟨15, _⟩ => ⟨S1x256x1, .f32⟩
  | .hbm, ⟨16, _⟩ => ⟨S4x256x4096, .f32⟩
  | .hbm, ⟨17, _⟩ => ⟨S4x256x4096, .f32⟩
  | .hbm, ⟨18, _⟩ => ⟨S256x4x4096, .f32⟩
  | .hbm, ⟨19, _⟩ => ⟨S4x256x4096, .f32⟩
  | .hbm, ⟨20, _⟩ => ⟨S1x256x1, .f32⟩
  | .hbm, ⟨21, _⟩ => ⟨S4x256x4096, .f32⟩
  | .hbm, ⟨22, _⟩ => ⟨S4x256x4096, .f32⟩
  | .hbm, ⟨23, _⟩ => ⟨S1024x4x4096, .f32⟩
  | .hbm, ⟨24, _⟩ => ⟨S4x1024x4096, .f32⟩
  | .hbm, ⟨25, _⟩ => ⟨S16, .i32⟩
  | .hbm, ⟨26, _⟩ => ⟨S_, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16, .i32⟩
  | .hbm, ⟨31, _⟩ => ⟨S_, .i32⟩
  | .hbm, ⟨32, _⟩ => ⟨S16, .i32⟩
  | .hbm, ⟨33, _⟩ => ⟨S16, .i1⟩
  | .hbm, ⟨34, _⟩ => ⟨S16, .i32⟩
  | .hbm, ⟨35, _⟩ => ⟨S16, .i32⟩
  | .hbm, ⟨36, _⟩ => ⟨S_, .i32⟩
  | .hbm, ⟨37, _⟩ => ⟨S16, .i32⟩
  | .hbm, ⟨38, _⟩ => ⟨S16, .i1⟩
  | .hbm, ⟨39, _⟩ => ⟨S16, .i1⟩
  | .hbm, ⟨40, _⟩ => ⟨S_, .i32⟩
  | .hbm, ⟨41, _⟩ => ⟨S16, .i32⟩
  | .hbm, ⟨42, _⟩ => ⟨S16, .i32⟩
  | .hbm, ⟨43, _⟩ => ⟨S16, .i32⟩
  | .hbm, ⟨44, _⟩ => ⟨S4x4x64x4096, .f32⟩
  | .hbm, ⟨45, _⟩ => ⟨S_, .i32⟩
  | .hbm, ⟨46, _⟩ => ⟨S16, .i32⟩
  | .hbm, ⟨47, _⟩ => ⟨S16, .i1⟩
  | .hbm, ⟨48, _⟩ => ⟨S_, .i32⟩
  | .hbm, ⟨49, _⟩ => ⟨S16, .i32⟩
  | .hbm, ⟨50, _⟩ => ⟨S16, .i32⟩
  | .hbm, ⟨51, _⟩ => ⟨S16, .i32⟩
  | .hbm, ⟨52, _⟩ => ⟨S16x1, .i32⟩
  | .hbm, ⟨53, _⟩ => ⟨S4x16x64x4096, .f32⟩
  | .hbm, ⟨54, _⟩ => ⟨S4x1024x4096, .f32⟩
  | .hbm, ⟨55, _⟩ => ⟨S16, .i32⟩
  | .hbm, ⟨56, _⟩ => ⟨S_, .i32⟩
  | .hbm, ⟨57, _⟩ => ⟨S_, .i32⟩
  | .hbm, ⟨58, _⟩ => ⟨S16, .i32⟩
  | .hbm, ⟨59, _⟩ => ⟨S16, .i32⟩
  | .hbm, ⟨60, _⟩ => ⟨S16, .i32⟩
  | .hbm, ⟨61, _⟩ => ⟨S_, .i32⟩
  | .hbm, ⟨62, _⟩ => ⟨S16, .i32⟩
  | .hbm, ⟨63, _⟩ => ⟨S16, .i1⟩
  | .hbm, ⟨64, _⟩ => ⟨S16, .i32⟩
  | .hbm, ⟨65, _⟩ => ⟨S16, .i32⟩
  | .hbm, ⟨66, _⟩ => ⟨S_, .i32⟩
  | .hbm, ⟨67, _⟩ => ⟨S16, .i32⟩
  | .hbm, ⟨68, _⟩ => ⟨S16, .i1⟩
  | .hbm, ⟨69, _⟩ => ⟨S16, .i1⟩
  | .hbm, ⟨70, _⟩ => ⟨S_, .i32⟩
  | .hbm, ⟨71, _⟩ => ⟨S16, .i32⟩
  | .hbm, ⟨72, _⟩ => ⟨S16, .i32⟩
  | .hbm, ⟨73, _⟩ => ⟨S16, .i32⟩
  | .hbm, ⟨74, _⟩ => ⟨S4x4x64x4096, .f32⟩
  | .hbm, ⟨75, _⟩ => ⟨S_, .i32⟩
  | .hbm, ⟨76, _⟩ => ⟨S16, .i32⟩
  | .hbm, ⟨77, _⟩ => ⟨S16, .i1⟩
  | .hbm, ⟨78, _⟩ => ⟨S_, .i32⟩
  | .hbm, ⟨79, _⟩ => ⟨S16, .i32⟩
  | .hbm, ⟨80, _⟩ => ⟨S16, .i32⟩
  | .hbm, ⟨81, _⟩ => ⟨S16, .i32⟩
  | .hbm, ⟨82, _⟩ => ⟨S16x1, .i32⟩
  | .hbm, ⟨83, _⟩ => ⟨S4x16x64x4096, .f32⟩
  | .hbm, ⟨84, _⟩ => ⟨S4x1024x4096, .f32⟩
  | .hbm, ⟨85, _⟩ => ⟨S4x3088x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v18 : Ref sig .tc := ⟨.hbm, 43, rfl⟩
abbrev main_v19 : Ref sig .tc := ⟨.hbm, 44, rfl⟩
abbrev main_c_0 : Ref sig .tc := ⟨.hbm, 45, rfl⟩
abbrev main_v20 : Ref sig .tc := ⟨.hbm, 46, rfl⟩
abbrev main_v21 : Ref sig .tc := ⟨.hbm, 47, rfl⟩
abbrev main_c_1 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_2 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_c : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_0 : Ref sig .tc := ⟨.hbm, 70, rfl⟩
abbrev main_call1_v12 : Ref sig .tc := ⟨.hbm, 71, rfl⟩
abbrev main_call1_v13 : Ref sig .tc := ⟨.hbm, 72, rfl⟩
abbrev main_v29 : Ref sig .tc := ⟨.hbm, 73, rfl⟩
abbrev main_v30 : Ref sig .tc := ⟨.hbm, 74, rfl⟩
abbrev main_c_3 : Ref sig .tc := ⟨.hbm, 75, rfl⟩
abbrev main_v31 : Ref sig .tc := ⟨.hbm, 76, rfl⟩
abbrev main_v32 : Ref sig .tc := ⟨.hbm, 77, rfl⟩
abbrev main_c_4 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩

abbrev nD : Nat := 1
abbrev τ : Topo := Topo.v7x

variable {F : FTy → Type} [FloatOps F]

class Facts₀ : Prop where
  transposes_S16x4x4096_S4x16x4096_1_0_2 : S16x4x4096.Transposes [1, 0, 2] S4x16x4096
  bcast_S16_S1x16x1_1 : S16.BroadcastsInDim S1x16x1 (![1] : Fin 1 → Fin S1x16x1.rank)
  bcast_S1x16x1_S4x16x4096_0_1_2 : S1x16x1.BroadcastsInDim S4x16x4096 (![0, 1, 2] : Fin 3 → Fin S4x16x4096.rank)
  transposes_S256x4x4096_S4x256x4096_1_0_2 : S256x4x4096.Transposes [1, 0, 2] S4x256x4096
  bcast_S256_S1x256x1_1 : S256.BroadcastsInDim S1x256x1 (![1] : Fin 1 → Fin S1x256x1.rank)
  bcast_S1x256x1_S4x256x4096_0_1_2 : S1x256x1.BroadcastsInDim S4x256x4096 (![0, 1, 2] : Fin 3 → Fin S4x256x4096.rank)
  transposes_S1024x4x4096_S4x1024x4096_1_0_2 : S1024x4x4096.Transposes [1, 0, 2] S4x1024x4096
  bcast_S_S16 : S_.BroadcastsInDim S16 (![] : Fin 0 → Fin S16.rank)
  shapeCasts_S4x256x4096_S4x4x64x4096 : S4x256x4096.ShapeCasts S4x4x64x4096
  bcast_S16_S16x1_0 : S16.BroadcastsInDim S16x1 (![0] : Fin 1 → Fin S16x1.rank)
  shapeCasts_S4x16x64x4096_S4x1024x4096 : S4x16x64x4096.ShapeCasts S4x1024x4096
  concatenates_S4x1024x4096_S4x1024x4096_S4x1024x4096_S4x16x4096_S4x3088x4096_d1 : Shape.Concatenates [S4x1024x4096, S4x1024x4096, S4x1024x4096, S4x16x4096] S4x3088x4096 1
  dot_S16x2048_S4x4096x2048_S16x4x4096_1_2_0_01_n_n_wf : DotDims.WF S16x2048 S4x4096x2048 S16x4x4096 [1] [2] [0] [0, 1] [] []
  dot_S256x2048_S4x4096x2048_S256x4x4096_1_2_0_01_n_n_wf : DotDims.WF S256x2048 S4x4096x2048 S256x4x4096 [1] [2] [0] [0, 1] [] []
  dot_S1024x2048_S4x4096x2048_S1024x4x4096_1_2_0_01_n_n_wf : DotDims.WF S1024x2048 S4x4096x2048 S1024x4x4096 [1] [2] [0] [0, 1] [] []
  gather_S4x4x64x4096_S16x1_S4x16x64x4096_023_1_n_n_1_1_41644096_wf : GatherDims.WF S4x4x64x4096 S16x1 S4x16x64x4096 [0, 2, 3] [1] [] [1] [] 1 ![4, 1, 64, 4096]

variable [Facts₀]

def dot_S16x2048_S4x4096x2048_S16x4x4096_1_2_0_01_n_n : DotDims S16x2048 S4x4096x2048 S16x4x4096 where
  lhsContracting := [1]
  rhsContracting := [2]
  lhsNonContracting := [0]
  rhsNonContracting := [0, 1]
  lhsBatch := []
  rhsBatch := []
  wf := dot_S16x2048_S4x4096x2048_S16x4x4096_1_2_0_01_n_n_wf
def dot_S256x2048_S4x4096x2048_S256x4x4096_1_2_0_01_n_n : DotDims S256x2048 S4x4096x2048 S256x4x4096 where
  lhsContracting := [1]
  rhsContracting := [2]
  lhsNonContracting := [0]
  rhsNonContracting := [0, 1]
  lhsBatch := []
  rhsBatch := []
  wf := dot_S256x2048_S4x4096x2048_S256x4x4096_1_2_0_01_n_n_wf
def dot_S1024x2048_S4x4096x2048_S1024x4x4096_1_2_0_01_n_n : DotDims S1024x2048 S4x4096x2048 S1024x4x4096 where
  lhsContracting := [1]
  rhsContracting := [2]
  lhsNonContracting := [0]
  rhsNonContracting := [0, 1]
  lhsBatch := []
  rhsBatch := []
  wf := dot_S1024x2048_S4x4096x2048_S1024x4x4096_1_2_0_01_n_n_wf
def gather_S4x4x64x4096_S16x1_S4x16x64x4096_023_1_n_n_1_1_41644096 : GatherDims S4x4x64x4096 S16x1 S4x16x64x4096 where
  offsetDims := [0, 2, 3]
  collapsedSliceDims := [1]
  operandBatchingDims := []
  startIndicesBatchingDims := []
  startIndexMap := [1]
  indexVectorDim := 1
  sliceSizes := ![4, 1, 64, 4096]
  wf := gather_S4x4x64x4096_S16x1_S4x16x64x4096_023_1_n_n_1_1_41644096_wf

class Facts : Prop extends Facts₀ where

variable [Facts]
-- ==== Proof.KernelStores.lean ====
/-
  What the kernel body leaves in the staging buffer of its result window, a [1, 3088, 512] block.

  The body forms one [1552, 512] matrix P (the product of the concatenated weights with the point's [512, 2048] slab of
  the input, plus the bias column) and writes row slabs of it into the block: thirty-two slabs of 64 rows (each of the
  eight key/value heads of P written four times, to consecutive heads of the block), one slab of 1024 rows and one of
  16 rows. The slabs are disjoint and together fill all 3088 rows, so the buffer's contents after the body are the
  overlay of the thirty-four stores, whatever it held before.
-/
import proofs.«172733_j81681688035849_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Stores

open Cert.Kernel Cert.Kernel.Gen
open Idealize.ShloMosaic Idealize.ShloMosaic.Tactic Idealize.SL.Sem

variable {F : FTy → Type} [FloatOps F]

/-! ## The rectangles -/

/-- The whole of each input window's staging buffer: what the body's three loads read. -/
abbrev whole0 : Rect S1x512x2048 := Rect.unit (s := S1x512x2048) ![0, 0, 0] S1x512x2048.size inb_S1x512x2048_S1x512x2048_0_0_0
abbrev whole1 : Rect S1552x2048 := Rect.unit (s := S1552x2048) ![0, 0] S1552x2048.size inb_S1552x2048_S1552x2048_0_0
abbrev whole2 : Rect S1552x1 := Rect.unit (s := S1552x1) ![0, 0] S1552x1.size inb_S1552x1_S1552x1_0_0

/-- The row slab of the result block that starts at the row in its name. -/
abbrev slab0 : Rect S1x3088x512 := Rect.unit (s := S1x3088x512) ![0, 0, 0] S1x64x512.size inb_S1x3088x512_S1x64x512_0_0_0
abbrev slab64 : Rect S1x3088x512 := Rect.unit (s := S1x3088x512) ![0, 64, 0] S1x64x512.size inb_S1x3088x512_S1x64x512_0_64_0
abbrev slab128 : Rect S1x3088x512 := Rect.unit (s := S1x3088x512) ![0, 128, 0] S1x64x512.size inb_S1x3088x512_S1x64x512_0_128_0
abbrev slab192 : Rect S1x3088x512 := Rect.unit (s := S1x3088x512) ![0, 192, 0] S1x64x512.size inb_S1x3088x512_S1x64x512_0_192_0
abbrev slab256 : Rect S1x3088x512 := Rect.unit (s := S1x3088x512) ![0, 256, 0] S1x64x512.size inb_S1x3088x512_S1x64x512_0_256_0
abbrev slab320 : Rect S1x3088x512 := Rect.unit (s := S1x3088x512) ![0, 320, 0] S1x64x512.size inb_S1x3088x512_S1x64x512_0_320_0
abbrev slab384 : Rect S1x3088x512 := Rect.unit (s := S1x3088x512) ![0, 384, 0] S1x64x512.size inb_S1x3088x512_S1x64x512_0_384_0
abbrev slab448 : Rect S1x3088x512 := Rect.unit (s := S1x3088x512) ![0, 448, 0] S1x64x512.size inb_S1x3088x512_S1x64x512_0_448_0
abbrev slab512 : Rect S1x3088x512 := Rect.unit (s := S1x3088x512) ![0, 512, 0] S1x64x512.size inb_S1x3088x512_S1x64x512_0_512_0
abbrev slab576 : Rect S1x3088x512 := Rect.unit (s := S1x3088x512) ![0, 576, 0] S1x64x512.size inb_S1x3088x512_S1x64x512_0_576_0
abbrev slab640 : Rect S1x3088x512 := Rect.unit (s := S1x3088x512) ![0, 640, 0] S1x64x512.size inb_S1x3088x512_S1x64x512_0_640_0
abbrev slab704 : Rect S1x3088x512 := Rect.unit (s := S1x3088x512) ![0, 704, 0] S1x64x512.size inb_S1x3088x512_S1x64x512_0_704_0
abbrev slab768 : Rect S1x3088x512 := Rect.unit (s := S1x3088x512) ![0, 768, 0] S1x64x512.size inb_S1x3088x512_S1x64x512_0_768_0
abbrev slab832 : Rect S1x3088x512 := Rect.unit (s := S1x3088x512) ![0, 832, 0] S1x64x512.size inb_S1x3088x512_S1x64x512_0_832_0
abbrev slab896 : Rect S1x3088x512 := Rect.unit (s := S1x3088x512) ![0, 896, 0] S1x64x512.size inb_S1x3088x512_S1x64x512_0_896_0
abbrev slab960 : Rect S1x3088x512 := Rect.unit (s := S1x3088x512) ![0, 960, 0] S1x64x512.size inb_S1x3088x512_S1x64x512_0_960_0
abbrev slab1024 : Rect S1x3088x512 := Rect.unit (s := S1x3088x512) ![0, 1024, 0] S1x1024x512.size inb_S1x3088x512_S1x1024x512_0_1024_0
abbrev slab2048 : Rect S1x3088x512 := Rect.unit (s := S1x3088x512) ![0, 2048, 0] S1x64x512.size inb_S1x3088x512_S1x64x512_0_2048_0
abbrev slab2112 : Rect S1x3088x512 := Rect.unit (s := S1x3088x512) ![0, 2112, 0] S1x64x512.size inb_S1x3088x512_S1x64x512_0_2112_0
abbrev slab2176 : Rect S1x3088x512 := Rect.unit (s := S1x3088x512) ![0, 2176, 0] S1x64x512.size inb_S1x3088x512_S1x64x512_0_2176_0
abbrev slab2240 : Rect S1x3088x512 := Rect.unit (s := S1x3088x512) ![0, 2240, 0] S1x64x512.size inb_S1x3088x512_S1x64x512_0_2240_0
abbrev slab2304 : Rect S1x3088x512 := Rect.unit (s := S1x3088x512) ![0, 2304, 0] S1x64x512.size inb_S1x3088x512_S1x64x512_0_2304_0
abbrev slab2368 : Rect S1x3088x512 := Rect.unit (s := S1x3088x512) ![0, 2368, 0] S1x64x512.size inb_S1x3088x512_S1x64x512_0_2368_0
abbrev slab2432 : Rect S1x3088x512 := Rect.unit (s := S1x3088x512) ![0, 2432, 0] S1x64x512.size inb_S1x3088x512_S1x64x512_0_2432_0
abbrev slab2496 : Rect S1x3088x512 := Rect.unit (s := S1x3088x512) ![0, 2496, 0] S1x64x512.size inb_S1x3088x512_S1x64x512_0_2496_0
abbrev slab2560 : Rect S1x3088x512 := Rect.unit (s := S1x3088x512) ![0, 2560, 0] S1x64x512.size inb_S1x3088x512_S1x64x512_0_2560_0
abbrev slab2624 : Rect S1x3088x512 := Rect.unit (s := S1x3088x512) ![0, 2624, 0] S1x64x512.size inb_S1x3088x512_S1x64x512_0_2624_0
abbrev slab2688 : Rect S1x3088x512 := Rect.unit (s := S1x3088x512) ![0, 2688, 0] S1x64x512.size inb_S1x3088x512_S1x64x512_0_2688_0
abbrev slab2752 : Rect S1x3088x512 := Rect.unit (s := S1x3088x512) ![0, 2752, 0] S1x64x512.size inb_S1x3088x512_S1x64x512_0_2752_0
abbrev slab2816 : Rect S1x3088x512 := Rect.unit (s := S1x3088x512) ![0, 2816, 0] S1x64x512.size inb_S1x3088x512_S1x64x512_0_2816_0
abbrev slab2880 : Rect S1x3088x512 := Rect.unit (s := S1x3088x512) ![0, 2880, 0] S1x64x512.size inb_S1x3088x512_S1x64x512_0_2880_0
abbrev slab2944 : Rect S1x3088x512 := Rect.unit (s := S1x3088x512) ![0, 2944, 0] S1x64x512.size inb_S1x3088x512_S1x64x512_0_2944_0
abbrev slab3008 : Rect S1x3088x512 := Rect.unit (s := S1x3088x512) ![0, 3008, 0] S1x64x512.size inb_S1x3088x512_S1x64x512_0_3008_0
abbrev slab3072 : Rect S1x3088x512 := Rect.unit (s := S1x3088x512) ![0, 3072, 0] S1x16x512.size inb_S1x3088x512_S1x16x512_0_3072_0

/-! ## The block after the body -/

/-- The result window's staging buffer after the body, from the three input windows' buffers: the overlay of the
    thirty-four stores, the last store first; each payload is the skeleton's name for the stored value. Rows
    0–1023 are the first 256 rows of P with each 64-row head repeated four times, rows 1024–2047 are rows 512–1535
    of P, rows 2048–3071 repeat rows 256–511 of P the same way, rows 3072–3087 are rows 1536–1551 of P. -/
def out3 (x0 : Vec F S1x512x2048 .f32) (x1 : Vec F S1552x2048 .bf16) (x2 : Vec F S1552x1 .f32) : Vec F S1x3088x512 .f32 :=
  let y0 := View.ld x0 whole0
  let y1 := View.ld x1 whole1
  let y2 := View.ld x2 whole2
  View.canon [
    ⟨slab3072, k0_pay5 (k0_pay10 y0 y1 y2)⟩,
    ⟨slab3008, k0_pay4 (k0_pay47 (k0_pay8 y0 y1 y2))⟩,
    ⟨slab2944, k0_pay3 (k0_pay47 (k0_pay8 y0 y1 y2))⟩,
    ⟨slab2880, k0_pay2 (k0_pay47 (k0_pay8 y0 y1 y2))⟩,
    ⟨slab2816, k0_pay1 (k0_pay47 (k0_pay8 y0 y1 y2))⟩,
    ⟨slab2752, k0_pay46 (k0_pay8 y0 y1 y2)⟩,
    ⟨slab2688, k0_pay45 (k0_pay8 y0 y1 y2)⟩,
    ⟨slab2624, k0_pay44 (k0_pay8 y0 y1 y2)⟩,
    ⟨slab2560, k0_pay43 (k0_pay8 y0 y1 y2)⟩,
    ⟨slab2496, k0_pay41 (k0_pay37 (k0_pay8 y0 y1 y2))⟩,
    ⟨slab2432, k0_pay40 (k0_pay37 (k0_pay8 y0 y1 y2))⟩,
    ⟨slab2368, k0_pay39 (k0_pay37 (k0_pay8 y0 y1 y2))⟩,
    ⟨slab2304, k0_pay38 (k0_pay37 (k0_pay8 y0 y1 y2))⟩,
    ⟨slab2240, k0_pay36 (k0_pay8 y0 y1 y2)⟩,
    ⟨slab2176, k0_pay35 (k0_pay8 y0 y1 y2)⟩,
    ⟨slab2112, k0_pay34 (k0_pay8 y0 y1 y2)⟩,
    ⟨slab2048, k0_pay33 (k0_pay8 y0 y1 y2)⟩,
    ⟨slab1024, k0_pay31 (k0_pay9 y0 y1 y2)⟩,
    ⟨slab960, k0_pay30 (k0_pay26 (k0_pay7 y0 y1 y2))⟩,
    ⟨slab896, k0_pay29 (k0_pay26 (k0_pay7 y0 y1 y2))⟩,
    ⟨slab832, k0_pay28 (k0_pay26 (k0_pay7 y0 y1 y2))⟩,
    ⟨slab768, k0_pay27 (k0_pay7 y0 y1 y2)⟩,
    ⟨slab704, k0_pay25 (k0_pay7 y0 y1 y2)⟩,
    ⟨slab640, k0_pay24 (k0_pay7 y0 y1 y2)⟩,
    ⟨slab576, k0_pay23 (k0_pay7 y0 y1 y2)⟩,
    ⟨slab512, k0_pay22 (k0_pay7 y0 y1 y2)⟩,
    ⟨slab448, k0_pay20 (k0_pay16 y0 y1 y2)⟩,
    ⟨slab384, k0_pay19 (k0_pay16 y0 y1 y2)⟩,
    ⟨slab320, k0_pay18 (k0_pay16 y0 y1 y2)⟩,
    ⟨slab256, k0_pay17 y0 y1 y2⟩,
    ⟨slab192, k0_pay15 y0 y1 y2⟩,
    ⟨slab128, k0_pay14 y0 y1 y2⟩,
    ⟨slab64, k0_pay13 y0 y1 y2⟩,
    ⟨slab0, k0_pay12 y0 y1 y2⟩ ]

/-- The thirty-four slabs fill the block: cut into [1, 16, 512] blocks they tile it (decided on the offsets and the
    sizes alone, whatever the payloads). -/
theorem cover3 (p0 p64 p128 p192 p256 p320 p384 p448 p512 p576 p640 p704 p768 p832 p896 p960 : Vec F S1x64x512 .f32)
    (p1024 : Vec F S1x1024x512 .f32)
    (p2048 p2112 p2176 p2240 p2304 p2368 p2432 p2496 p2560 p2624 p2688 p2752 p2816 p2880 p2944 p3008 : Vec F S1x64x512 .f32)
    (p3072 : Vec F S1x16x512 .f32) (y : S1x3088x512.Idx) :
    ∃ pc ∈ ([
      ⟨slab3072, p3072⟩, ⟨slab3008, p3008⟩, ⟨slab2944, p2944⟩, ⟨slab2880, p2880⟩, ⟨slab2816, p2816⟩,
      ⟨slab2752, p2752⟩, ⟨slab2688, p2688⟩, ⟨slab2624, p2624⟩, ⟨slab2560, p2560⟩,
      ⟨slab2496, p2496⟩, ⟨slab2432, p2432⟩, ⟨slab2368, p2368⟩, ⟨slab2304, p2304⟩,
      ⟨slab2240, p2240⟩, ⟨slab2176, p2176⟩, ⟨slab2112, p2112⟩, ⟨slab2048, p2048⟩,
      ⟨slab1024, p1024⟩,
      ⟨slab960, p960⟩, ⟨slab896, p896⟩, ⟨slab832, p832⟩, ⟨slab768, p768⟩,
      ⟨slab704, p704⟩, ⟨slab640, p640⟩, ⟨slab576, p576⟩, ⟨slab512, p512⟩,
      ⟨slab448, p448⟩, ⟨slab384, p384⟩, ⟨slab320, p320⟩, ⟨slab256, p256⟩,
      ⟨slab192, p192⟩, ⟨slab128, p128⟩, ⟨slab64, p64⟩, ⟨slab0, p0⟩ ] : List (View.Piece (Elt F) S1x3088x512 .f32)),
      y ∈ pc.1.set :=
  View.cover_of_tiledBy _ ![1, 16, 512] (by sl_kernel_rfl) y

end Cert.Kernel.Stores

end
-- ==== Proof.KernelBody.lean ====
/-
  The kernel body as a Hoare triple.

  Run on four whole staging buffers — the three input windows' at contents x0, x1, x2, the result window's at anything —
  the body terminates without a fault, leaves the inputs' buffers as they were and the result's at `out3 x0 x1 x2`, the
  overlay of its thirty-four row-slab stores. The body also loads each slab of the result buffer just before it
  overwrites it; nothing is computed from those loads, so the prior contents do not matter.
-/
import proofs.«172733_j81681688035849_2_alg».proof.Proof.KernelStores
import proofs.«172733_j81681688035849_2_alg».proof.Proof.Gen.Kernel.Launch
import proofs.«172733_j81681688035849_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen Cert.Kernel.Stores
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple: from the four buffers owned whole (the result's at any contents) to the continuation holding
    the inputs unchanged and the result's buffer at `out3` of the inputs. -/
theorem sound_kernel (c : Dev nD) (E : Set ℕ) (i : grid0.Coords)
    (arg2 : Memref sig .tc .vmem S1x512x2048 .f32) (harg2 : arg2.IsWhole)
    (arg3 : Memref sig .tc .vmem S1552x2048 .bf16) (harg3 : arg3.IsWhole)
    (arg4 : Memref sig .tc .vmem S1552x1 .f32) (harg4 : arg4.IsWhole)
    (arg5 : Memref sig .tc .vmem S1x3088x512 .f32) (harg5 : arg5.IsWhole)
    (x0 : Vec F S1x512x2048 .f32) (x1 : Vec F S1552x2048 .bf16) (x2 : Vec F S1552x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out3 x0 x1 x2)) -∗ K ⟨⟩))
      ⊢ wp frame (wpE (defs₀ (F := F)) Variants.none c none) E (cc0__dense_mlp_kernel i arg2 harg2 arg3 harg3 arg4 harg4 arg5 harg5) K := by
  simp only [cc0__dense_mlp_kernel_eq_skeleton]; unfold cc0__dense_mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _ _ _ _ _ _ _ _ _ _ _ _ _ _ _ _ _ _ _ _ _ _ _ _ _ _ _ _ _ _ _ _ _)

end Cert.Kernel.Body

end
-- ==== Proof.KernelFrame.lean ====
/-
  The run of the kernel's program as printed, at any float instance, and its frame.

  The program is six host operations — the four weight matrices concatenated by rows into one [1552, 2048] matrix and
  rounded, the four bias vectors (a zero vector standing for the missing one) concatenated and turned into a column —
  followed by one pipelined region on a 4 × 8 grid. At grid point (b, l) the region stages the [512, 2048] slab l of
  batch b of the input, the whole weight matrix and the whole bias column, runs the body, and writes the [3088, 512]
  block it leaves back to columns 512·l … 512·l + 511 of batch b of the result.

  Here: what each buffer holds when the region is entered (`V`), that no host operation touches an argument, the proof
  data of the pipeline (each input window's buffer holds its block of the array, the result window's the body's
  `out3` of the three input blocks), the body obligation at every point, and from them the run: every fair execution
  ends, faults nowhere, leaves the arguments as they were and the result array at what the write-backs assemble.
-/
import proofs.«172733_j81681688035849_2_alg».proof.Proof.KernelBody
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen Cert.Kernel.Stores Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the six host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the six host operations writes is found by the region as launched. The six written buffers are
    the two concatenations, the rounded weights, the zero, its broadcast and the bias column. -/
theorem V_unwritten (c : Dev nD) (b : Ref sig .tc)
    (h : b ≠ main_v0 ∧ b ≠ main_v1 ∧ b ≠ main_cst ∧ b ≠ main_v2 ∧ b ≠ main_v3 ∧ b ≠ main_v4) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.nary_writes,
      StableHlo.reshape_writes, Finset.mem_singleton]
    exact ⟨StableHlo.devRef_ne_of_ne h.1, StableHlo.devRef_ne_of_ne h.2.1, StableHlo.devRef_ne_of_ne h.2.2.1,
      StableHlo.devRef_ne_of_ne h.2.2.2.1, StableHlo.devRef_ne_of_ne h.2.2.2.2.1, StableHlo.devRef_ne_of_ne h.2.2.2.2.2⟩))

theorem V_main_arg0 (c : Dev nD) : V m c main_arg0 = m ((c : Thread nD τ).loc main_arg0) := V_unwritten m c _ (by decide)
theorem V_main_arg1 (c : Dev nD) : V m c main_arg1 = m ((c : Thread nD τ).loc main_arg1) := V_unwritten m c _ (by decide)
theorem V_main_arg2 (c : Dev nD) : V m c main_arg2 = m ((c : Thread nD τ).loc main_arg2) := V_unwritten m c _ (by decide)
theorem V_main_arg3 (c : Dev nD) : V m c main_arg3 = m ((c : Thread nD τ).loc main_arg3) := V_unwritten m c _ (by decide)
theorem V_main_arg4 (c : Dev nD) : V m c main_arg4 = m ((c : Thread nD τ).loc main_arg4) := V_unwritten m c _ (by decide)
theorem V_main_arg5 (c : Dev nD) : V m c main_arg5 = m ((c : Thread nD τ).loc main_arg5) := V_unwritten m c _ (by decide)
theorem V_main_arg6 (c : Dev nD) : V m c main_arg6 = m ((c : Thread nD τ).loc main_arg6) := V_unwritten m c _ (by decide)
theorem V_main_arg7 (c : Dev nD) : V m c main_arg7 = m ((c : Thread nD τ).loc main_arg7) := V_unwritten m c _ (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a point that does
    not fetch it has the same block index as the point before), for proof data whose array is the region-entry
    contents and whose body leaves the block in place. The three input windows are never idle and never clipped. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The pipeline's proof data on core `c`: the arrays as the region finds them; after the body at point `t` each
    input's buffer at its block and the result's at `out3` of the three input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out3 (iblk m c 0 t) (iblk m c 1 t) (iblk m c 2 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, with every array of the pipeline at what
    the write-backs assemble from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The eight arguments end as launched: the input array is a staged input of the pipeline, the other seven bypass
    the region; no host operation writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.Kernel.Frame

end
-- ==== Proof.KernelIdealStores.lean ====
/-
  What the kernel body leaves in the staging buffer of its result window, a [1, 3088, 512] block.

  The body forms one [1552, 512] matrix P (the product of the concatenated weights with the point's [512, 2048] slab of
  the input, plus the bias column) and writes row slabs of it into the block: thirty-two slabs of 64 rows (each of the
  eight key/value heads of P written four times, to consecutive heads of the block), one slab of 1024 rows and one of
  16 rows. The slabs are disjoint and together fill all 3088 rows, so the buffer's contents after the body are the
  overlay of the thirty-four stores, whatever it held before.
-/
import proofs.«172733_j81681688035849_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Stores

open Cert.KernelIdeal Cert.KernelIdeal.Gen
open Idealize.ShloMosaic Idealize.ShloMosaic.Tactic Idealize.SL.Sem

variable {F : FTy → Type} [FloatOps F]

/-! ## The rectangles -/

/-- The whole of each input window's staging buffer: what the body's three loads read. -/
abbrev whole0 : Rect S1x512x2048 := Rect.unit (s := S1x512x2048) ![0, 0, 0] S1x512x2048.size inb_S1x512x2048_S1x512x2048_0_0_0
abbrev whole1 : Rect S1552x2048 := Rect.unit (s := S1552x2048) ![0, 0] S1552x2048.size inb_S1552x2048_S1552x2048_0_0
abbrev whole2 : Rect S1552x1 := Rect.unit (s := S1552x1) ![0, 0] S1552x1.size inb_S1552x1_S1552x1_0_0

/-- The row slab of the result block that starts at the row in its name. -/
abbrev slab0 : Rect S1x3088x512 := Rect.unit (s := S1x3088x512) ![0, 0, 0] S1x64x512.size inb_S1x3088x512_S1x64x512_0_0_0
abbrev slab64 : Rect S1x3088x512 := Rect.unit (s := S1x3088x512) ![0, 64, 0] S1x64x512.size inb_S1x3088x512_S1x64x512_0_64_0
abbrev slab128 : Rect S1x3088x512 := Rect.unit (s := S1x3088x512) ![0, 128, 0] S1x64x512.size inb_S1x3088x512_S1x64x512_0_128_0
abbrev slab192 : Rect S1x3088x512 := Rect.unit (s := S1x3088x512) ![0, 192, 0] S1x64x512.size inb_S1x3088x512_S1x64x512_0_192_0
abbrev slab256 : Rect S1x3088x512 := Rect.unit (s := S1x3088x512) ![0, 256, 0] S1x64x512.size inb_S1x3088x512_S1x64x512_0_256_0
abbrev slab320 : Rect S1x3088x512 := Rect.unit (s := S1x3088x512) ![0, 320, 0] S1x64x512.size inb_S1x3088x512_S1x64x512_0_320_0
abbrev slab384 : Rect S1x3088x512 := Rect.unit (s := S1x3088x512) ![0, 384, 0] S1x64x512.size inb_S1x3088x512_S1x64x512_0_384_0
abbrev slab448 : Rect S1x3088x512 := Rect.unit (s := S1x3088x512) ![0, 448, 0] S1x64x512.size inb_S1x3088x512_S1x64x512_0_448_0
abbrev slab512 : Rect S1x3088x512 := Rect.unit (s := S1x3088x512) ![0, 512, 0] S1x64x512.size inb_S1x3088x512_S1x64x512_0_512_0
abbrev slab576 : Rect S1x3088x512 := Rect.unit (s := S1x3088x512) ![0, 576, 0] S1x64x512.size inb_S1x3088x512_S1x64x512_0_576_0
abbrev slab640 : Rect S1x3088x512 := Rect.unit (s := S1x3088x512) ![0, 640, 0] S1x64x512.size inb_S1x3088x512_S1x64x512_0_640_0
abbrev slab704 : Rect S1x3088x512 := Rect.unit (s := S1x3088x512) ![0, 704, 0] S1x64x512.size inb_S1x3088x512_S1x64x512_0_704_0
abbrev slab768 : Rect S1x3088x512 := Rect.unit (s := S1x3088x512) ![0, 768, 0] S1x64x512.size inb_S1x3088x512_S1x64x512_0_768_0
abbrev slab832 : Rect S1x3088x512 := Rect.unit (s := S1x3088x512) ![0, 832, 0] S1x64x512.size inb_S1x3088x512_S1x64x512_0_832_0
abbrev slab896 : Rect S1x3088x512 := Rect.unit (s := S1x3088x512) ![0, 896, 0] S1x64x512.size inb_S1x3088x512_S1x64x512_0_896_0
abbrev slab960 : Rect S1x3088x512 := Rect.unit (s := S1x3088x512) ![0, 960, 0] S1x64x512.size inb_S1x3088x512_S1x64x512_0_960_0
abbrev slab1024 : Rect S1x3088x512 := Rect.unit (s := S1x3088x512) ![0, 1024, 0] S1x1024x512.size inb_S1x3088x512_S1x1024x512_0_1024_0
abbrev slab2048 : Rect S1x3088x512 := Rect.unit (s := S1x3088x512) ![0, 2048, 0] S1x64x512.size inb_S1x3088x512_S1x64x512_0_2048_0
abbrev slab2112 : Rect S1x3088x512 := Rect.unit (s := S1x3088x512) ![0, 2112, 0] S1x64x512.size inb_S1x3088x512_S1x64x512_0_2112_0
abbrev slab2176 : Rect S1x3088x512 := Rect.unit (s := S1x3088x512) ![0, 2176, 0] S1x64x512.size inb_S1x3088x512_S1x64x512_0_2176_0
abbrev slab2240 : Rect S1x3088x512 := Rect.unit (s := S1x3088x512) ![0, 2240, 0] S1x64x512.size inb_S1x3088x512_S1x64x512_0_2240_0
abbrev slab2304 : Rect S1x3088x512 := Rect.unit (s := S1x3088x512) ![0, 2304, 0] S1x64x512.size inb_S1x3088x512_S1x64x512_0_2304_0
abbrev slab2368 : Rect S1x3088x512 := Rect.unit (s := S1x3088x512) ![0, 2368, 0] S1x64x512.size inb_S1x3088x512_S1x64x512_0_2368_0
abbrev slab2432 : Rect S1x3088x512 := Rect.unit (s := S1x3088x512) ![0, 2432, 0] S1x64x512.size inb_S1x3088x512_S1x64x512_0_2432_0
abbrev slab2496 : Rect S1x3088x512 := Rect.unit (s := S1x3088x512) ![0, 2496, 0] S1x64x512.size inb_S1x3088x512_S1x64x512_0_2496_0
abbrev slab2560 : Rect S1x3088x512 := Rect.unit (s := S1x3088x512) ![0, 2560, 0] S1x64x512.size inb_S1x3088x512_S1x64x512_0_2560_0
abbrev slab2624 : Rect S1x3088x512 := Rect.unit (s := S1x3088x512) ![0, 2624, 0] S1x64x512.size inb_S1x3088x512_S1x64x512_0_2624_0
abbrev slab2688 : Rect S1x3088x512 := Rect.unit (s := S1x3088x512) ![0, 2688, 0] S1x64x512.size inb_S1x3088x512_S1x64x512_0_2688_0
abbrev slab2752 : Rect S1x3088x512 := Rect.unit (s := S1x3088x512) ![0, 2752, 0] S1x64x512.size inb_S1x3088x512_S1x64x512_0_2752_0
abbrev slab2816 : Rect S1x3088x512 := Rect.unit (s := S1x3088x512) ![0, 2816, 0] S1x64x512.size inb_S1x3088x512_S1x64x512_0_2816_0
abbrev slab2880 : Rect S1x3088x512 := Rect.unit (s := S1x3088x512) ![0, 2880, 0] S1x64x512.size inb_S1x3088x512_S1x64x512_0_2880_0
abbrev slab2944 : Rect S1x3088x512 := Rect.unit (s := S1x3088x512) ![0, 2944, 0] S1x64x512.size inb_S1x3088x512_S1x64x512_0_2944_0
abbrev slab3008 : Rect S1x3088x512 := Rect.unit (s := S1x3088x512) ![0, 3008, 0] S1x64x512.size inb_S1x3088x512_S1x64x512_0_3008_0
abbrev slab3072 : Rect S1x3088x512 := Rect.unit (s := S1x3088x512) ![0, 3072, 0] S1x16x512.size inb_S1x3088x512_S1x16x512_0_3072_0

/-! ## The block after the body -/

/-- The result window's staging buffer after the body, from the three input windows' buffers: the overlay of the
    thirty-four stores, the last store first; each payload is the skeleton's name for the stored value. Rows
    0–1023 are the first 256 rows of P with each 64-row head repeated four times, rows 1024–2047 are rows 512–1535
    of P, rows 2048–3071 repeat rows 256–511 of P the same way, rows 3072–3087 are rows 1536–1551 of P. -/
def out3 (x0 : Vec F S1x512x2048 .f32) (x1 : Vec F S1552x2048 .bf16) (x2 : Vec F S1552x1 .f32) : Vec F S1x3088x512 .f32 :=
  let y0 := View.ld x0 whole0
  let y1 := View.ld x1 whole1
  let y2 := View.ld x2 whole2
  View.canon [
    ⟨slab3072, k0_pay5 (k0_pay10 y0 y1 y2)⟩,
    ⟨slab3008, k0_pay4 (k0_pay47 (k0_pay8 y0 y1 y2))⟩,
    ⟨slab2944, k0_pay3 (k0_pay47 (k0_pay8 y0 y1 y2))⟩,
    ⟨slab2880, k0_pay2 (k0_pay47 (k0_pay8 y0 y1 y2))⟩,
    ⟨slab2816, k0_pay1 (k0_pay47 (k0_pay8 y0 y1 y2))⟩,
    ⟨slab2752, k0_pay46 (k0_pay8 y0 y1 y2)⟩,
    ⟨slab2688, k0_pay45 (k0_pay8 y0 y1 y2)⟩,
    ⟨slab2624, k0_pay44 (k0_pay8 y0 y1 y2)⟩,
    ⟨slab2560, k0_pay43 (k0_pay8 y0 y1 y2)⟩,
    ⟨slab2496, k0_pay41 (k0_pay37 (k0_pay8 y0 y1 y2))⟩,
    ⟨slab2432, k0_pay40 (k0_pay37 (k0_pay8 y0 y1 y2))⟩,
    ⟨slab2368, k0_pay39 (k0_pay37 (k0_pay8 y0 y1 y2))⟩,
    ⟨slab2304, k0_pay38 (k0_pay37 (k0_pay8 y0 y1 y2))⟩,
    ⟨slab2240, k0_pay36 (k0_pay8 y0 y1 y2)⟩,
    ⟨slab2176, k0_pay35 (k0_pay8 y0 y1 y2)⟩,
    ⟨slab2112, k0_pay34 (k0_pay8 y0 y1 y2)⟩,
    ⟨slab2048, k0_pay33 (k0_pay8 y0 y1 y2)⟩,
    ⟨slab1024, k0_pay31 (k0_pay9 y0 y1 y2)⟩,
    ⟨slab960, k0_pay30 (k0_pay26 (k0_pay7 y0 y1 y2))⟩,
    ⟨slab896, k0_pay29 (k0_pay26 (k0_pay7 y0 y1 y2))⟩,
    ⟨slab832, k0_pay28 (k0_pay26 (k0_pay7 y0 y1 y2))⟩,
    ⟨slab768, k0_pay27 (k0_pay7 y0 y1 y2)⟩,
    ⟨slab704, k0_pay25 (k0_pay7 y0 y1 y2)⟩,
    ⟨slab640, k0_pay24 (k0_pay7 y0 y1 y2)⟩,
    ⟨slab576, k0_pay23 (k0_pay7 y0 y1 y2)⟩,
    ⟨slab512, k0_pay22 (k0_pay7 y0 y1 y2)⟩,
    ⟨slab448, k0_pay20 (k0_pay16 y0 y1 y2)⟩,
    ⟨slab384, k0_pay19 (k0_pay16 y0 y1 y2)⟩,
    ⟨slab320, k0_pay18 (k0_pay16 y0 y1 y2)⟩,
    ⟨slab256, k0_pay17 y0 y1 y2⟩,
    ⟨slab192, k0_pay15 y0 y1 y2⟩,
    ⟨slab128, k0_pay14 y0 y1 y2⟩,
    ⟨slab64, k0_pay13 y0 y1 y2⟩,
    ⟨slab0, k0_pay12 y0 y1 y2⟩ ]

/-- The thirty-four slabs fill the block: cut into [1, 16, 512] blocks they tile it (decided on the offsets and the
    sizes alone, whatever the payloads). -/
theorem cover3 (p0 p64 p128 p192 p256 p320 p384 p448 p512 p576 p640 p704 p768 p832 p896 p960 : Vec F S1x64x512 .f32)
    (p1024 : Vec F S1x1024x512 .f32)
    (p2048 p2112 p2176 p2240 p2304 p2368 p2432 p2496 p2560 p2624 p2688 p2752 p2816 p2880 p2944 p3008 : Vec F S1x64x512 .f32)
    (p3072 : Vec F S1x16x512 .f32) (y : S1x3088x512.Idx) :
    ∃ pc ∈ ([
      ⟨slab3072, p3072⟩, ⟨slab3008, p3008⟩, ⟨slab2944, p2944⟩, ⟨slab2880, p2880⟩, ⟨slab2816, p2816⟩,
      ⟨slab2752, p2752⟩, ⟨slab2688, p2688⟩, ⟨slab2624, p2624⟩, ⟨slab2560, p2560⟩,
      ⟨slab2496, p2496⟩, ⟨slab2432, p2432⟩, ⟨slab2368, p2368⟩, ⟨slab2304, p2304⟩,
      ⟨slab2240, p2240⟩, ⟨slab2176, p2176⟩, ⟨slab2112, p2112⟩, ⟨slab2048, p2048⟩,
      ⟨slab1024, p1024⟩,
      ⟨slab960, p960⟩, ⟨slab896, p896⟩, ⟨slab832, p832⟩, ⟨slab768, p768⟩,
      ⟨slab704, p704⟩, ⟨slab640, p640⟩, ⟨slab576, p576⟩, ⟨slab512, p512⟩,
      ⟨slab448, p448⟩, ⟨slab384, p384⟩, ⟨slab320, p320⟩, ⟨slab256, p256⟩,
      ⟨slab192, p192⟩, ⟨slab128, p128⟩, ⟨slab64, p64⟩, ⟨slab0, p0⟩ ] : List (View.Piece (Elt F) S1x3088x512 .f32)),
      y ∈ pc.1.set :=
  View.cover_of_tiledBy _ ![1, 16, 512] (by sl_kernel_rfl) y

end Cert.KernelIdeal.Stores

end
-- ==== Proof.KernelIdealBody.lean ====
/-
  The kernel body as a Hoare triple.

  Run on four whole staging buffers — the three input windows' at contents x0, x1, x2, the result window's at anything —
  the body terminates without a fault, leaves the inputs' buffers as they were and the result's at `out3 x0 x1 x2`, the
  overlay of its thirty-four row-slab stores. The body also loads each slab of the result buffer just before it
  overwrites it; nothing is computed from those loads, so the prior contents do not matter.
-/
import proofs.«172733_j81681688035849_2_alg».proof.Proof.KernelIdealStores
import proofs.«172733_j81681688035849_2_alg».proof.Proof.Gen.KernelIdeal.Launch
import proofs.«172733_j81681688035849_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen Cert.KernelIdeal.Stores
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple: from the four buffers owned whole (the result's at any contents) to the continuation holding
    the inputs unchanged and the result's buffer at `out3` of the inputs. -/
theorem sound_kernel (c : Dev nD) (E : Set ℕ) (i : grid0.Coords)
    (arg2 : Memref sig .tc .vmem S1x512x2048 .f32) (harg2 : arg2.IsWhole)
    (arg3 : Memref sig .tc .vmem S1552x2048 .bf16) (harg3 : arg3.IsWhole)
    (arg4 : Memref sig .tc .vmem S1552x1 .f32) (harg4 : arg4.IsWhole)
    (arg5 : Memref sig .tc .vmem S1x3088x512 .f32) (harg5 : arg5.IsWhole)
    (x0 : Vec F S1x512x2048 .f32) (x1 : Vec F S1552x2048 .bf16) (x2 : Vec F S1552x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out3 x0 x1 x2)) -∗ K ⟨⟩))
      ⊢ wp frame (wpE (defs₀ (F := F)) Variants.none c none) E (cc0__dense_mlp_kernel i arg2 harg2 arg3 harg3 arg4 harg4 arg5 harg5) K := by
  simp only [cc0__dense_mlp_kernel_eq_skeleton]; unfold cc0__dense_mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _ _ _ _ _ _ _ _ _ _ _ _ _ _ _ _ _ _ _ _ _ _ _ _ _ _ _ _ _ _ _ _ _)

end Cert.KernelIdeal.Body

end
-- ==== Proof.KernelIdealFrame.lean ====
/-
  The run of the idealized kernel's program, and its frame.

  The program is six host operations — the four weight matrices concatenated by rows into one [1552, 2048] matrix and
  rounded, the four bias vectors (a zero vector standing for the missing one) concatenated and turned into a column —
  followed by one pipelined region on a 4 × 8 grid. At grid point (b, l) the region stages the [512, 2048] slab l of
  batch b of the input, the whole weight matrix and the whole bias column, runs the body, and writes the [3088, 512]
  block it leaves back to columns 512·l … 512·l + 511 of batch b of the result.

  Here: what each buffer holds when the region is entered (`V`), that no host operation touches an argument, the proof
  data of the pipeline (each input window's buffer holds its block of the array, the result window's the body's
  `out3` of the three input blocks), the body obligation at every point, and from them the run: every fair execution
  ends, faults nowhere, leaves the arguments as they were and the result array at what the write-backs assemble.
-/
import proofs.«172733_j81681688035849_2_alg».proof.Proof.KernelIdealBody
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen Cert.KernelIdeal.Stores Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the six host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the six host operations writes is found by the region as launched. The six written buffers are
    the two concatenations, the rounded weights, the zero, its broadcast and the bias column. -/
theorem V_unwritten (c : Dev nD) (b : Ref sig .tc)
    (h : b ≠ main_v0 ∧ b ≠ main_v1 ∧ b ≠ main_cst ∧ b ≠ main_v2 ∧ b ≠ main_v3 ∧ b ≠ main_v4) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.nary_writes,
      StableHlo.reshape_writes, Finset.mem_singleton]
    exact ⟨StableHlo.devRef_ne_of_ne h.1, StableHlo.devRef_ne_of_ne h.2.1, StableHlo.devRef_ne_of_ne h.2.2.1,
      StableHlo.devRef_ne_of_ne h.2.2.2.1, StableHlo.devRef_ne_of_ne h.2.2.2.2.1, StableHlo.devRef_ne_of_ne h.2.2.2.2.2⟩))

theorem V_main_arg0 (c : Dev nD) : V m c main_arg0 = m ((c : Thread nD τ).loc main_arg0) := V_unwritten m c _ (by decide)
theorem V_main_arg1 (c : Dev nD) : V m c main_arg1 = m ((c : Thread nD τ).loc main_arg1) := V_unwritten m c _ (by decide)
theorem V_main_arg2 (c : Dev nD) : V m c main_arg2 = m ((c : Thread nD τ).loc main_arg2) := V_unwritten m c _ (by decide)
theorem V_main_arg3 (c : Dev nD) : V m c main_arg3 = m ((c : Thread nD τ).loc main_arg3) := V_unwritten m c _ (by decide)
theorem V_main_arg4 (c : Dev nD) : V m c main_arg4 = m ((c : Thread nD τ).loc main_arg4) := V_unwritten m c _ (by decide)
theorem V_main_arg5 (c : Dev nD) : V m c main_arg5 = m ((c : Thread nD τ).loc main_arg5) := V_unwritten m c _ (by decide)
theorem V_main_arg6 (c : Dev nD) : V m c main_arg6 = m ((c : Thread nD τ).loc main_arg6) := V_unwritten m c _ (by decide)
theorem V_main_arg7 (c : Dev nD) : V m c main_arg7 = m ((c : Thread nD τ).loc main_arg7) := V_unwritten m c _ (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a point that does
    not fetch it has the same block index as the point before), for proof data whose array is the region-entry
    contents and whose body leaves the block in place. The three input windows are never idle and never clipped. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The pipeline's proof data on core `c`: the arrays as the region finds them; after the body at point `t` each
    input's buffer at its block and the result's at `out3` of the three input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out3 (iblk m c 0 t) (iblk m c 1 t) (iblk m c 2 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, with every array of the pipeline at what
    the write-backs assemble from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The eight arguments end as launched: the input array is a staged input of the pipeline, the other seven bypass
    the region; no host operation writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Frame

end
-- ==== Proof.Spec.lean ====
/-
  The function both programs compute, index by index, on the extended reals.

  From an input x : [4, 4096, 2048] and weights stored [out, in], a linear projection transposed to channels-major is
  proj W x (b, c, l) = Σ_d W[c, d] · x[b, l, d]. The packed result [4, 3088, 4096] stacks, along the channel axis:
  rows 0–1023 the 256-channel projection by Wb (plus its bias) with each of its four 64-row heads repeated four times —
  row r takes channel 64·(r / 256) + r % 64 —; rows 1024–2047 the 1024-channel projection by Wv, no bias; rows 2048–3071
  the projection by Wc (plus its bias) repeated in the same way; rows 3072–3087 the 16-channel projection by Wa plus
  its bias.
-/
import Idealize.ShloMosaic.PureOps.Ideal
import Idealize.ShloMosaic.Lib.ValueIdx

noncomputable section

open scoped BigOperators

namespace Cert.Gates

open Idealize.ShloMosaic Idealize.ShloMosaic.ValueIdx

/-- One projection, channels-major: entry (b, c, l) is the sum over d of W[c, d] · x[b, l, d]. -/
def proj {R : Nat} (W : FVec Ideal ⟨2, ![R, 2048]⟩ .f32) (x : FVec Ideal ⟨3, ![4, 4096, 2048]⟩ .f32)
    (b : Fin 4) (c : Fin R) (l : Fin 4096) : EReal :=
  ∑ d : Fin 2048, W (ix2 c d) * x (ix3 b l d)

/-- The channel of a 256-channel projection that row `r` of its four-fold head repeat takes: head r / 256, row r % 64
    within the head. -/
def kvRow (r : Nat) : Nat := r / 256 * 64 + r % 64

theorem kvRow_lt {r : Nat} (h : r < 1024) : kvRow r < 256 := by unfold kvRow; omega

/-- The packed result at batch `b`, row `r`, position `l`. -/
def packedAt (x : FVec Ideal ⟨3, ![4, 4096, 2048]⟩ .f32)
    (Wa : FVec Ideal ⟨2, ![16, 2048]⟩ .f32) (ba : FVec Ideal ⟨1, ![16]⟩ .f32)
    (Wb : FVec Ideal ⟨2, ![256, 2048]⟩ .f32) (bb : FVec Ideal ⟨1, ![256]⟩ .f32)
    (Wc : FVec Ideal ⟨2, ![256, 2048]⟩ .f32) (bc : FVec Ideal ⟨1, ![256]⟩ .f32)
    (Wv : FVec Ideal ⟨2, ![1024, 2048]⟩ .f32)
    (b : Fin 4) (r : Fin 3088) (l : Fin 4096) : EReal :=
  if h1 : r.val < 1024 then
    proj Wb x b ⟨kvRow r.val, kvRow_lt h1⟩ l + bb (ix1 (⟨kvRow r.val, kvRow_lt h1⟩ : Fin 256))
  else if h2 : r.val < 2048 then
    proj Wv x b ⟨r.val - 1024, by omega⟩ l
  else if h3 : r.val < 3072 then
    proj Wc x b ⟨kvRow (r.val - 2048), kvRow_lt (by omega)⟩ l + bc (ix1 (⟨kvRow (r.val - 2048), kvRow_lt (by omega)⟩ : Fin 256))
  else
    proj Wa x b ⟨r.val - 3072, by have := r.isLt; omega⟩ l + ba (ix1 (⟨r.val - 3072, by have := r.isLt; omega⟩ : Fin 16))

/-- The packed result as an array. -/
def packed (x : FVec Ideal ⟨3, ![4, 4096, 2048]⟩ .f32)
    (Wa : FVec Ideal ⟨2, ![16, 2048]⟩ .f32) (ba : FVec Ideal ⟨1, ![16]⟩ .f32)
    (Wb : FVec Ideal ⟨2, ![256, 2048]⟩ .f32) (bb : FVec Ideal ⟨1, ![256]⟩ .f32)
    (Wc : FVec Ideal ⟨2, ![256, 2048]⟩ .f32) (bc : FVec Ideal ⟨1, ![256]⟩ .f32)
    (Wv : FVec Ideal ⟨2, ![1024, 2048]⟩ .f32) : FVec Ideal ⟨3, ![4, 3088, 4096]⟩ .f32 :=
  fun j => packedAt x Wa ba Wb bb Wc bc Wv (j 0) (j 1) (j 2)

theorem packed_ix3 (x : FVec Ideal ⟨3, ![4, 4096, 2048]⟩ .f32)
    (Wa : FVec Ideal ⟨2, ![16, 2048]⟩ .f32) (ba : FVec Ideal ⟨1, ![16]⟩ .f32)
    (Wb : FVec Ideal ⟨2, ![256, 2048]⟩ .f32) (bb : FVec Ideal ⟨1, ![256]⟩ .f32)
    (Wc : FVec Ideal ⟨2, ![256, 2048]⟩ .f32) (bc : FVec Ideal ⟨1, ![256]⟩ .f32)
    (Wv : FVec Ideal ⟨2, ![1024, 2048]⟩ .f32) (b : Fin 4) (r : Fin 3088) (l : Fin 4096) :
    packed x Wa ba Wb bb Wc bc Wv (ix3 b r l) = packedAt x Wa ba Wb bb Wc bc Wv b r l := rfl

/-! ## The kernel's arrangement: one concatenated projection

The kernel multiplies the input by the four weight matrices stacked by rows in the order Wb, Wc, Wv, Wa (1552 rows),
adds the stacked biases (zeros for Wv's rows), and copies rows of that one product into the packed result. -/

/-- The row of the stacked product that row `r` of the packed result takes. -/
def catRow (r : Nat) : Nat :=
  if r < 1024 then kvRow r else if r < 2048 then 512 + (r - 1024) else if r < 3072 then 256 + kvRow (r - 2048) else 1536 + (r - 3072)

theorem catRow_lt {r : Nat} (h : r < 3088) : catRow r < 1552 := by
  unfold catRow kvRow; split_ifs <;> omega

/-- The stacked weights at row `c`, column `d`. -/
def wcat (Wa : FVec Ideal ⟨2, ![16, 2048]⟩ .f32) (Wb : FVec Ideal ⟨2, ![256, 2048]⟩ .f32)
    (Wc : FVec Ideal ⟨2, ![256, 2048]⟩ .f32) (Wv : FVec Ideal ⟨2, ![1024, 2048]⟩ .f32) (c : Fin 1552) (d : Fin 2048) : EReal :=
  if h1 : c.val < 256 then Wb (ix2 (⟨c.val, h1⟩ : Fin 256) d)
  else if h2 : c.val < 512 then Wc (ix2 (⟨c.val - 256, by omega⟩ : Fin 256) d)
  else if h3 : c.val < 1536 then Wv (ix2 (⟨c.val - 512, by omega⟩ : Fin 1024) d)
  else Wa (ix2 (⟨c.val - 1536, by have := c.isLt; omega⟩ : Fin 16) d)

/-- The stacked biases at row `c`: zero on Wv's rows. -/
def bcat (ba : FVec Ideal ⟨1, ![16]⟩ .f32) (bb : FVec Ideal ⟨1, ![256]⟩ .f32) (bc : FVec Ideal ⟨1, ![256]⟩ .f32)
    (c : Fin 1552) : EReal :=
  if h1 : c.val < 256 then bb (ix1 (⟨c.val, h1⟩ : Fin 256))
  else if h2 : c.val < 512 then bc (ix1 (⟨c.val - 256, by omega⟩ : Fin 256))
  else if h3 : c.val < 1536 then 0
  else ba (ix1 (⟨c.val - 1536, by have := c.isLt; omega⟩ : Fin 16))

end Cert.Gates

end
-- ==== Proof.KernelIdealValue.lean ====
/-
  The idealized kernel's result array after the run, as one function of the arrays the region finds.

  At grid point (b, l) the region writes the block the body left to rows 0 … 3087, columns 512·l … 512·l + 511 of batch b
  of the result. Entry (0, r, j) of that block is row catRow r of the stacked product at column j: the sum over d of
  the stacked weights at (catRow r, d) times the input slab's (0, j, d), plus the stacked bias at catRow r. The input
  slab at that point is batch b, positions 512·l … 512·l + 511 of the input; the weights' and the bias's windows are the
  whole arrays at every point. So the block written at (b, l) is block (b, l) of ONE function of the arrays, the
  thirty-two blocks fill the result, and the result array ends at that function.
-/
import proofs.«172733_j81681688035849_2_alg».proof.Proof.KernelIdealFrame
import proofs.«172733_j81681688035849_2_alg».proof.Proof.Spec
import Idealize.ShloMosaic.Lib.Pipeline.Value
import Idealize.ShloMosaic.Lib.ValueIdx

set_option maxRecDepth 16384

noncomputable section

open scoped BigOperators

namespace Cert.KernelIdeal.Value

open Cert.KernelIdeal Cert.KernelIdeal.Gen Cert.KernelIdeal.Stores Cert.KernelIdeal.Frame
open Idealize.ShloMosaic Idealize.ShloMosaic.TcCoe Idealize.ShloMosaic.ValueIdx Idealize.SL.Sem
open Idealize.ShloMosaic.Pipeline (Dat)
open Cert.Gates (catRow catRow_lt)

variable (m : (ℓ : Loc nD τ sig) → Buf (Elt Ideal) ℓ) (ρ : Dev nD → PrngReg)

/-- What the body's block is, index by index, from the three input blocks (proved where the stores are read). -/
def BlockSpec : Prop :=
  ∀ (x0 : Vec Ideal S1x512x2048 .f32) (x1 : Vec Ideal S1552x2048 .bf16) (x2 : Vec Ideal S1552x1 .f32) (r : Fin 3088) (l : Fin 512),
    out3 (F := Ideal) x0 x1 x2 (ix3 (0 : Fin 1) r l)
      = (∑ d : Fin 2048, x1 (ix2 (⟨catRow r.val, catRow_lt r.isLt⟩ : Fin 1552) d) * x0 (ix3 (0 : Fin 1) l d))
        + x2 (ix2 (⟨catRow r.val, catRow_lt r.isLt⟩ : Fin 1552) (0 : Fin 1))

/-- The result array from the input array, the stacked weights and the stacked bias column: entry (b, r, p) is the
    sum over d of weights (catRow r, d) · input (b, p, d), plus bias (catRow r). -/
def assembled (A0 : S4x4096x2048.Idx → Elt Ideal .f32) (W1 : S1552x2048.Idx → Elt Ideal .bf16) (B2 : S1552x1.Idx → Elt Ideal .f32) :
    S4x3088x4096.Idx → Elt Ideal .f32 :=
  fun i => ((∑ d : Fin 2048, (W1 (ix2 (⟨catRow (i 1).val, catRow_lt (i 1).isLt⟩ : Fin 1552) d) : EReal) * (A0 (ix3 (i 0) (i 2) d) : EReal))
    + (B2 (ix2 (⟨catRow (i 1).val, catRow_lt (i 1).isLt⟩ : Fin 1552) (0 : Fin 1)) : EReal) : EReal)

theorem assembled_ix3 (A0 : S4x4096x2048.Idx → Elt Ideal .f32) (W1 : S1552x2048.Idx → Elt Ideal .bf16) (B2 : S1552x1.Idx → Elt Ideal .f32)
    (b : Fin 4) (r : Fin 3088) (p : Fin 4096) :
    assembled A0 W1 B2 (ix3 b r p)
      = ((∑ d : Fin 2048, (W1 (ix2 (⟨catRow r.val, catRow_lt r.isLt⟩ : Fin 1552) d) : EReal) * (A0 (ix3 b p d) : EReal))
        + (B2 (ix2 (⟨catRow r.val, catRow_lt r.isLt⟩ : Fin 1552) (0 : Fin 1)) : EReal) : EReal) := rfl

/-- The printed index maps over the thirty-two grid points: the input slab moves with the result block (batch with
    batch, position tile with position tile), the weights' and the bias's blocks are always block (0, 0), and the
    result's block index is (b, 0, l) with b ≤ 3 and l ≤ 7. -/
theorem idx_facts : ∀ t : Fin cfg0.N,
    win0_0.index t (0 : Fin 3) = win0_3.index t (0 : Fin 3) ∧ win0_0.index t (1 : Fin 3) = win0_3.index t (2 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (0 : Fin 3) ≤ 3 ∧ win0_3.index t (2 : Fin 3) ≤ 7 :=
  (by decide +kernel : ∀ t : Fin grid0.N, _)

/-- Every block (b, 0, l) of the result is some grid point's. -/
theorem idx_onto : ∀ (q0 : Fin 4) (q2 : Fin 8), ∃ t : Fin cfg0.N, win0_3.index t = ![q0.val, 0, q2.val] :=
  (by decide +kernel : ∀ (q0 : Fin 4) (q2 : Fin 8), ∃ t : Fin grid0.N, win0_3.index t = ![q0.val, 0, q2.val])

/-- The input window's block at point `t`, read at (0, j, d): the input at batch `index 0`, position 512·`index 1` + j. -/
theorem iblk0_apply (c : Dev nD) (t : Fin cfg0.N) (j : Fin 512) (d : Fin 2048) :
    iblk m c 0 t (ix3 (0 : Fin 1) j d)
      = V m c main_arg0 (ix3 (⟨win0_3.index t (0 : Fin 3), by have := (idx_facts t).2.2.2.2.2.2.2.2.1; omega⟩ : Fin 4)
          (⟨win0_3.index t (2 : Fin 3) * 512 + j.val, by have := (idx_facts t).2.2.2.2.2.2.2.2.2; have := j.isLt; omega⟩ : Fin 4096) d) := by
  obtain ⟨e0, e1, e2, -⟩ := idx_facts t
  show V m c main_arg0 (((cfg0.win 0).blk t).view.emb (ix3 (0 : Fin 1) j d)) = _
  refine congrArg (V m c main_arg0) (funext fun a => Fin.ext ?_)
  match a with
  | ⟨0, _⟩ => show win0_0.index t (0 : Fin 3) * 1 + 1 * 0 = win0_3.index t (0 : Fin 3); omega
  | ⟨1, _⟩ => show win0_0.index t (1 : Fin 3) * 512 + 1 * j.val = win0_3.index t (2 : Fin 3) * 512 + j.val; omega
  | ⟨2, _⟩ => show win0_0.index t (2 : Fin 3) * 2048 + 1 * d.val = d.val; omega

/-- The weights' window is the whole array at every point. -/
theorem iblk1_apply (c : Dev nD) (t : Fin cfg0.N) (i : Fin 1552) (d : Fin 2048) :
    iblk m c 1 t (ix2 i d) = V m c main_v1 (ix2 i d) := by
  obtain ⟨-, -, -, e3, e4, -⟩ := idx_facts t
  show V m c main_v1 (((cfg0.win 1).blk t).view.emb (ix2 i d)) = _
  refine congrArg (V m c main_v1) (funext fun a => Fin.ext ?_)
  match a with
  | ⟨0, _⟩ => show win0_1.index t (0 : Fin 2) * 1552 + 1 * i.val = i.val; omega
  | ⟨1, _⟩ => show win0_1.index t (1 : Fin 2) * 2048 + 1 * d.val = d.val; omega

/-- The bias column's window is the whole array at every point. -/
theorem iblk2_apply (c : Dev nD) (t : Fin cfg0.N) (i : Fin 1552) :
    iblk m c 2 t (ix2 i (0 : Fin 1)) = V m c main_v4 (ix2 i (0 : Fin 1)) := by
  obtain ⟨-, -, -, -, -, e5, e6, -⟩ := idx_facts t
  show V m c main_v4 (((cfg0.win 2).blk t).view.emb (ix2 i (0 : Fin 1))) = _
  refine congrArg (V m c main_v4) (funext fun a => Fin.ext ?_)
  match a with
  | ⟨0, _⟩ => show win0_2.index t (0 : Fin 2) * 1552 + 1 * i.val = i.val; omega
  | ⟨1, _⟩ => show win0_2.index t (1 : Fin 2) * 1 + 1 * 0 = 0; omega

/-- What point `t` writes back is block `t` of `assembled` of the arrays the region finds. -/
theorem flushed_eq (hblk : BlockSpec) (c : Dev nD) (t : Fin cfg0.N) :
    (dats m 0 c).flushed 3 t
      = ((cfg0.win 3).blk t).view.read (Elt Ideal) (assembled (V m c main_arg0) (V m c main_v1) (V m c main_v4)) := by
  show (cfg0.win 3).cut (grid0.coords t) ((dats m 0 c).after 3 t) = _
  rw [after0_3]
  funext y
  obtain ⟨z, r, l, rfl⟩ : ∃ (z : Fin 1) (r : Fin 3088) (l : Fin 512), y = ix3 z r l := ⟨y 0, y 1, y 2, eq_ix3 y⟩
  obtain rfl : z = 0 := Subsingleton.elim _ _
  show out3 (iblk m c 0 t) (iblk m c 1 t) (iblk m c 2 t) (ix3 (0 : Fin 1) r l)
    = assembled (V m c main_arg0) (V m c main_v1) (V m c main_v4) (((cfg0.win 3).blk t).view.emb (ix3 (0 : Fin 1) r l))
  obtain ⟨-, -, -, -, -, -, -, e7, e8, e9⟩ := idx_facts t
  have hemb : ((cfg0.win 3).blk t).view.emb (ix3 (0 : Fin 1) r l)
      = ix3 (⟨win0_3.index t (0 : Fin 3), by omega⟩ : Fin 4) r (⟨win0_3.index t (2 : Fin 3) * 512 + l.val, by have := l.isLt; omega⟩ : Fin 4096) := by
    funext a; apply Fin.ext
    match a with
    | ⟨0, _⟩ => show win0_3.index t (0 : Fin 3) * 1 + 1 * 0 = win0_3.index t (0 : Fin 3); omega
    | ⟨1, _⟩ => show win0_3.index t (1 : Fin 3) * 3088 + 1 * r.val = r.val; omega
    | ⟨2, _⟩ => show win0_3.index t (2 : Fin 3) * 512 + 1 * l.val = win0_3.index t (2 : Fin 3) * 512 + l.val; omega
  rw [hemb, assembled_ix3, hblk, iblk2_apply]
  refine congrArg (· + _) (Finset.sum_congr rfl fun d _ => ?_)
  rw [iblk1_apply, iblk0_apply]

/-- An index of the result is in point `t`'s block iff each coordinate is in the block's range on its axis. -/
theorem mem_blk (t : Fin cfg0.N) (i : S4x3088x4096.Idx) :
    i ∈ ((cfg0.win 3).blk t).view.set ↔ ∀ a : Fin 3, win0_3.index t a * S1x3088x512.size a ≤ (i a).val ∧ (i a).val < win0_3.index t a * S1x3088x512.size a + S1x3088x512.size a := by
  show i ∈ ((View.whole main_v5).slice (win0_3.rect t)).set ↔ _
  rw [View.set_slice_whole, Rect.mem_set_unit]
  exact Iff.rfl

/-- The thirty-two blocks fill the result: index (b, r, p) is in the block of the point with block index (b, 0, p / 512). -/
theorem covered (i : S4x3088x4096.Idx) : ∃ t : Fin cfg0.N, (cfg0.win 3).flush t = true ∧ i ∈ ((cfg0.win 3).blk t).view.set := by
  have hi0 : (i 0).val < 4 := (i 0).isLt
  have hi1 : (i 1).val < 3088 := (i 1).isLt
  have hi2 : (i 2).val < 4096 := (i 2).isLt
  obtain ⟨t, ht⟩ := idx_onto ⟨(i 0).val, hi0⟩ ⟨(i 2).val / 512, by omega⟩
  have q0 : win0_3.index t (0 : Fin 3) = (i 0).val := congrFun ht 0
  have q1 : win0_3.index t (1 : Fin 3) = 0 := congrFun ht 1
  have q2 : win0_3.index t (2 : Fin 3) = (i 2).val / 512 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 3088 ≤ (i 1).val ∧ (i 1).val < win0_3.index t (1 : Fin 3) * 3088 + 3088; omega
  | ⟨2, _⟩ => show win0_3.index t (2 : Fin 3) * 512 ≤ (i 2).val ∧ (i 2).val < win0_3.index t (2 : Fin 3) * 512 + 512; omega

/-- The result array after the write-backs. -/
theorem final (hblk : BlockSpec) (c : Dev nD) :
    (dats m 0 c).arrAt 3 cfg0.N = assembled (V m c main_arg0) (V m c main_v1) (V m c main_v4) :=
  (dats m 0 c).arrAt_eq_of_cover 3 _ (fun t _ => flushed_eq m hblk c t) covered

/-- The run, read: the result array at `assembled` of the input as launched and the two arrays the host prefix built;
    the eight arguments as launched. -/
theorem run (hblk : BlockSpec) : θ_run defs (onTc (τ := τ) (main (F := Ideal))) ⟨m, fun _ => 0, ρ⟩ fun r => ∀ c : Dev nD,
      r.2.mem ((c : Thread nD τ).loc main_v5) = assembled (m ((c : Thread nD τ).loc main_arg0)) (V m c main_v1) (V m c main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨
      (((h c).1 3).trans (final m hblk c)).trans (by rw [V_main_arg0]),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Value

end
-- ==== Proof.RefTerm.lean ====
/-
  The reference program's result as one pure term of its eight arguments.

  Each of the four projections is a contraction of a weight matrix [R, 2048] with the input [4, 4096, 2048] over their
  last axes, giving [R, 4, 4096], transposed to [4, R, 4096]; three of them get a bias broadcast along batch and
  position. The two 256-channel projections are then expanded to 1024 channels: viewed as [4, 4, 64, 4096], gathered
  along the head axis at the sixteen indices h ↦ h div 4 (computed by the traced floor division of 0 … 15 by 4, then
  wrapped if negative), and viewed as [4, 1024, 4096]. The result is the four pieces concatenated along the channel
  axis: expanded Wb-projection, Wv-projection, expanded Wc-projection, Wa-projection.
-/
import proofs.«172733_j81681688035849_2_alg».proof.ReferenceIdeal

noncomputable section

namespace Cert.ReferenceIdeal.Term

open Cert.ReferenceIdeal Idealize.ShloMosaic

variable {F : FTy → Type} [FloatOps F] [Facts]
open Facts₀

/-- jnp's floor division of sixteen 32-bit integers by a scalar, operation by operation as traced: the truncating
    quotient, less one where the signs differ and the remainder is not zero. -/
def floorDiv (a : (⟨S16, .i32⟩ : BufTy).Contents (Elt F)) (d : (⟨S_, .i32⟩ : BufTy).Contents (Elt F)) :
    (⟨S16, .i32⟩ : BufTy).Contents (Elt F) :=
  select
    (andi (cmpi .ne (signi a) (broadcastInDim S16 ![] bcast_S_S16 (signi (id d))))
      (cmpi .ne (Host.remsi a (broadcastInDim S16 ![] bcast_S_S16 (id d))) (broadcastInDim S16 ![] bcast_S_S16 (constantI S_ 32 0#32))))
    (subi (Host.divsi a (broadcastInDim S16 ![] bcast_S_S16 (id d))) (broadcastInDim S16 ![] bcast_S_S16 (constantI S_ 32 1#32)))
    (Host.divsi a (broadcastInDim S16 ![] bcast_S_S16 (id d)))

/-- The sixteen head indices, as a column: 0 … 15 floor-divided by 4, a negative one wrapped by adding 4. -/
def headIdx : (⟨S16x1, .i32⟩ : BufTy).Contents (Elt F) :=
  broadcastInDim S16x1 ![0] bcast_S16_S16x1_0
    (select
      (cmpi .slt (floorDiv (F := F) (iotaInDim S16 32 0) (constantI S_ 32 4#32)) (broadcastInDim S16 ![] bcast_S_S16 (constantI S_ 32 0#32)))
      (addi (floorDiv (F := F) (iotaInDim S16 32 0) (constantI S_ 32 4#32)) (broadcastInDim S16 ![] bcast_S_S16 (constantI S_ 32 4#32)))
      (floorDiv (F := F) (iotaInDim S16 32 0) (constantI S_ 32 4#32)))

/-- A 256-channel projection expanded to 1024 channels by repeating each head four times. -/
def expand (t : (⟨S4x256x4096, .f32⟩ : BufTy).Contents (Elt F)) : (⟨S4x1024x4096, .f32⟩ : BufTy).Contents (Elt F) :=
  shapeCast S4x1024x4096
    (Host.gather gather_S4x4x64x4096_S16x1_S4x16x64x4096_023_1_n_n_1_1_41644096
      (shapeCast S4x4x64x4096 t shapeCasts_S4x256x4096_S4x4x64x4096) (headIdx (F := F)))
    shapeCasts_S4x16x64x4096_S4x1024x4096

/-- The 16-channel projection with its bias. -/
def projA (x : (⟨S4x4096x2048, .f32⟩ : BufTy).Contents (Elt F)) (W : (⟨S16x2048, .f32⟩ : BufTy).Contents (Elt F))
    (bias : (⟨S16, .f32⟩ : BufTy).Contents (Elt F)) : (⟨S4x16x4096, .f32⟩ : BufTy).Contents (Elt F) :=
  addf (transpose S4x16x4096 [1, 0, 2] (Host.dotGeneral dot_S16x2048_S4x4096x2048_S16x4x4096_1_2_0_01_n_n none W x) transposes_S16x4x4096_S4x16x4096_1_0_2)
    (broadcastInDim S4x16x4096 ![0, 1, 2] bcast_S1x16x1_S4x16x4096_0_1_2 (broadcastInDim S1x16x1 ![1] bcast_S16_S1x16x1_1 bias))

/-- A 256-channel projection with its bias. -/
def projK (x : (⟨S4x4096x2048, .f32⟩ : BufTy).Contents (Elt F)) (W : (⟨S256x2048, .f32⟩ : BufTy).Contents (Elt F))
    (bias : (⟨S256, .f32⟩ : BufTy).Contents (Elt F)) : (⟨S4x256x4096, .f32⟩ : BufTy).Contents (Elt F) :=
  addf (transpose S4x256x4096 [1, 0, 2] (Host.dotGeneral dot_S256x2048_S4x4096x2048_S256x4x4096_1_2_0_01_n_n none W x) transposes_S256x4x4096_S4x256x4096_1_0_2)
    (broadcastInDim S4x256x4096 ![0, 1, 2] bcast_S1x256x1_S4x256x4096_0_1_2 (broadcastInDim S1x256x1 ![1] bcast_S256_S1x256x1_1 bias))

/-- The 1024-channel projection, which has no bias. -/
def projV (x : (⟨S4x4096x2048, .f32⟩ : BufTy).Contents (Elt F)) (W : (⟨S1024x2048, .f32⟩ : BufTy).Contents (Elt F)) :
    (⟨S4x1024x4096, .f32⟩ : BufTy).Contents (Elt F) :=
  transpose S4x1024x4096 [1, 0, 2] (Host.dotGeneral dot_S1024x2048_S4x4096x2048_S1024x4x4096_1_2_0_01_n_n none W x) transposes_S1024x4x4096_S4x1024x4096_1_0_2

/-- The reference's result from its arguments, in the order of its parameters. -/
def refOut (x : (⟨S4x4096x2048, .f32⟩ : BufTy).Contents (Elt F))
    (Wa : (⟨S16x2048, .f32⟩ : BufTy).Contents (Elt F)) (ba : (⟨S16, .f32⟩ : BufTy).Contents (Elt F))
    (Wb : (⟨S256x2048, .f32⟩ : BufTy).Contents (Elt F)) (bb : (⟨S256, .f32⟩ : BufTy).Contents (Elt F))
    (Wc : (⟨S256x2048, .f32⟩ : BufTy).Contents (Elt F)) (bc : (⟨S256, .f32⟩ : BufTy).Contents (Elt F))
    (Wv : (⟨S1024x2048, .f32⟩ : BufTy).Contents (Elt F)) : (⟨S4x3088x4096, .f32⟩ : BufTy).Contents (Elt F) :=
  concatenate S4x3088x4096 1
    [⟨S4x1024x4096, expand (projK x Wb bb)⟩, ⟨S4x1024x4096, projV x Wv⟩, ⟨S4x1024x4096, expand (projK x Wc bc)⟩,
      ⟨S4x16x4096, projA x Wa ba⟩]
    concatenates_S4x1024x4096_S4x1024x4096_S4x1024x4096_S4x16x4096_S4x3088x4096_d1

end Cert.ReferenceIdeal.Term

end
-- ==== Proof.Bridge.lean ====
/-
  The two idealized programs compute one function.

  The idealized kernel's result array is `assembled` of the input, the stacked weights and the stacked bias column
  (the run read block by block); the stacked arrays are the four weight matrices and the four bias vectors (zeros for
  the missing one) concatenated in the order Wb, Wc, Wv, Wa; and entry (b, r, p) of `assembled` at those is the packed
  specification's entry, because row catRow r of the stack is the row of the matrix that the specification uses for
  packed row r (on Wv's rows the stacked bias is zero, and x + 0 = x on the extended reals). The reference's result is
  the packed specification by its own reading. Both programs therefore end at `Cert.Gates.packed` of the arguments.
-/
import proofs.«172733_j81681688035849_2_alg».proof.Proof.KernelIdealValue
import proofs.«172733_j81681688035849_2_alg».proof.Proof.RefTerm
import proofs.«172733_j81681688035849_2_alg».proof.Proof.Spec
import proofs.«172733_j81681688035849_2_alg».proof.Proof.Gen.ReferenceIdeal

noncomputable section

open scoped BigOperators

namespace Cert.Bridge

open Idealize.ShloMosaic Idealize.ShloMosaic.TcCoe Idealize.ShloMosaic.ValueIdx Idealize.SL.Sem
open Cert.Gates

section Kernel

open Cert.KernelIdeal Cert.KernelIdeal.Gen Cert.KernelIdeal.Frame Cert.KernelIdeal.Value

/-- The stacked weights the host prefix builds, index by index. -/
def WeightsSpec : Prop :=
  ∀ (m : (ℓ : Loc nD τ sig) → Buf (Elt Ideal) ℓ) (c : Dev nD) (i : Fin 1552) (d : Fin 2048),
    V (F := Ideal) m c main_v1 (ix2 i d)
      = wcat (m ((c : Thread nD τ).loc main_arg1)) (m ((c : Thread nD τ).loc main_arg3)) (m ((c : Thread nD τ).loc main_arg5))
          (m ((c : Thread nD τ).loc main_arg7)) i d

/-- The stacked bias column the host prefix builds, index by index. -/
def BiasSpec : Prop :=
  ∀ (m : (ℓ : Loc nD τ sig) → Buf (Elt Ideal) ℓ) (c : Dev nD) (i : Fin 1552),
    V (F := Ideal) m c main_v4 (ix2 i (0 : Fin 1))
      = bcat (m ((c : Thread nD τ).loc main_arg2)) (m ((c : Thread nD τ).loc main_arg4)) (m ((c : Thread nD τ).loc main_arg6)) i

/-- The packed specification through the stacked arrangement. -/
def StackedSpec : Prop :=
  ∀ (x : FVec Ideal ⟨3, ![4, 4096, 2048]⟩ .f32) (Wa : FVec Ideal ⟨2, ![16, 2048]⟩ .f32) (ba : FVec Ideal ⟨1, ![16]⟩ .f32)
    (Wb : FVec Ideal ⟨2, ![256, 2048]⟩ .f32) (bb : FVec Ideal ⟨1, ![256]⟩ .f32) (Wc : FVec Ideal ⟨2, ![256, 2048]⟩ .f32)
    (bc : FVec Ideal ⟨1, ![256]⟩ .f32) (Wv : FVec Ideal ⟨2, ![1024, 2048]⟩ .f32) (b : Fin 4) (r : Fin 3088) (l : Fin 4096),
    packedAt x Wa ba Wb bb Wc bc Wv b r l
      = (∑ d : Fin 2048, wcat Wa Wb Wc Wv (⟨catRow r.val, catRow_lt r.isLt⟩ : Fin 1552) d * x (ix3 b l d))
        + bcat ba bb bc (⟨catRow r.val, catRow_lt r.isLt⟩ : Fin 1552)

/-- The kernel's assembled result is the packed specification of the arguments as launched. -/
theorem assembled_eq_packed (hW : WeightsSpec) (hB : BiasSpec) (hS : StackedSpec)
    (m : (ℓ : Loc nD τ sig) → Buf (Elt Ideal) ℓ) (c : Dev nD) :
    assembled (m ((c : Thread nD τ).loc main_arg0)) (V m c main_v1) (V m c main_v4)
      = packed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  funext i
  obtain ⟨b, r, p, rfl⟩ : ∃ (b : Fin 4) (r : Fin 3088) (p : Fin 4096), i = ix3 b r p := ⟨i 0, i 1, i 2, eq_ix3 i⟩
  rw [assembled_ix3, packed_ix3, hS, hB]
  refine congrArg (· + _) (Finset.sum_congr rfl fun d _ => ?_)
  rw [hW]

/-- The idealized kernel's run ends with its result at the packed specification and its arguments as launched. -/
theorem kernel_run (hblk : BlockSpec) (hW : WeightsSpec) (hB : BiasSpec) (hS : StackedSpec)
    (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
        = packed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (assembled_eq_packed hW hB hS m c), (h c).2⟩)
    (Cert.KernelIdeal.Value.run m ρ hblk)

end Kernel

section Reference

open Cert.ReferenceIdeal Cert.ReferenceIdeal.Term

/-- The reference's composed term is the packed specification. -/
def RefSpec : Prop :=
  ∀ (x : FVec Ideal S4x4096x2048 .f32) (Wa : FVec Ideal S16x2048 .f32) (ba : FVec Ideal S16 .f32)
    (Wb : FVec Ideal S256x2048 .f32) (bb : FVec Ideal S256 .f32) (Wc : FVec Ideal S256x2048 .f32) (bc : FVec Ideal S256 .f32)
    (Wv : FVec Ideal S1024x2048 .f32), refOut (F := Ideal) x Wa ba Wb bb Wc bc Wv = packed x Wa ba Wb bb Wc bc Wv

end Reference

end Cert.Bridge

end
-- ==== Proof.LibMatmulNT.lean ====
/-
  The matrix product that contracts the LAST axis of both operands ("md,nd->mn": rows of the left operand against rows
  of the right one, no transpose materialized), into a zero accumulator, read at an index on the extended reals:
  entry (i, j) is Σ_k l(i, k) · r(j, k). Stated for any extents M, K, N.
-/
import Idealize.ShloMosaic.PureOps.Ideal.Laws
import Idealize.ShloMosaic.Lib.ValueIdx
import Idealize.ShloMosaic.Lib.Pipeline.Value

noncomputable section

open scoped BigOperators

namespace Cert.MatOpsNT

open Idealize.ShloMosaic Idealize.ShloMosaic.ValueIdx

variable {M K N : Nat}

/-- The contraction index set of the product "md,nd->mn" is `Fin K`. -/
abbrev ntContr (M K N : Nat) : (DotDims.transposedRhs M K N).contr.Idx ≃ Fin K :=
  contrEquiv1 (DotDims.transposedRhs M K N) K rfl rfl

/-- The left operand's index at output `(i, j)` and contraction coordinate `k` is `(i, k)`. -/
theorem nt_lhsIdx (i : Fin M) (j : Fin N) (k : Fin K) :
    (DotDims.transposedRhs M K N).lhsIdx (ix2 i j) ((ntContr M K N).symm k) = ix2 i k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 i j) _).trans hk

/-- The right operand's index at output `(i, j)` and contraction coordinate `k` is `(j, k)`. -/
theorem nt_rhsIdx (i : Fin M) (j : Fin N) (k : Fin K) :
    (DotDims.transposedRhs M K N).rhsIdx (ix2 i j) ((ntContr M K N).symm k) = ix2 j k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 i j) _).trans hk

/-- The product "md,nd->mn" into the zero accumulator at `(i, j)` is the sum over `k` of `l(i, k) · r(j, k)`. -/
theorem matmul_nt_zero_apply {φ₁ φ₂ : FTy} (prec : Option ContractPrecision) (l : FVec Ideal ⟨2, ![M, K]⟩ φ₁)
    (r : FVec Ideal ⟨2, ![N, K]⟩ φ₂) (i : Fin M) (j : Fin N) :
    matmul (F := Ideal) (DotDims.transposedRhs M K N) prec l r (constant ⟨2, ![M, N]⟩ .f32 0x00000000#32) (ix2 i j)
      = ∑ k : Fin K, l (ix2 i k) * r (ix2 j k) := by
  simp only [matmul]
  rw [Ideal.matmul_constant_zero_apply]
  rw [← Equiv.sum_comp (ntContr M K N).symm]
  refine Finset.sum_congr rfl fun k _ => ?_
  rw [nt_lhsIdx, nt_rhsIdx]

end Cert.MatOpsNT

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.KernelIdealBlock.lean ====
/-
  What the idealized kernel's body leaves in its result block, index by index, on the extended reals.

  The body forms one [1552, 512] matrix P: entry (c, l) is the sum over d of w[c, d] · x[0, l, d] plus the bias b[c, 0]
  (a product that contracts the last axis of both operands, into zero, plus the bias column copied along each row).
  Every stored payload is a block of consecutive rows of P with a unit axis put in front: a 64-row block of one of the
  two 256-row blocks at rows 0 and 256, the 1024-row block at row 512, or the 16-row block at row 1536. Row r of the
  result block is row catRow r of P: each store's rows agree with that one function of the block's index, the
  thirty-four stores cover the block, so the block is that function everywhere.
-/
import proofs.«172733_j81681688035849_2_alg».proof.Proof.KernelIdealStores
import proofs.«172733_j81681688035849_2_alg».proof.Proof.Spec
import proofs.«172733_j81681688035849_2_alg».proof.Proof.LibMatmulNT
import proofs.«172733_j81681688035849_2_alg».proof.Proof.LibKeepdims
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.BlockValue

open Cert.KernelIdeal Cert.KernelIdeal.Gen Cert.KernelIdeal.Stores
open Idealize.ShloMosaic Idealize.ShloMosaic.ValueIdx

/-! ## The matrix P at an index -/

/-- Entry (c, l) of P: the row c of the weights against the row l of the input slab, plus the bias of row c. -/
theorem pay6_apply (y0 : Vec Ideal S1x512x2048 .f32) (y1 : Vec Ideal S1552x2048 .bf16) (y2 : Vec Ideal S1552x1 .f32)
    (c : Fin 1552) (l : Fin 512) :
    k0_pay6 (F := Ideal) y0 y1 y2 (ix2 c l)
      = (∑ d : Fin 2048, y1 (ix2 c d) * y0 (ix3 (0 : Fin 1) l d)) + y2 (ix2 c (0 : Fin 1)) := by
  unfold k0_pay6
  refine (addf_apply _ _ (ix2 c l)).trans ?_
  refine congrArg₂ (· + ·) ?_ ?_
  · -- the product into zero: the sum over the shared last axis
    refine (Cert.MatOpsNT.matmul_nt_zero_apply (M := 1552) (K := 2048) (N := 512) none _ _ c l).trans ?_
    refine Finset.sum_congr rfl fun d _ => ?_
    refine congrArg₂ (· * ·) ?_ ?_
    · -- a cast to the same shape changes nothing
      exact congrFun (shapeCast_self y1 shapeCasts_S1552x2048_S1552x2048) (ix2 c d)
    · -- the change of format is the identity; the cast drops the leading unit axis
      refine (truncf_apply _ bitsLt_bf16_f32 (ix2 l d)).trans ?_
      exact shapeCast_1ab_ab_apply y0 shapeCasts_S1x512x2048_S512x2048 l d
  · -- the bias column copied along the row
    refine (Idealize.ShloMosaic.Keepdims.broadcastTo_a1_ab_apply _ broadcasts_S1552x1_S1552x512 c l (0 : Fin 1)).trans ?_
    exact congrFun (shapeCast_self y2 shapeCasts_S1552x1_S1552x1) (ix2 c (0 : Fin 1))

/-! ## Row blocks of a matrix with a unit axis in front -/

/-- A block of m rows from row o of a matrix with 512 columns, a unit axis put in front, at (u, j, l) is the matrix at
    (o + j, l). -/
theorem cast_rows_apply {n m : Nat} (o : Nat) (X : FVec Ideal ⟨2, ![n, 512]⟩ .f32)
    (hs : (⟨2, ![n, 512]⟩ : Shape).Slices ![o, 0] ⟨2, ![m, 512]⟩)
    (hc : (⟨2, ![m, 512]⟩ : Shape).ShapeCasts ⟨3, ![1, m, 512]⟩) (u : Fin 1) (j : Fin m) (l : Fin 512)
    (k : Fin n) (hk : k.val = o + j.val) :
    shapeCast ⟨3, ![1, m, 512]⟩ (extractStridedSlice ⟨2, ![m, 512]⟩ ![o, 0] X hs) hc (ix3 u j l) = X (ix2 k l) :=
  (shapeCast_ab_1ab_apply _ hc u j l).trans (slice2_axis0_apply o X hs j l k hk)

/-! ## The one function of the block's index -/

/-- Row r of the block is row catRow r of the matrix, column by column. -/
def blockFn (P : FVec Ideal S1552x512 .f32) : Vec Ideal S1x3088x512 .f32 := fun y =>
  P (ix2 (⟨Cert.Gates.catRow (y 1).val, Cert.Gates.catRow_lt (y 1).isLt⟩ : Fin 1552) (⟨(y 2).val, (y 2).isLt⟩ : Fin 512))

/-- At an index given by its coordinates. -/
theorem blockFn_ix3 (P : FVec Ideal S1552x512 .f32) (u : Fin 1) (r : Fin 3088) (l : Fin 512) :
    blockFn P (ix3 u r l) = P (ix2 (⟨Cert.Gates.catRow r.val, Cert.Gates.catRow_lt r.isLt⟩ : Fin 1552) l) := rfl

/-- A stored block of m rows from row A of the matrix, written at rows o … o + m - 1 of the block, agrees with the
    function: row o + j of the block is row A + j of the matrix. -/
theorem piece_rows {m : Nat} (A o : Nat) (P : FVec Ideal S1552x512 .f32)
    (hs : S1552x512.Slices ![A, 0] ⟨2, ![m, 512]⟩) (hc : (⟨2, ![m, 512]⟩ : Shape).ShapeCasts ⟨3, ![1, m, 512]⟩)
    (inb : ∀ b, (![0, o, 0] : Fin 3 → Nat) b + (⟨3, ![1, m, 512]⟩ : Shape).size b ≤ S1x3088x512.size b)
    (hA : A + m ≤ 1552)
    (hrow : ∀ j, j < m → Cert.Gates.catRow (o + j) = A + j)
    (x : (Rect.unit (s := S1x3088x512) ![0, o, 0] (⟨3, ![1, m, 512]⟩ : Shape).size inb).shape.Idx) :
    shapeCast ⟨3, ![1, m, 512]⟩ (extractStridedSlice ⟨2, ![m, 512]⟩ ![A, 0] P hs) hc x
      = blockFn P ((Rect.unit (s := S1x3088x512) ![0, o, 0] (⟨3, ![1, m, 512]⟩ : Shape).size inb).emb x) := by
  obtain ⟨u, j, l, rfl⟩ : ∃ (u : Fin 1) (j : Fin m) (l : Fin 512), x = ix3 u j l := ⟨x 0, x 1, x 2, eq_ix3 x⟩
  refine (cast_rows_apply A P hs hc u j l ⟨A + j.val, by have := j.isLt; omega⟩ rfl).trans ?_
  refine congrArg P ?_
  funext ax
  match ax with
  | ⟨0, _⟩ =>
    apply Fin.ext
    show A + j.val = Cert.Gates.catRow (o + 1 * j.val)
    rw [Nat.one_mul]; exact (hrow j.val j.isLt).symm
  | ⟨1, _⟩ =>
    apply Fin.ext
    show l.val = 0 + 1 * l.val
    omega

/-- A stored block of 64 rows from row a of the 256-row block at row A of the matrix, written at rows o … o + 63 of
    the block, agrees with the function: row o + j of the block is row A + (a + j) of the matrix. -/
theorem piece_rows2 (A a o : Nat) (P : FVec Ideal S1552x512 .f32)
    (hA : S1552x512.Slices ![A, 0] S256x512) (ha : S256x512.Slices ![a, 0] S64x512)
    (hc : S64x512.ShapeCasts S1x64x512)
    (inb : ∀ b, (![0, o, 0] : Fin 3 → Nat) b + S1x64x512.size b ≤ S1x3088x512.size b)
    (hAb : A + 256 ≤ 1552) (hab : a + 64 ≤ 256)
    (hrow : ∀ j, j < 64 → Cert.Gates.catRow (o + j) = A + (a + j))
    (x : (Rect.unit (s := S1x3088x512) ![0, o, 0] S1x64x512.size inb).shape.Idx) :
    shapeCast S1x64x512 (extractStridedSlice S64x512 ![a, 0] (extractStridedSlice S256x512 ![A, 0] P hA) ha) hc x
      = blockFn P ((Rect.unit (s := S1x3088x512) ![0, o, 0] S1x64x512.size inb).emb x) := by
  obtain ⟨u, j, l, rfl⟩ : ∃ (u : Fin 1) (j : Fin 64) (l : Fin 512), x = ix3 u j l := ⟨x 0, x 1, x 2, eq_ix3 x⟩
  refine (cast_rows_apply a _ ha hc u j l ⟨a + j.val, by have := j.isLt; omega⟩ rfl).trans ?_
  refine (slice2_axis0_apply A P hA ⟨a + j.val, by have := j.isLt; omega⟩ l ⟨A + (a + j.val), by have := j.isLt; omega⟩ rfl).trans ?_
  refine congrArg P ?_
  funext ax
  match ax with
  | ⟨0, _⟩ =>
    apply Fin.ext
    show A + (a + j.val) = Cert.Gates.catRow (o + 1 * j.val)
    rw [Nat.one_mul]; exact (hrow j.val j.isLt).symm
  | ⟨1, _⟩ =>
    apply Fin.ext
    show l.val = 0 + 1 * l.val
    omega

/-! ## The block after the body -/

/-- The offsets of a whole-buffer rectangle are zero. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The arithmetic of one slab's rows: which row of the matrix row o + j of the block takes. -/
local macro "slab_rows" : tactic =>
  `(tactic| (intro j hj; unfold Cert.Gates.catRow Cert.Gates.kvRow; split_ifs <;> omega))

/-- The block after the body is the one function of its index everywhere: every store agrees with it on its slab, and
    the slabs cover the block. -/
theorem out3_eq_blockFn (x0 : Vec Ideal S1x512x2048 .f32) (x1 : Vec Ideal S1552x2048 .bf16) (x2 : Vec Ideal S1552x1 .f32)
    (y : S1x3088x512.Idx) :
    Stores.out3 (F := Ideal) x0 x1 x2 y = blockFn (k0_pay6 x0 x1 x2) y := by
  -- the three loads read the whole buffers
  have h0 : View.ld x0 whole0 = x0 := View.ld_unit_zero hz3 inb_S1x512x2048_S1x512x2048_0_0_0 x0
  have h1 : View.ld x1 whole1 = x1 := View.ld_unit_zero hz2 inb_S1552x2048_S1552x2048_0_0 x1
  have h2 : View.ld x2 whole2 = x2 := View.ld_unit_zero hz2 inb_S1552x1_S1552x1_0_0 x2
  unfold Stores.out3
  simp only [h0, h1, h2]
  refine View.canon_apply_of_pieces (blockFn (k0_pay6 x0 x1 x2)) _ ?_ y ?_
  · -- each store's payload is the function on its slab
    intro pc hpc x
    -- rows 3072–3087: rows 1536–1551 of the matrix
    rcases List.mem_cons.mp hpc with rfl | hpc
    · exact piece_rows 1536 3072 (k0_pay6 x0 x1 x2) slices_S1552x512_o1536_0_S16x512 shapeCasts_S16x512_S1x16x512
        inb_S1x3088x512_S1x16x512_0_3072_0 (by omega) (by slab_rows) x
    -- rows 2048–3071: the 256-row block at row 256, each 64-row head four times, the last head first
    rcases List.mem_cons.mp hpc with rfl | hpc
    · exact piece_rows2 256 192 3008 (k0_pay6 x0 x1 x2) slices_S1552x512_o256_0_S256x512 slices_S256x512_o192_0_S64x512
        shapeCasts_S64x512_S1x64x512 inb_S1x3088x512_S1x64x512_0_3008_0 (by omega) (by omega) (by slab_rows) x
    rcases List.mem_cons.mp hpc with rfl | hpc
    · exact piece_rows2 256 192 2944 (k0_pay6 x0 x1 x2) slices_S1552x512_o256_0_S256x512 slices_S256x512_o192_0_S64x512
        shapeCasts_S64x512_S1x64x512 inb_S1x3088x512_S1x64x512_0_2944_0 (by omega) (by omega) (by slab_rows) x
    rcases List.mem_cons.mp hpc with rfl | hpc
    · exact piece_rows2 256 192 2880 (k0_pay6 x0 x1 x2) slices_S1552x512_o256_0_S256x512 slices_S256x512_o192_0_S64x512
        shapeCasts_S64x512_S1x64x512 inb_S1x3088x512_S1x64x512_0_2880_0 (by omega) (by omega) (by slab_rows) x
    rcases List.mem_cons.mp hpc with rfl | hpc
    · exact piece_rows2 256 192 2816 (k0_pay6 x0 x1 x2) slices_S1552x512_o256_0_S256x512 slices_S256x512_o192_0_S64x512
        shapeCasts_S64x512_S1x64x512 inb_S1x3088x512_S1x64x512_0_2816_0 (by omega) (by omega) (by slab_rows) x
    rcases List.mem_cons.mp hpc with rfl | hpc
    · exact piece_rows2 256 128 2752 (k0_pay6 x0 x1 x2) slices_S1552x512_o256_0_S256x512 slices_S256x512_o128_0_S64x512
        shapeCasts_S64x512_S1x64x512 inb_S1x3088x512_S1x64x512_0_2752_0 (by omega) (by omega) (by slab_rows) x
    rcases List.mem_cons.mp hpc with rfl | hpc
    · exact piece_rows2 256 128 2688 (k0_pay6 x0 x1 x2) slices_S1552x512_o256_0_S256x512 slices_S256x512_o128_0_S64x512
        shapeCasts_S64x512_S1x64x512 inb_S1x3088x512_S1x64x512_0_2688_0 (by omega) (by omega) (by slab_rows) x
    rcases List.mem_cons.mp hpc with rfl | hpc
    · exact piece_rows2 256 128 2624 (k0_pay6 x0 x1 x2) slices_S1552x512_o256_0_S256x512 slices_S256x512_o128_0_S64x512
        shapeCasts_S64x512_S1x64x512 inb_S1x3088x512_S1x64x512_0_2624_0 (by omega) (by omega) (by slab_rows) x
    rcases List.mem_cons.mp hpc with rfl | hpc
    · exact piece_rows2 256 128 2560 (k0_pay6 x0 x1 x2) slices_S1552x512_o256_0_S256x512 slices_S256x512_o128_0_S64x512
        shapeCasts_S64x512_S1x64x512 inb_S1x3088x512_S1x64x512_0_2560_0 (by omega) (by omega) (by slab_rows) x
    rcases List.mem_cons.mp hpc with rfl | hpc
    · exact piece_rows2 256 64 2496 (k0_pay6 x0 x1 x2) slices_S1552x512_o256_0_S256x512 slices_S256x512_o64_0_S64x512
        shapeCasts_S64x512_S1x64x512 inb_S1x3088x512_S1x64x512_0_2496_0 (by omega) (by omega) (by slab_rows) x
    rcases List.mem_cons.mp hpc with rfl | hpc
    · exact piece_rows2 256 64 2432 (k0_pay6 x0 x1 x2) slices_S1552x512_o256_0_S256x512 slices_S256x512_o64_0_S64x512
        shapeCasts_S64x512_S1x64x512 inb_S1x3088x512_S1x64x512_0_2432_0 (by omega) (by omega) (by slab_rows) x
    rcases List.mem_cons.mp hpc with rfl | hpc
    · exact piece_rows2 256 64 2368 (k0_pay6 x0 x1 x2) slices_S1552x512_o256_0_S256x512 slices_S256x512_o64_0_S64x512
        shapeCasts_S64x512_S1x64x512 inb_S1x3088x512_S1x64x512_0_2368_0 (by omega) (by omega) (by slab_rows) x
    rcases List.mem_cons.mp hpc with rfl | hpc
    · exact piece_rows2 256 64 2304 (k0_pay6 x0 x1 x2) slices_S1552x512_o256_0_S256x512 slices_S256x512_o64_0_S64x512
        shapeCasts_S64x512_S1x64x512 inb_S1x3088x512_S1x64x512_0_2304_0 (by omega) (by omega) (by slab_rows) x
    rcases List.mem_cons.mp hpc with rfl | hpc
    · exact piece_rows2 256 0 2240 (k0_pay6 x0 x1 x2) slices_S1552x512_o256_0_S256x512 slices_S256x512_o0_0_S64x512
        shapeCasts_S64x512_S1x64x512 inb_S1x3088x512_S1x64x512_0_2240_0 (by omega) (by omega) (by slab_rows) x
    rcases List.mem_cons.mp hpc with rfl | hpc
    · exact piece_rows2 256 0 2176 (k0_pay6 x0 x1 x2) slices_S1552x512_o256_0_S256x512 slices_S256x512_o0_0_S64x512
        shapeCasts_S64x512_S1x64x512 inb_S1x3088x512_S1x64x512_0_2176_0 (by omega) (by omega) (by slab_rows) x
    rcases List.mem_cons.mp hpc with rfl | hpc
    · exact piece_rows2 256 0 2112 (k0_pay6 x0 x1 x2) slices_S1552x512_o256_0_S256x512 slices_S256x512_o0_0_S64x512
        shapeCasts_S64x512_S1x64x512 inb_S1x3088x512_S1x64x512_0_2112_0 (by omega) (by omega) (by slab_rows) x
    rcases List.mem_cons.mp hpc with rfl | hpc
    · exact piece_rows2 256 0 2048 (k0_pay6 x0 x1 x2) slices_S1552x512_o256_0_S256x512 slices_S256x512_o0_0_S64x512
        shapeCasts_S64x512_S1x64x512 inb_S1x3088x512_S1x64x512_0_2048_0 (by omega) (by omega) (by slab_rows) x
    -- rows 1024–2047: rows 512–1535 of the matrix
    rcases List.mem_cons.mp hpc with rfl | hpc
    · exact piece_rows 512 1024 (k0_pay6 x0 x1 x2) slices_S1552x512_o512_0_S1024x512 shapeCasts_S1024x512_S1x1024x512
        inb_S1x3088x512_S1x1024x512_0_1024_0 (by omega) (by slab_rows) x
    -- rows 0–1023: the 256-row block at row 0, each 64-row head four times, the last head first
    rcases List.mem_cons.mp hpc with rfl | hpc
    · exact piece_rows2 0 192 960 (k0_pay6 x0 x1 x2) slices_S1552x512_o0_0_S256x512 slices_S256x512_o192_0_S64x512
        shapeCasts_S64x512_S1x64x512 inb_S1x3088x512_S1x64x512_0_960_0 (by omega) (by omega) (by slab_rows) x
    rcases List.mem_cons.mp hpc with rfl | hpc
    · exact piece_rows2 0 192 896 (k0_pay6 x0 x1 x2) slices_S1552x512_o0_0_S256x512 slices_S256x512_o192_0_S64x512
        shapeCasts_S64x512_S1x64x512 inb_S1x3088x512_S1x64x512_0_896_0 (by omega) (by omega) (by slab_rows) x
    rcases List.mem_cons.mp hpc with rfl | hpc
    · exact piece_rows2 0 192 832 (k0_pay6 x0 x1 x2) slices_S1552x512_o0_0_S256x512 slices_S256x512_o192_0_S64x512
        shapeCasts_S64x512_S1x64x512 inb_S1x3088x512_S1x64x512_0_832_0 (by omega) (by omega) (by slab_rows) x
    rcases List.mem_cons.mp hpc with rfl | hpc
    · exact piece_rows2 0 192 768 (k0_pay6 x0 x1 x2) slices_S1552x512_o0_0_S256x512 slices_S256x512_o192_0_S64x512
        shapeCasts_S64x512_S1x64x512 inb_S1x3088x512_S1x64x512_0_768_0 (by omega) (by omega) (by slab_rows) x
    rcases List.mem_cons.mp hpc with rfl | hpc
    · exact piece_rows2 0 128 704 (k0_pay6 x0 x1 x2) slices_S1552x512_o0_0_S256x512 slices_S256x512_o128_0_S64x512
        shapeCasts_S64x512_S1x64x512 inb_S1x3088x512_S1x64x512_0_704_0 (by omega) (by omega) (by slab_rows) x
    rcases List.mem_cons.mp hpc with rfl | hpc
    · exact piece_rows2 0 128 640 (k0_pay6 x0 x1 x2) slices_S1552x512_o0_0_S256x512 slices_S256x512_o128_0_S64x512
        shapeCasts_S64x512_S1x64x512 inb_S1x3088x512_S1x64x512_0_640_0 (by omega) (by omega) (by slab_rows) x
    rcases List.mem_cons.mp hpc with rfl | hpc
    · exact piece_rows2 0 128 576 (k0_pay6 x0 x1 x2) slices_S1552x512_o0_0_S256x512 slices_S256x512_o128_0_S64x512
        shapeCasts_S64x512_S1x64x512 inb_S1x3088x512_S1x64x512_0_576_0 (by omega) (by omega) (by slab_rows) x
    rcases List.mem_cons.mp hpc with rfl | hpc
    · exact piece_rows2 0 128 512 (k0_pay6 x0 x1 x2) slices_S1552x512_o0_0_S256x512 slices_S256x512_o128_0_S64x512
        shapeCasts_S64x512_S1x64x512 inb_S1x3088x512_S1x64x512_0_512_0 (by omega) (by omega) (by slab_rows) x
    rcases List.mem_cons.mp hpc with rfl | hpc
    · exact piece_rows2 0 64 448 (k0_pay6 x0 x1 x2) slices_S1552x512_o0_0_S256x512 slices_S256x512_o64_0_S64x512
        shapeCasts_S64x512_S1x64x512 inb_S1x3088x512_S1x64x512_0_448_0 (by omega) (by omega) (by slab_rows) x
    rcases List.mem_cons.mp hpc with rfl | hpc
    · exact piece_rows2 0 64 384 (k0_pay6 x0 x1 x2) slices_S1552x512_o0_0_S256x512 slices_S256x512_o64_0_S64x512
        shapeCasts_S64x512_S1x64x512 inb_S1x3088x512_S1x64x512_0_384_0 (by omega) (by omega) (by slab_rows) x
    rcases List.mem_cons.mp hpc with rfl | hpc
    · exact piece_rows2 0 64 320 (k0_pay6 x0 x1 x2) slices_S1552x512_o0_0_S256x512 slices_S256x512_o64_0_S64x512
        shapeCasts_S64x512_S1x64x512 inb_S1x3088x512_S1x64x512_0_320_0 (by omega) (by omega) (by slab_rows) x
    rcases List.mem_cons.mp hpc with rfl | hpc
    · exact piece_rows2 0 64 256 (k0_pay6 x0 x1 x2) slices_S1552x512_o0_0_S256x512 slices_S256x512_o64_0_S64x512
        shapeCasts_S64x512_S1x64x512 inb_S1x3088x512_S1x64x512_0_256_0 (by omega) (by omega) (by slab_rows) x
    rcases List.mem_cons.mp hpc with rfl | hpc
    · exact piece_rows2 0 0 192 (k0_pay6 x0 x1 x2) slices_S1552x512_o0_0_S256x512 slices_S256x512_o0_0_S64x512
        shapeCasts_S64x512_S1x64x512 inb_S1x3088x512_S1x64x512_0_192_0 (by omega) (by omega) (by slab_rows) x
    rcases List.mem_cons.mp hpc with rfl | hpc
    · exact piece_rows2 0 0 128 (k0_pay6 x0 x1 x2) slices_S1552x512_o0_0_S256x512 slices_S256x512_o0_0_S64x512
        shapeCasts_S64x512_S1x64x512 inb_S1x3088x512_S1x64x512_0_128_0 (by omega) (by omega) (by slab_rows) x
    rcases List.mem_cons.mp hpc with rfl | hpc
    · exact piece_rows2 0 0 64 (k0_pay6 x0 x1 x2) slices_S1552x512_o0_0_S256x512 slices_S256x512_o0_0_S64x512
        shapeCasts_S64x512_S1x64x512 inb_S1x3088x512_S1x64x512_0_64_0 (by omega) (by omega) (by slab_rows) x
    rcases List.mem_cons.mp hpc with rfl | hpc
    · exact piece_rows2 0 0 0 (k0_pay6 x0 x1 x2) slices_S1552x512_o0_0_S256x512 slices_S256x512_o0_0_S64x512
        shapeCasts_S64x512_S1x64x512 inb_S1x3088x512_S1x64x512_0_0_0 (by omega) (by omega) (by slab_rows) x
    nomatch hpc
  · -- the thirty-four slabs cover the block
    exact Stores.cover3 _ _ _ _ _ _ _ _ _ _ _ _ _ _ _ _ _ _ _ _ _ _ _ _ _ _ _ _ _ _ _ _ _ _ y

/-! ## The block at an index -/

/-- The block after the body at (0, r, l): row catRow r of the weights against row l of the input slab, plus the
    bias of that row. -/
theorem out3_apply (x0 : Vec Ideal S1x512x2048 .f32) (x1 : Vec Ideal S1552x2048 .bf16) (x2 : Vec Ideal S1552x1 .f32)
    (r : Fin 3088) (l : Fin 512) :
    Cert.KernelIdeal.Stores.out3 (F := Ideal) x0 x1 x2 (ix3 (0 : Fin 1) r l)
      = (∑ d : Fin 2048, x1 (ix2 (⟨Cert.Gates.catRow r.val, Cert.Gates.catRow_lt r.isLt⟩ : Fin 1552) d) * x0 (ix3 (0 : Fin 1) l d))
        + x2 (ix2 (⟨Cert.Gates.catRow r.val, Cert.Gates.catRow_lt r.isLt⟩ : Fin 1552) (0 : Fin 1)) :=
  ((out3_eq_blockFn x0 x1 x2 (ix3 (0 : Fin 1) r l)).trans (blockFn_ix3 (k0_pay6 x0 x1 x2) (0 : Fin 1) r l)).trans
    (pay6_apply x0 x1 x2 ⟨Cert.Gates.catRow r.val, Cert.Gates.catRow_lt r.isLt⟩ l)

end Cert.KernelIdeal.BlockValue

end
-- ==== Proof.LibConcatRows4.lean ====
/-
  A concatenation of four arrays along the leading axis, read at an index.

  Four matrices of shapes `[A0, B]`, `[A1, B]`, `[A2, B]`, `[A3, B]` laid end to end along axis 0 give a matrix of
  `N = A0 + A1 + A2 + A3` rows. Its row `i` is row `i` of the first matrix when `i < A0`, row `i - A0` of the second
  when `i` falls in the next `A1` rows, and so on. The same holds for four vectors laid end to end. The operation
  only moves elements, so the statements are for any element type.

  Each lemma is about one piece: the caller names the row `k` inside the piece and gives the equation
  "`i` is the number of rows before the piece, plus `k`".
-/
import Idealize.ShloMosaic.PureOps
import Idealize.ShloMosaic.Lib.ValueIdx
import Idealize.ShloMosaic.Lib.Pipeline.Value

namespace Cert.LibConcatRows4

open Idealize.ShloMosaic Idealize.ShloMosaic.ValueIdx

/-! ## Four matrices stacked by rows -/

section rows

variable {α : Type} {A0 A1 A2 A3 N B : Nat}
  (x0 : (⟨2, ![A0, B]⟩ : Shape).Idx → α) (x1 : (⟨2, ![A1, B]⟩ : Shape).Idx → α)
  (x2 : (⟨2, ![A2, B]⟩ : Shape).Idx → α) (x3 : (⟨2, ![A3, B]⟩ : Shape).Idx → α)
  (hc : Shape.Concatenates [(⟨2, ![A0, B]⟩ : Shape), ⟨2, ![A1, B]⟩, ⟨2, ![A2, B]⟩, ⟨2, ![A3, B]⟩]
    (⟨2, ![N, B]⟩ : Shape) 0)

/-- Row `i` of the stack, when it is row `k` of the first matrix (`i = k`). -/
theorem concat4_rows_apply_0 (i : Fin N) (j : Fin B) (k : Fin A0) (hk : i.val = k.val) :
    concatenate (⟨2, ![N, B]⟩ : Shape) 0
        [⟨⟨2, ![A0, B]⟩, x0⟩, ⟨⟨2, ![A1, B]⟩, x1⟩, ⟨⟨2, ![A2, B]⟩, x2⟩, ⟨⟨2, ![A3, B]⟩, x3⟩] hc (ix2 i j)
      = x0 (ix2 k j) := by
  refine concatenate_apply_piece 0 [⟨⟨2, ![A0, B]⟩, x0⟩, ⟨⟨2, ![A1, B]⟩, x1⟩, ⟨⟨2, ![A2, B]⟩, x2⟩, ⟨⟨2, ![A3, B]⟩, x3⟩]
    hc (ix2 i j) 0 (by show (0 : ℕ) < 4; omega) _ x0 rfl rfl 0 rfl (ix2 k j) (fun b hb => ?_) ?_
  · match b, hb with
    | ⟨0, _⟩, hb => exact absurd rfl hb
    | ⟨1, _⟩, _ => rfl
  · show 0 + k.val = i.val
    omega

/-- Row `i` of the stack, when it is row `k` of the second matrix (`i = A0 + k`). -/
theorem concat4_rows_apply_1 (i : Fin N) (j : Fin B) (k : Fin A1) (hk : i.val = A0 + k.val) :
    concatenate (⟨2, ![N, B]⟩ : Shape) 0
        [⟨⟨2, ![A0, B]⟩, x0⟩, ⟨⟨2, ![A1, B]⟩, x1⟩, ⟨⟨2, ![A2, B]⟩, x2⟩, ⟨⟨2, ![A3, B]⟩, x3⟩] hc (ix2 i j)
      = x1 (ix2 k j) := by
  refine concatenate_apply_piece 0 [⟨⟨2, ![A0, B]⟩, x0⟩, ⟨⟨2, ![A1, B]⟩, x1⟩, ⟨⟨2, ![A2, B]⟩, x2⟩, ⟨⟨2, ![A3, B]⟩, x3⟩]
    hc (ix2 i j) 1 (by show (1 : ℕ) < 4; omega) _ x1 rfl rfl A0 rfl (ix2 k j) (fun b hb => ?_) ?_
  · match b, hb with
    | ⟨0, _⟩, hb => exact absurd rfl hb
    | ⟨1, _⟩, _ => rfl
  · show A0 + k.val = i.val
    omega

/-- Row `i` of the stack, when it is row `k` of the third matrix (`i = A0 + A1 + k`). -/
theorem concat4_rows_apply_2 (i : Fin N) (j : Fin B) (k : Fin A2) (hk : i.val = A0 + A1 + k.val) :
    concatenate (⟨2, ![N, B]⟩ : Shape) 0
        [⟨⟨2, ![A0, B]⟩, x0⟩, ⟨⟨2, ![A1, B]⟩, x1⟩, ⟨⟨2, ![A2, B]⟩, x2⟩, ⟨⟨2, ![A3, B]⟩, x3⟩] hc (ix2 i j)
      = x2 (ix2 k j) := by
  refine concatenate_apply_piece 0 [⟨⟨2, ![A0, B]⟩, x0⟩, ⟨⟨2, ![A1, B]⟩, x1⟩, ⟨⟨2, ![A2, B]⟩, x2⟩, ⟨⟨2, ![A3, B]⟩, x3⟩]
    hc (ix2 i j) 2 (by show (2 : ℕ) < 4; omega) _ x2 rfl rfl (A0 + A1) rfl (ix2 k j) (fun b hb => ?_) ?_
  · match b, hb with
    | ⟨0, _⟩, hb => exact absurd rfl hb
    | ⟨1, _⟩, _ => rfl
  · show A0 + A1 + k.val = i.val
    omega

/-- Row `i` of the stack, when it is row `k` of the fourth matrix (`i = A0 + A1 + A2 + k`). -/
theorem concat4_rows_apply_3 (i : Fin N) (j : Fin B) (k : Fin A3) (hk : i.val = A0 + A1 + A2 + k.val) :
    concatenate (⟨2, ![N, B]⟩ : Shape) 0
        [⟨⟨2, ![A0, B]⟩, x0⟩, ⟨⟨2, ![A1, B]⟩, x1⟩, ⟨⟨2, ![A2, B]⟩, x2⟩, ⟨⟨2, ![A3, B]⟩, x3⟩] hc (ix2 i j)
      = x3 (ix2 k j) := by
  refine concatenate_apply_piece 0 [⟨⟨2, ![A0, B]⟩, x0⟩, ⟨⟨2, ![A1, B]⟩, x1⟩, ⟨⟨2, ![A2, B]⟩, x2⟩, ⟨⟨2, ![A3, B]⟩, x3⟩]
    hc (ix2 i j) 3 (by show (3 : ℕ) < 4; omega) _ x3 rfl rfl (A0 + (A1 + A2)) rfl (ix2 k j) (fun b hb => ?_) ?_
  · match b, hb with
    | ⟨0, _⟩, hb => exact absurd rfl hb
    | ⟨1, _⟩, _ => rfl
  · show A0 + (A1 + A2) + k.val = i.val
    omega

end rows

/-! ## Four vectors laid end to end -/

section vectors

variable {α : Type} {A0 A1 A2 A3 N : Nat}
  (x0 : (⟨1, ![A0]⟩ : Shape).Idx → α) (x1 : (⟨1, ![A1]⟩ : Shape).Idx → α)
  (x2 : (⟨1, ![A2]⟩ : Shape).Idx → α) (x3 : (⟨1, ![A3]⟩ : Shape).Idx → α)
  (hc : Shape.Concatenates [(⟨1, ![A0]⟩ : Shape), ⟨1, ![A1]⟩, ⟨1, ![A2]⟩, ⟨1, ![A3]⟩] (⟨1, ![N]⟩ : Shape) 0)

/-- Entry `i` of the long vector, when it is entry `k` of the first vector (`i = k`). -/
theorem concat4_vec_apply_0 (i : Fin N) (k : Fin A0) (hk : i.val = k.val) :
    concatenate (⟨1, ![N]⟩ : Shape) 0 [⟨⟨1, ![A0]⟩, x0⟩, ⟨⟨1, ![A1]⟩, x1⟩, ⟨⟨1, ![A2]⟩, x2⟩, ⟨⟨1, ![A3]⟩, x3⟩] hc (ix1 i)
      = x0 (ix1 k) := by
  refine concatenate_apply_piece 0 [⟨⟨1, ![A0]⟩, x0⟩, ⟨⟨1, ![A1]⟩, x1⟩, ⟨⟨1, ![A2]⟩, x2⟩, ⟨⟨1, ![A3]⟩, x3⟩]
    hc (ix1 i) 0 (by show (0 : ℕ) < 4; omega) _ x0 rfl rfl 0 rfl (ix1 k) (fun b hb => ?_) ?_
  · match b, hb with
    | ⟨0, _⟩, hb => exact absurd rfl hb
  · show 0 + k.val = i.val
    omega

/-- Entry `i` of the long vector, when it is entry `k` of the second vector (`i = A0 + k`). -/
theorem concat4_vec_apply_1 (i : Fin N) (k : Fin A1) (hk : i.val = A0 + k.val) :
    concatenate (⟨1, ![N]⟩ : Shape) 0 [⟨⟨1, ![A0]⟩, x0⟩, ⟨⟨1, ![A1]⟩, x1⟩, ⟨⟨1, ![A2]⟩, x2⟩, ⟨⟨1, ![A3]⟩, x3⟩] hc (ix1 i)
      = x1 (ix1 k) := by
  refine concatenate_apply_piece 0 [⟨⟨1, ![A0]⟩, x0⟩, ⟨⟨1, ![A1]⟩, x1⟩, ⟨⟨1, ![A2]⟩, x2⟩, ⟨⟨1, ![A3]⟩, x3⟩]
    hc (ix1 i) 1 (by show (1 : ℕ) < 4; omega) _ x1 rfl rfl A0 rfl (ix1 k) (fun b hb => ?_) ?_
  · match b, hb with
    | ⟨0, _⟩, hb => exact absurd rfl hb
  · show A0 + k.val = i.val
    omega

/-- Entry `i` of the long vector, when it is entry `k` of the third vector (`i = A0 + A1 + k`). -/
theorem concat4_vec_apply_2 (i : Fin N) (k : Fin A2) (hk : i.val = A0 + A1 + k.val) :
    concatenate (⟨1, ![N]⟩ : Shape) 0 [⟨⟨1, ![A0]⟩, x0⟩, ⟨⟨1, ![A1]⟩, x1⟩, ⟨⟨1, ![A2]⟩, x2⟩, ⟨⟨1, ![A3]⟩, x3⟩] hc (ix1 i)
      = x2 (ix1 k) := by
  refine concatenate_apply_piece 0 [⟨⟨1, ![A0]⟩, x0⟩, ⟨⟨1, ![A1]⟩, x1⟩, ⟨⟨1, ![A2]⟩, x2⟩, ⟨⟨1, ![A3]⟩, x3⟩]
    hc (ix1 i) 2 (by show (2 : ℕ) < 4; omega) _ x2 rfl rfl (A0 + A1) rfl (ix1 k) (fun b hb => ?_) ?_
  · match b, hb with
    | ⟨0, _⟩, hb => exact absurd rfl hb
  · show A0 + A1 + k.val = i.val
    omega

/-- Entry `i` of the long vector, when it is entry `k` of the fourth vector (`i = A0 + A1 + A2 + k`). -/
theorem concat4_vec_apply_3 (i : Fin N) (k : Fin A3) (hk : i.val = A0 + A1 + A2 + k.val) :
    concatenate (⟨1, ![N]⟩ : Shape) 0 [⟨⟨1, ![A0]⟩, x0⟩, ⟨⟨1, ![A1]⟩, x1⟩, ⟨⟨1, ![A2]⟩, x2⟩, ⟨⟨1, ![A3]⟩, x3⟩] hc (ix1 i)
      = x3 (ix1 k) := by
  refine concatenate_apply_piece 0 [⟨⟨1, ![A0]⟩, x0⟩, ⟨⟨1, ![A1]⟩, x1⟩, ⟨⟨1, ![A2]⟩, x2⟩, ⟨⟨1, ![A3]⟩, x3⟩]
    hc (ix1 i) 3 (by show (3 : ℕ) < 4; omega) _ x3 rfl rfl (A0 + (A1 + A2)) rfl (ix1 k) (fun b hb => ?_) ?_
  · match b, hb with
    | ⟨0, _⟩, hb => exact absurd rfl hb
  · show A0 + (A1 + A2) + k.val = i.val
    omega

end vectors

end Cert.LibConcatRows4
-- ==== Proof.KernelIdealHost.lean ====
/-
  The two arrays the program builds before the region, read at an index.

  Before the region the program stacks the four weight matrices by rows in the order Wb, Wc, Wv, Wa into one
  [1552, 2048] matrix and changes its number format (the identity on the extended reals), and lays the bias vectors
  bb, bc, a vector of 1024 zeros, and ba end to end into one vector of 1552 entries, which it then reshapes to a
  [1552, 1] column. Read entry by entry these are the stacked weights `wcat` and the stacked biases `bcat` of the
  specification: a row of the stack lies in exactly one of the four pieces, and is that piece's row at the row number
  less the rows before the piece; the column's entry (i, 0) is the vector's entry i because both have row-major
  position i; and the zero vector is the broadcast of the scalar whose bit pattern is that of 0.
-/
import proofs.«172733_j81681688035849_2_alg».proof.Proof.KernelIdealFrame
import proofs.«172733_j81681688035849_2_alg».proof.Proof.Spec
import proofs.«172733_j81681688035849_2_alg».proof.Proof.LibConcatRows4
import proofs.«172733_j81681688035849_2_alg».proof.Proof.LibKeepdims
import Idealize.ShloMosaic.Lib.StableHlo.Run
import Idealize.ShloMosaic.Lib.IdealHost
import Idealize.ShloMosaic.Lib.ValueIdx
import Idealize.ShloMosaic.Lib.Pipeline.Value

set_option maxRecDepth 16384

noncomputable section

namespace Cert.KernelIdeal.HostSide

open Cert.KernelIdeal Cert.KernelIdeal.Gen Cert.KernelIdeal.Frame
open Idealize.ShloMosaic Idealize.ShloMosaic.TcCoe Idealize.ShloMosaic.ValueIdx Idealize.ShloMosaic.StableHlo
open Cert.LibConcatRows4

/-! ## The stacks, over plain arrays -/

/-- Four matrices stacked by rows in the order Wb, Wc, Wv, Wa, read at row `i` and column `d`, are the stacked weights
    of the specification: rows 0–255 Wb's, rows 256–511 Wc's, rows 512–1535 Wv's, rows 1536–1551 Wa's. -/
theorem concat_weights (Wa : FVec Ideal ⟨2, ![16, 2048]⟩ .f32) (Wb : FVec Ideal ⟨2, ![256, 2048]⟩ .f32)
    (Wc : FVec Ideal ⟨2, ![256, 2048]⟩ .f32) (Wv : FVec Ideal ⟨2, ![1024, 2048]⟩ .f32)
    (hc : Shape.Concatenates [S256x2048, S256x2048, S1024x2048, S16x2048] S1552x2048 0) (i : Fin 1552) (d : Fin 2048) :
    concatenate S1552x2048 0 [⟨S256x2048, Wb⟩, ⟨S256x2048, Wc⟩, ⟨S1024x2048, Wv⟩, ⟨S16x2048, Wa⟩] hc (ix2 i d)
      = Cert.Gates.wcat Wa Wb Wc Wv i d := by
  unfold Cert.Gates.wcat
  by_cases h1 : i.val < 256
  · rw [dif_pos h1]
    exact concat4_rows_apply_0 Wb Wc Wv Wa hc i d ⟨i.val, h1⟩ rfl
  · by_cases h2 : i.val < 512
    · rw [dif_neg h1, dif_pos h2]
      exact concat4_rows_apply_1 Wb Wc Wv Wa hc i d ⟨i.val - 256, by omega⟩
        (by show i.val = 256 + (i.val - 256); omega)
    · by_cases h3 : i.val < 1536
      · rw [dif_neg h1, dif_neg h2, dif_pos h3]
        exact concat4_rows_apply_2 Wb Wc Wv Wa hc i d ⟨i.val - 512, by omega⟩
          (by show i.val = 256 + 256 + (i.val - 512); omega)
      · rw [dif_neg h1, dif_neg h2, dif_neg h3]
        exact concat4_rows_apply_3 Wb Wc Wv Wa hc i d ⟨i.val - 1536, by have := i.isLt; omega⟩
          (by show i.val = 256 + 256 + 1024 + (i.val - 1536); omega)

/-- Four vectors laid end to end in the order bb, bc, a vector `z` that is zero everywhere, ba, read at entry `i`, are
    the stacked biases of the specification. -/
theorem concat_biases (ba : FVec Ideal ⟨1, ![16]⟩ .f32) (bb : FVec Ideal ⟨1, ![256]⟩ .f32)
    (bc : FVec Ideal ⟨1, ![256]⟩ .f32) (z : FVec Ideal ⟨1, ![1024]⟩ .f32) (hz : ∀ k : Fin 1024, z (ix1 k) = 0)
    (hc : Shape.Concatenates [S256, S256, S1024, S16] S1552 0) (i : Fin 1552) :
    concatenate S1552 0 [⟨S256, bb⟩, ⟨S256, bc⟩, ⟨S1024, z⟩, ⟨S16, ba⟩] hc (ix1 i)
      = Cert.Gates.bcat ba bb bc i := by
  unfold Cert.Gates.bcat
  by_cases h1 : i.val < 256
  · rw [dif_pos h1]
    exact concat4_vec_apply_0 bb bc z ba hc i ⟨i.val, h1⟩ rfl
  · by_cases h2 : i.val < 512
    · rw [dif_neg h1, dif_pos h2]
      exact concat4_vec_apply_1 bb bc z ba hc i ⟨i.val - 256, by omega⟩
        (by show i.val = 256 + (i.val - 256); omega)
    · by_cases h3 : i.val < 1536
      · rw [dif_neg h1, dif_neg h2, dif_pos h3]
        exact (concat4_vec_apply_2 bb bc z ba hc i ⟨i.val - 512, by omega⟩
          (by show i.val = 256 + 256 + (i.val - 512); omega)).trans (hz _)
      · rw [dif_neg h1, dif_neg h2, dif_neg h3]
        exact concat4_vec_apply_3 bb bc z ba hc i ⟨i.val - 1536, by have := i.isLt; omega⟩
          (by show i.val = 256 + 256 + 1024 + (i.val - 1536); omega)

/-- The broadcast to 1024 entries of the scalar with the bit pattern of zero is zero at every entry. -/
theorem zeros_apply (k : Fin 1024) :
    (broadcastInDim S1024 ![] bcast_S_S1024 (constant (F := Ideal) S_ .f32 0x00000000#32) : S1024.Idx → EReal) (ix1 k)
      = 0 :=
  (broadcastInDim_scalar_apply bcast_S_S1024 _ (ix1 k)).trans ((constant_apply _ _).trans Ideal.ofBits_zero_f32)

/-! ## What the region finds in the two arrays -/

variable (m : (ℓ : Loc nD τ sig) → Buf (Elt Ideal) ℓ)

/-- The weight array as the region finds it: the four launched matrices stacked by rows, in the changed format. -/
theorem V_weights_term (c : Dev nD) :
    (V (F := Ideal) m c main_v1 : S1552x2048.Idx → EReal)
      = truncf .bf16 (concatenate S1552x2048 0
          [⟨S256x2048, (m ((c : Thread nD τ).loc main_arg3) : S256x2048.Idx → EReal)⟩,
           ⟨S256x2048, (m ((c : Thread nD τ).loc main_arg5) : S256x2048.Idx → EReal)⟩,
           ⟨S1024x2048, (m ((c : Thread nD τ).loc main_arg7) : S1024x2048.Idx → EReal)⟩,
           ⟨S16x2048, (m ((c : Thread nD τ).loc main_arg1) : S16x2048.Idx → EReal)⟩]
          concatenates_S256x2048_S256x2048_S1024x2048_S16x2048_S1552x2048_d0 : FVec Ideal S1552x2048 .f32)
          bitsLt_bf16_f32 := by
  dsimp only [V, hostOps0]
  after_results
  rfl

/-- The bias column as the region finds it: the three launched bias vectors and the zero vector laid end to end,
    reshaped to a column. -/
theorem V_bias_term (c : Dev nD) :
    (V (F := Ideal) m c main_v4 : S1552x1.Idx → EReal)
      = shapeCast S1552x1 (concatenate S1552 0
          [⟨S256, (m ((c : Thread nD τ).loc main_arg4) : S256.Idx → EReal)⟩,
           ⟨S256, (m ((c : Thread nD τ).loc main_arg6) : S256.Idx → EReal)⟩,
           ⟨S1024, (broadcastInDim S1024 ![] bcast_S_S1024 (constant (F := Ideal) S_ .f32 0x00000000#32) : S1024.Idx → EReal)⟩,
           ⟨S16, (m ((c : Thread nD τ).loc main_arg2) : S16.Idx → EReal)⟩]
          concatenates_S256_S256_S1024_S16_S1552_d0) shapeCasts_S1552_S1552x1 := by
  dsimp only [V, hostOps0]
  after_results
  rfl

/-- The weight array the region finds is, entry by entry, the stacked weights of the launched matrices. -/
theorem V_weights (c : Dev nD) (i : Fin 1552) (d : Fin 2048) :
    (V (F := Ideal) m c main_v1 : S1552x2048.Idx → EReal) (ix2 i d)
      = Cert.Gates.wcat (m ((c : Thread nD τ).loc main_arg1)) (m ((c : Thread nD τ).loc main_arg3))
          (m ((c : Thread nD τ).loc main_arg5)) (m ((c : Thread nD τ).loc main_arg7)) i d :=
  (congrFun (V_weights_term m c) (ix2 i d)).trans
    ((truncf_apply _ bitsLt_bf16_f32 (ix2 i d)).trans
      (concat_weights _ _ _ _ concatenates_S256x2048_S256x2048_S1024x2048_S16x2048_S1552x2048_d0 i d))

/-- The bias column the region finds is, entry by entry, the stacked biases of the launched vectors. -/
theorem V_bias (c : Dev nD) (i : Fin 1552) :
    (V (F := Ideal) m c main_v4 : S1552x1.Idx → EReal) (ix2 i (0 : Fin 1))
      = Cert.Gates.bcat (m ((c : Thread nD τ).loc main_arg2)) (m ((c : Thread nD τ).loc main_arg4))
          (m ((c : Thread nD τ).loc main_arg6)) i :=
  (congrFun (V_bias_term m c) (ix2 i (0 : Fin 1))).trans
    ((Keepdims.shapeCast_a_a1_apply _ shapeCasts_S1552_S1552x1 i (0 : Fin 1)).trans
      (concat_biases _ _ _ _ zeros_apply concatenates_S256_S256_S1024_S16_S1552_d0 i))

end Cert.KernelIdeal.HostSide

end
-- ==== Proof.StackedAlgebra.lean ====
/-
  The stacked arrangement computes the packed specification.

  The four weight matrices stacked by rows in the order Wb, Wc, Wv, Wa form one 1552-row matrix, and the biases
  stacked in the same order (with zeros on Wv's rows) form one 1552-entry vector. Row r of the packed result is
  row catRow r of the one product "stacked weights times input, plus stacked bias": in each of the four ranges of r
  the row catRow r falls inside one block of the stack, the sum over the inner axis is then the projection by that
  block's matrix, and on Wv's rows adding the zero bias changes nothing (x + 0 = x on all of the extended reals).
-/
import proofs.«172733_j81681688035849_2_alg».proof.Proof.Spec

noncomputable section

open scoped BigOperators

namespace Cert.Gates

open Idealize.ShloMosaic Idealize.ShloMosaic.ValueIdx

namespace Stacked

/-! ## Reading the stacked weights inside one block -/

section weights

variable (Wa : FVec Ideal ⟨2, ![16, 2048]⟩ .f32) (Wb : FVec Ideal ⟨2, ![256, 2048]⟩ .f32)
  (Wc : FVec Ideal ⟨2, ![256, 2048]⟩ .f32) (Wv : FVec Ideal ⟨2, ![1024, 2048]⟩ .f32)

/-- Rows 0–255 of the stack are Wb's rows. -/
theorem wcat_of_b (c : Fin 1552) (k : Fin 256) (hk : c.val = k.val) (d : Fin 2048) :
    wcat Wa Wb Wc Wv c d = Wb (ix2 k d) := by
  have h1 : c.val < 256 := by have := k.isLt; omega
  unfold wcat
  rw [dif_pos h1]
  exact congrArg (fun q : Fin 256 => Wb (ix2 q d)) (Fin.ext hk)

/-- Rows 256–511 of the stack are Wc's rows. -/
theorem wcat_of_c (c : Fin 1552) (k : Fin 256) (hk : c.val = 256 + k.val) (d : Fin 2048) :
    wcat Wa Wb Wc Wv c d = Wc (ix2 k d) := by
  have h1 : ¬ c.val < 256 := by omega
  have h2 : c.val < 512 := by have := k.isLt; omega
  unfold wcat
  rw [dif_neg h1, dif_pos h2]
  exact congrArg (fun q : Fin 256 => Wc (ix2 q d)) (Fin.ext (by show c.val - 256 = k.val; omega))

/-- Rows 512–1535 of the stack are Wv's rows. -/
theorem wcat_of_v (c : Fin 1552) (k : Fin 1024) (hk : c.val = 512 + k.val) (d : Fin 2048) :
    wcat Wa Wb Wc Wv c d = Wv (ix2 k d) := by
  have h1 : ¬ c.val < 256 := by omega
  have h2 : ¬ c.val < 512 := by omega
  have h3 : c.val < 1536 := by have := k.isLt; omega
  unfold wcat
  rw [dif_neg h1, dif_neg h2, dif_pos h3]
  exact congrArg (fun q : Fin 1024 => Wv (ix2 q d)) (Fin.ext (by show c.val - 512 = k.val; omega))

/-- Rows 1536–1551 of the stack are Wa's rows. -/
theorem wcat_of_a (c : Fin 1552) (k : Fin 16) (hk : c.val = 1536 + k.val) (d : Fin 2048) :
    wcat Wa Wb Wc Wv c d = Wa (ix2 k d) := by
  have h1 : ¬ c.val < 256 := by omega
  have h2 : ¬ c.val < 512 := by omega
  have h3 : ¬ c.val < 1536 := by omega
  unfold wcat
  rw [dif_neg h1, dif_neg h2, dif_neg h3]
  exact congrArg (fun q : Fin 16 => Wa (ix2 q d)) (Fin.ext (by show c.val - 1536 = k.val; omega))

end weights

/-! ## Reading the stacked biases inside one block -/

section biases

variable (ba : FVec Ideal ⟨1, ![16]⟩ .f32) (bb : FVec Ideal ⟨1, ![256]⟩ .f32) (bc : FVec Ideal ⟨1, ![256]⟩ .f32)

/-- Entries 0–255 of the stacked bias are bb's. -/
theorem bcat_of_b (c : Fin 1552) (k : Fin 256) (hk : c.val = k.val) :
    bcat ba bb bc c = bb (ix1 k) := by
  have h1 : c.val < 256 := by have := k.isLt; omega
  unfold bcat
  rw [dif_pos h1]
  exact congrArg (fun q : Fin 256 => bb (ix1 q)) (Fin.ext hk)

/-- Entries 256–511 of the stacked bias are bc's. -/
theorem bcat_of_c (c : Fin 1552) (k : Fin 256) (hk : c.val = 256 + k.val) :
    bcat ba bb bc c = bc (ix1 k) := by
  have h1 : ¬ c.val < 256 := by omega
  have h2 : c.val < 512 := by have := k.isLt; omega
  unfold bcat
  rw [dif_neg h1, dif_pos h2]
  exact congrArg (fun q : Fin 256 => bc (ix1 q)) (Fin.ext (by show c.val - 256 = k.val; omega))

/-- Entries 512–1535 of the stacked bias are zero. -/
theorem bcat_of_v (c : Fin 1552) (h2 : 512 ≤ c.val) (h3 : c.val < 1536) :
    bcat ba bb bc c = 0 := by
  have h1 : ¬ c.val < 256 := by omega
  have h2' : ¬ c.val < 512 := by omega
  unfold bcat
  rw [dif_neg h1, dif_neg h2', dif_pos h3]

/-- Entries 1536–1551 of the stacked bias are ba's. -/
theorem bcat_of_a (c : Fin 1552) (k : Fin 16) (hk : c.val = 1536 + k.val) :
    bcat ba bb bc c = ba (ix1 k) := by
  have h1 : ¬ c.val < 256 := by omega
  have h2 : ¬ c.val < 512 := by omega
  have h3 : ¬ c.val < 1536 := by omega
  unfold bcat
  rw [dif_neg h1, dif_neg h2, dif_neg h3]
  exact congrArg (fun q : Fin 16 => ba (ix1 q)) (Fin.ext (by show c.val - 1536 = k.val; omega))

end biases

/-! ## The packed result is a row selection of the stacked product -/

section packed

variable (x : FVec Ideal ⟨3, ![4, 4096, 2048]⟩ .f32)
  (Wa : FVec Ideal ⟨2, ![16, 2048]⟩ .f32) (ba : FVec Ideal ⟨1, ![16]⟩ .f32)
  (Wb : FVec Ideal ⟨2, ![256, 2048]⟩ .f32) (bb : FVec Ideal ⟨1, ![256]⟩ .f32)
  (Wc : FVec Ideal ⟨2, ![256, 2048]⟩ .f32) (bc : FVec Ideal ⟨1, ![256]⟩ .f32)
  (Wv : FVec Ideal ⟨2, ![1024, 2048]⟩ .f32)

/-- The packed result at row r is the stacked product at any row c whose number is catRow r. -/
theorem packedAt_eq_cat_row (b : Fin 4) (r : Fin 3088) (l : Fin 4096) (c : Fin 1552) (hc : c.val = catRow r.val) :
    packedAt x Wa ba Wb bb Wc bc Wv b r l
      = (∑ d : Fin 2048, wcat Wa Wb Wc Wv c d * x (ix3 b l d)) + bcat ba bb bc c := by
  unfold packedAt
  by_cases h1 : r.val < 1024
  · -- rows of Wb, heads repeated: catRow r = kvRow r
    have hk : c.val = (⟨kvRow r.val, kvRow_lt h1⟩ : Fin 256).val := by
      rw [hc]; unfold catRow; rw [if_pos h1]
    have hs : (∑ d : Fin 2048, wcat Wa Wb Wc Wv c d * x (ix3 b l d))
        = proj Wb x b ⟨kvRow r.val, kvRow_lt h1⟩ l := by
      show _ = ∑ d : Fin 2048, Wb (ix2 (⟨kvRow r.val, kvRow_lt h1⟩ : Fin 256) d) * x (ix3 b l d)
      exact Finset.sum_congr rfl (fun d _ => by rw [wcat_of_b Wa Wb Wc Wv c _ hk d])
    rw [dif_pos h1, hs, bcat_of_b ba bb bc c _ hk]
  · by_cases h2 : r.val < 2048
    · -- rows of Wv, no bias: catRow r = 512 + (r - 1024)
      have hk : c.val = 512 + (⟨r.val - 1024, by omega⟩ : Fin 1024).val := by
        rw [hc]; unfold catRow; rw [if_neg h1, if_pos h2]
      have hs : (∑ d : Fin 2048, wcat Wa Wb Wc Wv c d * x (ix3 b l d))
          = proj Wv x b ⟨r.val - 1024, by omega⟩ l := by
        show _ = ∑ d : Fin 2048, Wv (ix2 (⟨r.val - 1024, by omega⟩ : Fin 1024) d) * x (ix3 b l d)
        exact Finset.sum_congr rfl (fun d _ => by rw [wcat_of_v Wa Wb Wc Wv c _ hk d])
      have hz : bcat ba bb bc c = 0 :=
        bcat_of_v ba bb bc c (by rw [hk]; exact Nat.le_add_right _ _) (by rw [hk]; show 512 + (r.val - 1024) < 1536; omega)
      rw [dif_neg h1, dif_pos h2, hs, hz, add_zero]
    · by_cases h3 : r.val < 3072
      · -- rows of Wc, heads repeated: catRow r = 256 + kvRow (r - 2048)
        have hlt : kvRow (r.val - 2048) < 256 := kvRow_lt (by omega)
        have hk : c.val = 256 + (⟨kvRow (r.val - 2048), hlt⟩ : Fin 256).val := by
          rw [hc]; unfold catRow; rw [if_neg h1, if_neg h2, if_pos h3]
        have hs : (∑ d : Fin 2048, wcat Wa Wb Wc Wv c d * x (ix3 b l d))
            = proj Wc x b ⟨kvRow (r.val - 2048), hlt⟩ l := by
          show _ = ∑ d : Fin 2048, Wc (ix2 (⟨kvRow (r.val - 2048), hlt⟩ : Fin 256) d) * x (ix3 b l d)
          exact Finset.sum_congr rfl (fun d _ => by rw [wcat_of_c Wa Wb Wc Wv c _ hk d])
        rw [dif_neg h1, dif_neg h2, dif_pos h3, hs, bcat_of_c ba bb bc c _ hk]
      · -- rows of Wa: catRow r = 1536 + (r - 3072)
        have hr : r.val - 3072 < 16 := by have := r.isLt; omega
        have hk : c.val = 1536 + (⟨r.val - 3072, hr⟩ : Fin 16).val := by
          rw [hc]; unfold catRow; rw [if_neg h1, if_neg h2, if_neg h3]
        have hs : (∑ d : Fin 2048, wcat Wa Wb Wc Wv c d * x (ix3 b l d))
            = proj Wa x b ⟨r.val - 3072, hr⟩ l := by
          show _ = ∑ d : Fin 2048, Wa (ix2 (⟨r.val - 3072, hr⟩ : Fin 16) d) * x (ix3 b l d)
          exact Finset.sum_congr rfl (fun d _ => by rw [wcat_of_a Wa Wb Wc Wv c _ hk d])
        rw [dif_neg h1, dif_neg h2, dif_neg h3, hs, bcat_of_a ba bb bc c _ hk]

end packed

end Stacked

/-- The packed result at row r is row catRow r of the stacked product. -/
theorem packedAt_eq_cat (x : FVec Ideal ⟨3, ![4, 4096, 2048]⟩ .f32)
    (Wa : FVec Ideal ⟨2, ![16, 2048]⟩ .f32) (ba : FVec Ideal ⟨1, ![16]⟩ .f32)
    (Wb : FVec Ideal ⟨2, ![256, 2048]⟩ .f32) (bb : FVec Ideal ⟨1, ![256]⟩ .f32)
    (Wc : FVec Ideal ⟨2, ![256, 2048]⟩ .f32) (bc : FVec Ideal ⟨1, ![256]⟩ .f32)
    (Wv : FVec Ideal ⟨2, ![1024, 2048]⟩ .f32) (b : Fin 4) (r : Fin 3088) (l : Fin 4096) :
    packedAt x Wa ba Wb bb Wc bc Wv b r l
      = (∑ d : Fin 2048, wcat Wa Wb Wc Wv (⟨catRow r.val, catRow_lt r.isLt⟩ : Fin 1552) d * x (ix3 b l d))
        + bcat ba bb bc (⟨catRow r.val, catRow_lt r.isLt⟩ : Fin 1552) :=
  Stacked.packedAt_eq_cat_row x Wa ba Wb bb Wc bc Wv b r l ⟨catRow r.val, catRow_lt r.isLt⟩ rfl

end Cert.Gates

end
-- ==== Proof.RefProj.lean ====
/-
  A weight matrix applied to a batch of sequences, read at an entry.

  A matrix W : [R, K] contracted with an array X : [B, L, K] over their last axes gives [R, B, L] with entry
  (c, b, l) = Σ_d W[c, d] · X[b, l, d]; transposed by the permutation [1, 0, 2] it is read at (b, c, l). A bias
  vector [R] broadcast first to [1, R, 1] and then to [B, R, L] is read at (b, c, l) as its entry c. The lemmas here
  state these three readings at any extents, at the ideal values, with every index written by its coordinates.
-/
import Idealize.ShloMosaic.PureOps.Ideal.Laws
import Idealize.ShloMosaic.Lib.ValueIdx
import Idealize.ShloMosaic.Lib.Pipeline.Value

noncomputable section

open scoped BigOperators

namespace Cert.ReferenceIdeal.Value

open Idealize.ShloMosaic Idealize.ShloMosaic.ValueIdx

/-- The contraction of W : [R, K] with X : [B, L, K] over their last axes, read at (c, b, l): the sum over the
    contracted coordinate d of W[c, d] · X[b, l, d]. The contraction index has one axis, so the sum over it is
    re-indexed by that axis' coordinate; the two operand indices are then read off coordinate by coordinate. -/
theorem dot_lastAxes_apply {R B L K : Nat} {φ₁ φ₂ : FTy}
    (w : DotDims.WF ⟨2, ![R, K]⟩ ⟨3, ![B, L, K]⟩ ⟨3, ![R, B, L]⟩ [1] [2] [0] [0, 1] [] [])
    (prec : Option ContractPrecision) (W : FVec Ideal ⟨2, ![R, K]⟩ φ₁) (X : FVec Ideal ⟨3, ![B, L, K]⟩ φ₂)
    (c : Fin R) (b : Fin B) (l : Fin L) :
    Host.dotGeneral (⟨[1], [2], [0], [0, 1], [], [], w⟩ : DotDims ⟨2, ![R, K]⟩ ⟨3, ![B, L, K]⟩ ⟨3, ![R, B, L]⟩) prec W X
        (ix3 c b l)
      = ∑ d : Fin K, W (ix2 c d) * X (ix3 b l d) := by
  show FloatOps.dotGeneral _ prec _ W X (ix3 c b l) = _
  rw [Ideal.dotGeneral_apply,
    ← Equiv.sum_comp (contrEquiv1 (⟨[1], [2], [0], [0, 1], [], [], w⟩ : DotDims _ _ _) K rfl rfl).symm]
  refine Finset.sum_congr rfl fun d _ => ?_
  have cv := contrEquiv1_symm_val
    (⟨[1], [2], [0], [0, 1], [], [], w⟩ : DotDims ⟨2, ![R, K]⟩ ⟨3, ![B, L, K]⟩ ⟨3, ![R, B, L]⟩) K rfl rfl d
  have hl : (⟨[1], [2], [0], [0, 1], [], [], w⟩ : DotDims ⟨2, ![R, K]⟩ ⟨3, ![B, L, K]⟩ ⟨3, ![R, B, L]⟩).lhsIdx (ix3 c b l)
      ((contrEquiv1 _ K rfl rfl).symm d) = ix2 c d := by
    funext ax; apply Fin.ext
    match ax with
    | ⟨0, _⟩ => simp [DotDims.lhsIdx]; rfl
    | ⟨1, _⟩ => simp [DotDims.lhsIdx]; exact cv
  have hr : (⟨[1], [2], [0], [0, 1], [], [], w⟩ : DotDims ⟨2, ![R, K]⟩ ⟨3, ![B, L, K]⟩ ⟨3, ![R, B, L]⟩).rhsIdx (ix3 c b l)
      ((contrEquiv1 _ K rfl rfl).symm d) = ix3 b l d := by
    funext ax; apply Fin.ext
    match ax with
    | ⟨0, _⟩ => simp [DotDims.rhsIdx]; rfl
    | ⟨1, _⟩ => simp [DotDims.rhsIdx]; rfl
    | ⟨2, _⟩ => simp [DotDims.rhsIdx]; exact cv
  rw [hl, hr]

/-- An array [n0, n1, n2] transposed by [1, 0, 2] reads, at (j, i, k), the operand at (i, j, k). -/
theorem transpose_102_apply {α : Type} {n0 n1 n2 : Nat} (x : (⟨3, ![n0, n1, n2]⟩ : Shape).Idx → α)
    (h : (⟨3, ![n0, n1, n2]⟩ : Shape).Transposes [1, 0, 2] ⟨3, ![n1, n0, n2]⟩) (j : Fin n1) (i : Fin n0) (k : Fin n2) :
    transpose ⟨3, ![n1, n0, n2]⟩ [1, 0, 2] x h (ix3 j i k) = x (ix3 i j k) :=
  transpose_apply _ x h _ _ fun a => match a with | ⟨0, _⟩ => rfl | ⟨1, _⟩ => rfl | ⟨2, _⟩ => rfl

/-- A vector [R] placed on the middle axis of [1, R, 1] and then spread over [B, R, L] reads, at (b, c, l), its
    entry c. On an axis of extent 1 a broadcast reads coordinate 0; the middle axis has extent R, and if R is 1 the
    coordinate c is 0 anyway. -/
theorem bias_apply {α : Type} {R B L : Nat} (bias : (⟨1, ![R]⟩ : Shape).Idx → α)
    (h1 : (⟨1, ![R]⟩ : Shape).BroadcastsInDim ⟨3, ![1, R, 1]⟩
      (![1] : Fin (⟨1, ![R]⟩ : Shape).rank → Fin (⟨3, ![1, R, 1]⟩ : Shape).rank))
    (h2 : (⟨3, ![1, R, 1]⟩ : Shape).BroadcastsInDim ⟨3, ![B, R, L]⟩
      (![0, 1, 2] : Fin (⟨3, ![1, R, 1]⟩ : Shape).rank → Fin (⟨3, ![B, R, L]⟩ : Shape).rank))
    (b : Fin B) (c : Fin R) (l : Fin L) :
    broadcastInDim ⟨3, ![B, R, L]⟩ ![0, 1, 2] h2 (broadcastInDim ⟨3, ![1, R, 1]⟩ ![1] h1 bias) (ix3 b c l)
      = bias (ix1 c) := by
  have hc := c.isLt
  refine (broadcastInDim_apply _ h2 _ (ix3 b c l) (ix3 (0 : Fin 1) c (0 : Fin 1)) fun a => ?_).trans
    (broadcastInDim_apply _ h1 bias _ (ix1 c) fun a => ?_)
  · match a with
    | ⟨0, _⟩ => exact (if_pos rfl).symm
    | ⟨1, _⟩ =>
      show c.val = if R = 1 then 0 else c.val
      split <;> omega
    | ⟨2, _⟩ => exact (if_pos rfl).symm
  · match a with
    | ⟨0, _⟩ =>
      show c.val = if R = 1 then 0 else c.val
      split <;> omega

end Cert.ReferenceIdeal.Value

end
-- ==== Proof.LibConcatMid.lean ====
/-
  Four arrays stacked along the middle axis, read at an entry.

  Four rank-3 arrays with the same first and last extents, [A, B0, C], [A, B1, C], [A, B2, C] and [A, B3, C], joined
  along the middle axis form one array [A, T, C]. Its entry at (a, j, c) belongs to the piece whose span along the
  middle axis holds j, and is that piece's entry at (a, j less the extents of the pieces before it, c). One lemma per
  piece, for any element type; each is the library's reading of a concatenation at the piece the caller names, with the
  two off-axis coordinates equal by computation and the middle one by the caller's equation.
-/
import Idealize.ShloMosaic.Lib.ValueIdx
import Idealize.ShloMosaic.Lib.Pipeline.Value
noncomputable section
namespace Cert.Lib.ConcatMid
open Idealize.ShloMosaic Idealize.ShloMosaic.ValueIdx

variable {α : Type} {A B0 B1 B2 B3 C T : Nat}

/-- A middle coordinate inside the first piece's extent reads the first piece there. -/
theorem quad_fst (x0 : (⟨3, ![A, B0, C]⟩ : Shape).Idx → α) (x1 : (⟨3, ![A, B1, C]⟩ : Shape).Idx → α)
    (x2 : (⟨3, ![A, B2, C]⟩ : Shape).Idx → α) (x3 : (⟨3, ![A, B3, C]⟩ : Shape).Idx → α)
    (h : Shape.Concatenates [⟨3, ![A, B0, C]⟩, ⟨3, ![A, B1, C]⟩, ⟨3, ![A, B2, C]⟩, ⟨3, ![A, B3, C]⟩] ⟨3, ![A, T, C]⟩ 1)
    (a : Fin A) (b : Fin B0) (c : Fin C) (j : Fin T) (hj : j.val = b.val) :
    concatenate ⟨3, ![A, T, C]⟩ 1
        [⟨⟨3, ![A, B0, C]⟩, x0⟩, ⟨⟨3, ![A, B1, C]⟩, x1⟩, ⟨⟨3, ![A, B2, C]⟩, x2⟩, ⟨⟨3, ![A, B3, C]⟩, x3⟩] h (ix3 a j c)
      = x0 (ix3 a b c) :=
  concatenate_apply_piece (t := ⟨3, ![A, T, C]⟩) 1
    [⟨⟨3, ![A, B0, C]⟩, x0⟩, ⟨⟨3, ![A, B1, C]⟩, x1⟩, ⟨⟨3, ![A, B2, C]⟩, x2⟩, ⟨⟨3, ![A, B3, C]⟩, x3⟩] h (ix3 a j c)
    0 (by show 0 < 4; omega) ⟨3, ![A, B0, C]⟩ x0 rfl rfl 0 rfl (ix3 a b c)
    (fun d hd => match d, hd with
      | ⟨0, _⟩, _ => rfl
      | ⟨1, _⟩, hd => absurd rfl hd
      | ⟨2, _⟩, _ => rfl)
    (by show 0 + b.val = j.val; omega)

/-- A middle coordinate in the second piece's span reads the second piece at the coordinate less the first extent. -/
theorem quad_snd (x0 : (⟨3, ![A, B0, C]⟩ : Shape).Idx → α) (x1 : (⟨3, ![A, B1, C]⟩ : Shape).Idx → α)
    (x2 : (⟨3, ![A, B2, C]⟩ : Shape).Idx → α) (x3 : (⟨3, ![A, B3, C]⟩ : Shape).Idx → α)
    (h : Shape.Concatenates [⟨3, ![A, B0, C]⟩, ⟨3, ![A, B1, C]⟩, ⟨3, ![A, B2, C]⟩, ⟨3, ![A, B3, C]⟩] ⟨3, ![A, T, C]⟩ 1)
    (a : Fin A) (b : Fin B1) (c : Fin C) (j : Fin T) (hj : j.val = B0 + b.val) :
    concatenate ⟨3, ![A, T, C]⟩ 1
        [⟨⟨3, ![A, B0, C]⟩, x0⟩, ⟨⟨3, ![A, B1, C]⟩, x1⟩, ⟨⟨3, ![A, B2, C]⟩, x2⟩, ⟨⟨3, ![A, B3, C]⟩, x3⟩] h (ix3 a j c)
      = x1 (ix3 a b c) :=
  concatenate_apply_piece (t := ⟨3, ![A, T, C]⟩) 1
    [⟨⟨3, ![A, B0, C]⟩, x0⟩, ⟨⟨3, ![A, B1, C]⟩, x1⟩, ⟨⟨3, ![A, B2, C]⟩, x2⟩, ⟨⟨3, ![A, B3, C]⟩, x3⟩] h (ix3 a j c)
    1 (by show 1 < 4; omega) ⟨3, ![A, B1, C]⟩ x1 rfl rfl B0 rfl (ix3 a b c)
    (fun d hd => match d, hd with
      | ⟨0, _⟩, _ => rfl
      | ⟨1, _⟩, hd => absurd rfl hd
      | ⟨2, _⟩, _ => rfl)
    (by show B0 + b.val = j.val; omega)

/-- A middle coordinate in the third piece's span reads the third piece at the coordinate less the first two extents. -/
theorem quad_thd (x0 : (⟨3, ![A, B0, C]⟩ : Shape).Idx → α) (x1 : (⟨3, ![A, B1, C]⟩ : Shape).Idx → α)
    (x2 : (⟨3, ![A, B2, C]⟩ : Shape).Idx → α) (x3 : (⟨3, ![A, B3, C]⟩ : Shape).Idx → α)
    (h : Shape.Concatenates [⟨3, ![A, B0, C]⟩, ⟨3, ![A, B1, C]⟩, ⟨3, ![A, B2, C]⟩, ⟨3, ![A, B3, C]⟩] ⟨3, ![A, T, C]⟩ 1)
    (a : Fin A) (b : Fin B2) (c : Fin C) (j : Fin T) (hj : j.val = B0 + B1 + b.val) :
    concatenate ⟨3, ![A, T, C]⟩ 1
        [⟨⟨3, ![A, B0, C]⟩, x0⟩, ⟨⟨3, ![A, B1, C]⟩, x1⟩, ⟨⟨3, ![A, B2, C]⟩, x2⟩, ⟨⟨3, ![A, B3, C]⟩, x3⟩] h (ix3 a j c)
      = x2 (ix3 a b c) :=
  concatenate_apply_piece (t := ⟨3, ![A, T, C]⟩) 1
    [⟨⟨3, ![A, B0, C]⟩, x0⟩, ⟨⟨3, ![A, B1, C]⟩, x1⟩, ⟨⟨3, ![A, B2, C]⟩, x2⟩, ⟨⟨3, ![A, B3, C]⟩, x3⟩] h (ix3 a j c)
    2 (by show 2 < 4; omega) ⟨3, ![A, B2, C]⟩ x2 rfl rfl (B0 + B1) rfl (ix3 a b c)
    (fun d hd => match d, hd with
      | ⟨0, _⟩, _ => rfl
      | ⟨1, _⟩, hd => absurd rfl hd
      | ⟨2, _⟩, _ => rfl)
    (by show B0 + B1 + b.val = j.val; omega)

/-- A middle coordinate in the fourth piece's span reads the fourth piece at the coordinate less the first three
    extents. -/
theorem quad_fth (x0 : (⟨3, ![A, B0, C]⟩ : Shape).Idx → α) (x1 : (⟨3, ![A, B1, C]⟩ : Shape).Idx → α)
    (x2 : (⟨3, ![A, B2, C]⟩ : Shape).Idx → α) (x3 : (⟨3, ![A, B3, C]⟩ : Shape).Idx → α)
    (h : Shape.Concatenates [⟨3, ![A, B0, C]⟩, ⟨3, ![A, B1, C]⟩, ⟨3, ![A, B2, C]⟩, ⟨3, ![A, B3, C]⟩] ⟨3, ![A, T, C]⟩ 1)
    (a : Fin A) (b : Fin B3) (c : Fin C) (j : Fin T) (hj : j.val = B0 + B1 + B2 + b.val) :
    concatenate ⟨3, ![A, T, C]⟩ 1
        [⟨⟨3, ![A, B0, C]⟩, x0⟩, ⟨⟨3, ![A, B1, C]⟩, x1⟩, ⟨⟨3, ![A, B2, C]⟩, x2⟩, ⟨⟨3, ![A, B3, C]⟩, x3⟩] h (ix3 a j c)
      = x3 (ix3 a b c) :=
  concatenate_apply_piece (t := ⟨3, ![A, T, C]⟩) 1
    [⟨⟨3, ![A, B0, C]⟩, x0⟩, ⟨⟨3, ![A, B1, C]⟩, x1⟩, ⟨⟨3, ![A, B2, C]⟩, x2⟩, ⟨⟨3, ![A, B3, C]⟩, x3⟩] h (ix3 a j c)
    3 (by show 3 < 4; omega) ⟨3, ![A, B3, C]⟩ x3 rfl rfl (B0 + (B1 + B2)) rfl (ix3 a b c)
    (fun d hd => match d, hd with
      | ⟨0, _⟩, _ => rfl
      | ⟨1, _⟩, hd => absurd rfl hd
      | ⟨2, _⟩, _ => rfl)
    (by show B0 + (B1 + B2) + b.val = j.val; omega)

end Cert.Lib.ConcatMid
-- ==== Proof.RefValue.lean ====
/-
  The reference's value, entry by entry, on the extended reals.

  Each of the reference's four projections is a weight matrix [R, 2048] contracted with the input [4, 4096, 2048] over
  their last axes, transposed to [4, R, 4096]; read at (b, c, l) it is Σ_d W[c, d] · x[b, l, d], and three of them add
  their bias' entry c. The result stacks four pieces along the channel axis: rows 0–1023 the head-expanded 256-channel
  projection by Wb, rows 1024–2047 the 1024-channel projection by Wv, rows 2048–3071 the head-expanded projection by Wc,
  rows 3072–3087 the 16-channel projection by Wa. Read at (b, r, l), the stack is the piece whose span holds r, at r
  less the rows before it; the head expansion reads row r of its 1024 at channel 64·(r / 256) + r % 64 of its 256
  (taken here as a hypothesis, proved beside this module). Together these are the packed function of the
  specification, entry by entry.
-/
import proofs.«172733_j81681688035849_2_alg».proof.Proof.Gen.ReferenceIdeal
import proofs.«172733_j81681688035849_2_alg».proof.Proof.RefTerm
import proofs.«172733_j81681688035849_2_alg».proof.Proof.Spec
import proofs.«172733_j81681688035849_2_alg».proof.Proof.RefProj
import proofs.«172733_j81681688035849_2_alg».proof.Proof.LibConcatMid
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.ReferenceIdeal.Value

open Cert.ReferenceIdeal Idealize.ShloMosaic Idealize.ShloMosaic.ValueIdx
open Facts₀

/-! ## The three kinds of projection at an entry -/

/-- The 256-channel projection with its bias, at (b, c, l): the sum over d of W[c, d] · x[b, l, d], plus bias[c]. -/
theorem projK_apply (x : FVec Ideal S4x4096x2048 .f32) (W : FVec Ideal S256x2048 .f32) (bias : FVec Ideal S256 .f32)
    (b : Fin 4) (c : Fin 256) (l : Fin 4096) :
    Term.projK (F := Ideal) x W bias (ix3 b c l) = Cert.Gates.proj W x b c l + bias (ix1 c) := by
  have e1 := transpose_102_apply (Host.dotGeneral dot_S256x2048_S4x4096x2048_S256x4x4096_1_2_0_01_n_n none W x)
    transposes_S256x4x4096_S4x256x4096_1_0_2 b c l
  have e2 := bias_apply bias bcast_S256_S1x256x1_1 bcast_S1x256x1_S4x256x4096_0_1_2 b c l
  have e3 : Host.dotGeneral dot_S256x2048_S4x4096x2048_S256x4x4096_1_2_0_01_n_n none W x (ix3 c b l)
      = Cert.Gates.proj W x b c l :=
    dot_lastAxes_apply dot_S256x2048_S4x4096x2048_S256x4x4096_1_2_0_01_n_n_wf none W x c b l
  show transpose S4x256x4096 [1, 0, 2] (Host.dotGeneral dot_S256x2048_S4x4096x2048_S256x4x4096_1_2_0_01_n_n none W x)
        transposes_S256x4x4096_S4x256x4096_1_0_2 (ix3 b c l)
      + broadcastInDim S4x256x4096 ![0, 1, 2] bcast_S1x256x1_S4x256x4096_0_1_2
        (broadcastInDim S1x256x1 ![1] bcast_S256_S1x256x1_1 bias) (ix3 b c l) = _
  rw [e1, e2, e3]

/-- The 16-channel projection with its bias, at (b, c, l). -/
theorem projA_apply (x : FVec Ideal S4x4096x2048 .f32) (W : FVec Ideal S16x2048 .f32) (bias : FVec Ideal S16 .f32)
    (b : Fin 4) (c : Fin 16) (l : Fin 4096) :
    Term.projA (F := Ideal) x W bias (ix3 b c l) = Cert.Gates.proj W x b c l + bias (ix1 c) := by
  have e1 := transpose_102_apply (Host.dotGeneral dot_S16x2048_S4x4096x2048_S16x4x4096_1_2_0_01_n_n none W x)
    transposes_S16x4x4096_S4x16x4096_1_0_2 b c l
  have e2 := bias_apply bias bcast_S16_S1x16x1_1 bcast_S1x16x1_S4x16x4096_0_1_2 b c l
  have e3 : Host.dotGeneral dot_S16x2048_S4x4096x2048_S16x4x4096_1_2_0_01_n_n none W x (ix3 c b l)
      = Cert.Gates.proj W x b c l :=
    dot_lastAxes_apply dot_S16x2048_S4x4096x2048_S16x4x4096_1_2_0_01_n_n_wf none W x c b l
  show transpose S4x16x4096 [1, 0, 2] (Host.dotGeneral dot_S16x2048_S4x4096x2048_S16x4x4096_1_2_0_01_n_n none W x)
        transposes_S16x4x4096_S4x16x4096_1_0_2 (ix3 b c l)
      + broadcastInDim S4x16x4096 ![0, 1, 2] bcast_S1x16x1_S4x16x4096_0_1_2
        (broadcastInDim S1x16x1 ![1] bcast_S16_S1x16x1_1 bias) (ix3 b c l) = _
  rw [e1, e2, e3]

/-- The 1024-channel projection, which has no bias, at (b, c, l). -/
theorem projV_apply (x : FVec Ideal S4x4096x2048 .f32) (W : FVec Ideal S1024x2048 .f32)
    (b : Fin 4) (c : Fin 1024) (l : Fin 4096) :
    Term.projV (F := Ideal) x W (ix3 b c l) = Cert.Gates.proj W x b c l := by
  have e1 := transpose_102_apply (Host.dotGeneral dot_S1024x2048_S4x4096x2048_S1024x4x4096_1_2_0_01_n_n none W x)
    transposes_S1024x4x4096_S4x1024x4096_1_0_2 b c l
  have e3 : Host.dotGeneral dot_S1024x2048_S4x4096x2048_S1024x4x4096_1_2_0_01_n_n none W x (ix3 c b l)
      = Cert.Gates.proj W x b c l :=
    dot_lastAxes_apply dot_S1024x2048_S4x4096x2048_S1024x4x4096_1_2_0_01_n_n_wf none W x c b l
  show transpose S4x1024x4096 [1, 0, 2] (Host.dotGeneral dot_S1024x2048_S4x4096x2048_S1024x4x4096_1_2_0_01_n_n none W x)
        transposes_S1024x4x4096_S4x1024x4096_1_0_2 (ix3 b c l) = _
  rw [e1, e3]

/-! ## The stack of four pieces at an entry

Stated over any four pieces of the reference's shapes, so that applying one of them to the reference's result matches
the pieces as they stand and opens none of them. -/

/-- Rows 0–1023 read the first piece at the same row. -/
theorem stack_fst (p0 p1 p2 : (⟨S4x1024x4096, .f32⟩ : BufTy).Contents (Elt Ideal))
    (p3 : (⟨S4x16x4096, .f32⟩ : BufTy).Contents (Elt Ideal)) (b : Fin 4) (r : Fin 3088) (l : Fin 4096)
    (h1 : r.val < 1024) :
    (concatenate S4x3088x4096 1
        [⟨S4x1024x4096, p0⟩, ⟨S4x1024x4096, p1⟩, ⟨S4x1024x4096, p2⟩, ⟨S4x16x4096, p3⟩]
        concatenates_S4x1024x4096_S4x1024x4096_S4x1024x4096_S4x16x4096_S4x3088x4096_d1
          : (⟨S4x3088x4096, .f32⟩ : BufTy).Contents (Elt Ideal)) (ix3 b r l)
      = p0 (ix3 b (⟨r.val, h1⟩ : Fin 1024) l) :=
  Cert.Lib.ConcatMid.quad_fst p0 p1 p2 p3
    concatenates_S4x1024x4096_S4x1024x4096_S4x1024x4096_S4x16x4096_S4x3088x4096_d1 b (⟨r.val, h1⟩ : Fin 1024) l r rfl

/-- Rows 1024–2047 read the second piece at the row less 1024. -/
theorem stack_snd (p0 p1 p2 : (⟨S4x1024x4096, .f32⟩ : BufTy).Contents (Elt Ideal))
    (p3 : (⟨S4x16x4096, .f32⟩ : BufTy).Contents (Elt Ideal)) (b : Fin 4) (r : Fin 3088) (l : Fin 4096)
    (h1 : ¬r.val < 1024) (h2 : r.val < 2048) :
    (concatenate S4x3088x4096 1
        [⟨S4x1024x4096, p0⟩, ⟨S4x1024x4096, p1⟩, ⟨S4x1024x4096, p2⟩, ⟨S4x16x4096, p3⟩]
        concatenates_S4x1024x4096_S4x1024x4096_S4x1024x4096_S4x16x4096_S4x3088x4096_d1
          : (⟨S4x3088x4096, .f32⟩ : BufTy).Contents (Elt Ideal)) (ix3 b r l)
      = p1 (ix3 b (⟨r.val - 1024, by omega⟩ : Fin 1024) l) :=
  Cert.Lib.ConcatMid.quad_snd p0 p1 p2 p3
    concatenates_S4x1024x4096_S4x1024x4096_S4x1024x4096_S4x16x4096_S4x3088x4096_d1 b
    (⟨r.val - 1024, by omega⟩ : Fin 1024) l r (by show r.val = 1024 + (r.val - 1024); omega)

/-- Rows 2048–3071 read the third piece at the row less 2048. -/
theorem stack_thd (p0 p1 p2 : (⟨S4x1024x4096, .f32⟩ : BufTy).Contents (Elt Ideal))
    (p3 : (⟨S4x16x4096, .f32⟩ : BufTy).Contents (Elt Ideal)) (b : Fin 4) (r : Fin 3088) (l : Fin 4096)
    (h2 : ¬r.val < 2048) (h3 : r.val < 3072) :
    (concatenate S4x3088x4096 1
        [⟨S4x1024x4096, p0⟩, ⟨S4x1024x4096, p1⟩, ⟨S4x1024x4096, p2⟩, ⟨S4x16x4096, p3⟩]
        concatenates_S4x1024x4096_S4x1024x4096_S4x1024x4096_S4x16x4096_S4x3088x4096_d1
          : (⟨S4x3088x4096, .f32⟩ : BufTy).Contents (Elt Ideal)) (ix3 b r l)
      = p2 (ix3 b (⟨r.val - 2048, by omega⟩ : Fin 1024) l) :=
  Cert.Lib.ConcatMid.quad_thd p0 p1 p2 p3
    concatenates_S4x1024x4096_S4x1024x4096_S4x1024x4096_S4x16x4096_S4x3088x4096_d1 b
    (⟨r.val - 2048, by omega⟩ : Fin 1024) l r (by show r.val = 1024 + 1024 + (r.val - 2048); omega)

/-- Rows 3072–3087 read the fourth piece at the row less 3072. -/
theorem stack_fth (p0 p1 p2 : (⟨S4x1024x4096, .f32⟩ : BufTy).Contents (Elt Ideal))
    (p3 : (⟨S4x16x4096, .f32⟩ : BufTy).Contents (Elt Ideal)) (b : Fin 4) (r : Fin 3088) (l : Fin 4096)
    (h3 : ¬r.val < 3072) :
    (concatenate S4x3088x4096 1
        [⟨S4x1024x4096, p0⟩, ⟨S4x1024x4096, p1⟩, ⟨S4x1024x4096, p2⟩, ⟨S4x16x4096, p3⟩]
        concatenates_S4x1024x4096_S4x1024x4096_S4x1024x4096_S4x16x4096_S4x3088x4096_d1
          : (⟨S4x3088x4096, .f32⟩ : BufTy).Contents (Elt Ideal)) (ix3 b r l)
      = p3 (ix3 b (⟨r.val - 3072, by have := r.isLt; omega⟩ : Fin 16) l) :=
  Cert.Lib.ConcatMid.quad_fth p0 p1 p2 p3
    concatenates_S4x1024x4096_S4x1024x4096_S4x1024x4096_S4x16x4096_S4x3088x4096_d1 b
    (⟨r.val - 3072, by have := r.isLt; omega⟩ : Fin 16) l r
    (by show r.val = 1024 + 1024 + 1024 + (r.val - 3072); omega)

/-! ## The reference's result -/

/-- The reference's result is the packed function of the specification. The head expansion's reading — row r of the
    1024 takes channel 64·(r / 256) + r % 64 of the 256 — is the hypothesis. At (b, r, l) the row r falls in one of the
    four spans 0–1023, 1024–2047, 2048–3071, 3072–3087; the stack reads that piece at r less the rows before it, and
    the piece's own reading is the matching branch of the specification. -/
theorem refOut_eq_packed
    (hexp : ∀ (t : FVec Ideal S4x256x4096 .f32) (b : Fin 4) (r : Fin 1024) (l : Fin 4096),
      Cert.ReferenceIdeal.Term.expand (F := Ideal) t (ix3 b r l)
        = t (ix3 b (⟨Cert.Gates.kvRow r.val, Cert.Gates.kvRow_lt r.isLt⟩ : Fin 256) l))
    (x : FVec Ideal S4x4096x2048 .f32) (Wa : FVec Ideal S16x2048 .f32) (ba : FVec Ideal S16 .f32)
    (Wb : FVec Ideal S256x2048 .f32) (bb : FVec Ideal S256 .f32) (Wc : FVec Ideal S256x2048 .f32)
    (bc : FVec Ideal S256 .f32) (Wv : FVec Ideal S1024x2048 .f32) :
    Cert.ReferenceIdeal.Term.refOut (F := Ideal) x Wa ba Wb bb Wc bc Wv = Cert.Gates.packed x Wa ba Wb bb Wc bc Wv := by
  funext j
  obtain ⟨b, r, l, rfl⟩ : ∃ (b : Fin 4) (r : Fin 3088) (l : Fin 4096), j = ix3 b r l := ⟨j 0, j 1, j 2, eq_ix3 j⟩
  rw [Cert.Gates.packed_ix3]
  unfold Cert.Gates.packedAt Term.refOut
  by_cases h1 : r.val < 1024
  · rw [dif_pos h1]
    refine (stack_fst _ _ _ _ b r l h1).trans ?_
    rw [hexp, projK_apply]
  · rw [dif_neg h1]
    by_cases h2 : r.val < 2048
    · rw [dif_pos h2]
      refine (stack_snd _ _ _ _ b r l h1 h2).trans ?_
      rw [projV_apply]
    · rw [dif_neg h2]
      by_cases h3 : r.val < 3072
      · rw [dif_pos h3]
        refine (stack_thd _ _ _ _ b r l h2 h3).trans ?_
        rw [hexp, projK_apply]
      · rw [dif_neg h3]
        refine (stack_fth _ _ _ _ b r l h3).trans ?_
        rw [projA_apply]

end Cert.ReferenceIdeal.Value

end
-- ==== Proof.LibGatherMid.lean ====
/-
  A gather along the second axis of a rank-4 array, read at an index.

  `x[:, idx]` of an array `x : [B, N, H, D]` at an integer array `idx : [E]` lowers to a gather whose start indices
  are printed `[E, 1]` (the index vector on axis 1), whose slices are `[B, 1, H, D]` with the second axis collapsed,
  and whose result is `[B, E, H, D]`: the result's entry `(b, e, h, d)` is `x` at `(b, r, h, d)` where `r` is the
  start index `idx[e, 0]` read as a signed integer and clamped into `[0, N − 1]`.
-/
import Idealize.ShloMosaic.PureOps.Ideal
import Idealize.ShloMosaic.Lib.ValueIdx

noncomputable section

namespace Cert.Lib.GatherMid

open Idealize.ShloMosaic Idealize.ShloMosaic.ValueIdx

variable {α : Type}

/-- The dimension numbers of `x[:, idx]` for an operand `[B, N, H, D]`, start indices `[E, 1]` and result
    `[B, E, H, D]`. -/
abbrev midDims (B N H D E : Nat)
    (wf : GatherDims.WF ⟨4, ![B, N, H, D]⟩ ⟨2, ![E, 1]⟩ ⟨4, ![B, E, H, D]⟩ [0, 2, 3] [1] [] [1] [] 1 ![B, 1, H, D]) :
    GatherDims ⟨4, ![B, N, H, D]⟩ ⟨2, ![E, 1]⟩ ⟨4, ![B, E, H, D]⟩ where
  offsetDims := [0, 2, 3]
  collapsedSliceDims := [1]
  operandBatchingDims := []
  startIndicesBatchingDims := []
  startIndexMap := [1]
  indexVectorDim := 1
  sliceSizes := ![B, 1, H, D]
  wf := wf

section
variable {B N H D E w : Nat}
  (wf : GatherDims.WF ⟨4, ![B, N, H, D]⟩ ⟨2, ![E, 1]⟩ ⟨4, ![B, E, H, D]⟩ [0, 2, 3] [1] [] [1] [] 1 ![B, 1, H, D])
  (idx : IVec ⟨2, ![E, 1]⟩ w) (b : Fin B) (e : Fin E) (h : Fin H) (d : Fin D)

/-- On the gathered axis the operand coordinate is the clamped start index: no batch and no offset part. -/
theorem mid_coord1 :
    (midDims B N H D E wf).start (ix4 b e h d) idx (1 : Fin 4) + (midDims B N H D E wf).batchCoord (ix4 b e h d) (1 : Fin 4)
      + (midDims B N H D E wf).offCoord (ix4 b e h d) (1 : Fin 4) = min (idx (ix2 e (0 : Fin 1))).toInt.toNat (N - 1) := by
  rw [GatherDims.batchCoord_eq_zero _ _ _ List.not_mem_nil, Nat.add_zero,
    GatherDims.offCoord_eq_zero _ _ _ (fun hm => ((GatherDims.mem_sKept _ _).mp hm).1 (List.mem_singleton.mpr rfl)),
    Nat.add_zero]
  unfold GatherDims.start
  rw [dif_pos (show (1 : Fin 4) ∈ (midDims B N H D E wf).startIndexMap from List.mem_singleton.mpr rfl)]
  have hsi : (midDims B N H D E wf).siIdx (ix4 b e h d) ⟨List.idxOf (1 : Fin 4) (midDims B N H D E wf).startIndexMap,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]
  rfl

/-- On an axis taken whole the operand coordinate is the result's coordinate on that axis: the start is zero. -/
theorem mid_coord_kept (a : Fin 4) (ha : a ∉ [(1 : Fin 4)]) (v : Nat)
    (hv : (midDims B N H D E wf).offCoord (ix4 b e h d) a = v) :
    (midDims B N H D E wf).start (ix4 b e h d) idx a + (midDims B N H D E wf).batchCoord (ix4 b e h d) a
      + (midDims B N H D E wf).offCoord (ix4 b e h d) a = v := by
  rw [GatherDims.batchCoord_eq_zero _ _ _ List.not_mem_nil, Nat.add_zero]
  have hs : (midDims B N H D E wf).start (ix4 b e h d) idx a = 0 := by
    unfold GatherDims.start
    rw [dif_neg ha]
  rw [hs, hv, Nat.zero_add]

theorem mid_off0 : (midDims B N H D E wf).offCoord (ix4 b e h d) (0 : Fin 4) = b.val := by
  unfold GatherDims.offCoord
  rw [dif_pos ((GatherDims.mem_sKept _ _).2 ⟨(show (0 : Fin 4) ∉ [(1 : Fin 4)] by decide), List.not_mem_nil⟩)]
  rfl

theorem mid_off2 : (midDims B N H D E wf).offCoord (ix4 b e h d) (2 : Fin 4) = h.val := by
  unfold GatherDims.offCoord
  rw [dif_pos ((GatherDims.mem_sKept _ _).2 ⟨(show (2 : Fin 4) ∉ [(1 : Fin 4)] by decide), List.not_mem_nil⟩)]
  rfl

theorem mid_off3 : (midDims B N H D E wf).offCoord (ix4 b e h d) (3 : Fin 4) = d.val := by
  unfold GatherDims.offCoord
  rw [dif_pos ((GatherDims.mem_sKept _ _).2 ⟨(show (3 : Fin 4) ∉ [(1 : Fin 4)] by decide), List.not_mem_nil⟩)]
  rfl

end

/-- The gather read at `(b, e, h, d)`: the operand at `(b, r, h, d)`, `r` the start index `idx[e, 0]` read signed and
    clamped into `[0, N − 1]`. -/
theorem gather_mid_apply {B N H D E w : Nat} (hN : 0 < N)
    (wf : GatherDims.WF ⟨4, ![B, N, H, D]⟩ ⟨2, ![E, 1]⟩ ⟨4, ![B, E, H, D]⟩ [0, 2, 3] [1] [] [1] [] 1 ![B, 1, H, D])
    (x : (⟨4, ![B, N, H, D]⟩ : Shape).Idx → α) (idx : IVec ⟨2, ![E, 1]⟩ w)
    (b : Fin B) (e : Fin E) (h : Fin H) (d : Fin D) :
    Host.gather (midDims B N H D E wf) x idx (ix4 b e h d)
      = x (ix4 b ⟨min (idx (ix2 e (0 : Fin 1))).toInt.toNat (N - 1), by omega⟩ h d) := by
  unfold Host.gather
  congr 1
  funext a
  refine Fin.ext ?_
  match a with
  | ⟨0, _⟩ => exact mid_coord_kept wf idx b e h d 0 (by decide) _ (mid_off0 wf b e h d)
  | ⟨1, _⟩ => exact mid_coord1 wf idx b e h d
  | ⟨2, _⟩ => exact mid_coord_kept wf idx b e h d 2 (by decide) _ (mid_off2 wf b e h d)
  | ⟨3, _⟩ => exact mid_coord_kept wf idx b e h d 3 (by decide) _ (mid_off3 wf b e h d)

end Cert.Lib.GatherMid

end
-- ==== Proof.LibLayout4.lean ====
/-
  Two reshapes between a rank-three and a rank-four array, read at an index.

  Casting `[B, M, L]` to `[B, K, J, L]` with `M = K * J` splits the middle axis: entry `(b, k, j, l)` of the result is
  entry `(b, k * J + j, l)` of the operand, both having row-major position `((b * K + k) * J + j) * L + l`.
  Casting `[B, K, J, L]` to `[B, M, L]` merges the two middle axes again: entry `(b, k * J + j, l)` of the result is
  entry `(b, k, j, l)` of the operand; for a row `r` of the result that is `k = r / J` and `j = r % J`.
-/
import Idealize.ShloMosaic.Lib.Pipeline.Value
import Idealize.ShloMosaic.Lib.ValueIdx

namespace Cert.Lib.Layout4

open Idealize.ShloMosaic Idealize.ShloMosaic.ValueIdx

variable {α : Type}

/-- The two row-major positions agree: `(b * (K * J) + (k * J + j)) * L + l = ((b * K + k) * J + j) * L + l`. -/
theorem pos_eq (K J L b k j l : ℕ) :
    (b * (K * J) + (k * J + j)) * L + l = ((b * K + k) * J + j) * L + l := by
  rw [Nat.add_mul (b * K) k J, Nat.mul_assoc b K J, Nat.add_assoc]

/-- `[B, M, L]` cast to `[B, K, J, L]`, `M = K * J`: at `(b, k, j, l)`, the operand at `(b, q, l)` with
    `q = k * J + j`. -/
theorem shapeCast_split_apply {B M L K J : ℕ} (x : (⟨3, ![B, M, L]⟩ : Shape).Idx → α)
    (h : (⟨3, ![B, M, L]⟩ : Shape).ShapeCasts ⟨4, ![B, K, J, L]⟩) (hM : M = K * J)
    (b : Fin B) (k : Fin K) (j : Fin J) (l : Fin L) (q : Fin M) (hq : q.val = k.val * J + j.val) :
    shapeCast ⟨4, ![B, K, J, L]⟩ x h (ix4 b k j l) = x (ix3 b q l) :=
  shapeCast_apply x h _ _ (by
    rw [Shape.rowMajor_val_three, Shape.rowMajor_val_four]
    show (b.val * M + q.val) * L + l.val = ((b.val * K + k.val) * J + j.val) * L + l.val
    rw [hq, hM]
    exact pos_eq K J L b.val k.val j.val l.val)

/-- `[B, K, J, L]` cast to `[B, M, L]`, `M = K * J`: at `(b, q, l)` with `q = k * J + j`, the operand at
    `(b, k, j, l)`. -/
theorem shapeCast_merge_apply {B M L K J : ℕ} (y : (⟨4, ![B, K, J, L]⟩ : Shape).Idx → α)
    (h : (⟨4, ![B, K, J, L]⟩ : Shape).ShapeCasts ⟨3, ![B, M, L]⟩) (hM : M = K * J)
    (b : Fin B) (k : Fin K) (j : Fin J) (l : Fin L) (q : Fin M) (hq : q.val = k.val * J + j.val) :
    shapeCast ⟨3, ![B, M, L]⟩ y h (ix3 b q l) = y (ix4 b k j l) :=
  shapeCast_apply y h _ _ (by
    rw [Shape.rowMajor_val_four, Shape.rowMajor_val_three]
    show ((b.val * K + k.val) * J + j.val) * L + l.val = (b.val * M + q.val) * L + l.val
    rw [hq, hM]
    exact (pos_eq K J L b.val k.val j.val l.val).symm)

/-- The merge read at a row `r` of the result: the operand at `(b, r / J, r % J, l)`. -/
theorem shapeCast_merge_row_apply {B M L K J : ℕ} (y : (⟨4, ![B, K, J, L]⟩ : Shape).Idx → α)
    (h : (⟨4, ![B, K, J, L]⟩ : Shape).ShapeCasts ⟨3, ![B, M, L]⟩) (hM : M = K * J) (hJ : 0 < J)
    (b : Fin B) (r : Fin M) (l : Fin L) :
    shapeCast ⟨3, ![B, M, L]⟩ y h (ix3 b r l)
      = y (ix4 b (⟨r.val / J, (Nat.div_lt_iff_lt_mul hJ).2 (Nat.lt_of_lt_of_eq r.isLt hM)⟩ : Fin K) (⟨r.val % J, Nat.mod_lt _ hJ⟩ : Fin J) l) :=
  shapeCast_merge_apply y h hM b _ _ l r (by
    show r.val = r.val / J * J + r.val % J
    rw [Nat.mul_comm]; exact (Nat.div_add_mod r.val J).symm)

end Cert.Lib.Layout4
-- ==== Proof.RefExpand.lean ====
/-
  The reference's head expansion, read at an index.

  The reference expands a 256-channel projection `t : [4, 256, 4096]` to 1024 channels in three steps: it views `t` as
  `[4, 4, 64, 4096]` (channel `64 k + j` becomes head `k`, row `j`), gathers along the head axis at sixteen traced indices,
  and views the `[4, 16, 64, 4096]` result as `[4, 1024, 4096]` (row `r` is head `r / 64`, row `r % 64`). The sixteen indices
  are computed on 32-bit words: `0 … 15` floor-divided by 4 the way the floor division is traced (the truncating quotient,
  less one where the signs differ and the remainder is not zero), then wrapped by 4 where negative. On `0 … 15` that is
  `h / 4`, which is at most 3, so the gather's clamp into `[0, 3]` changes nothing. Row `r` of the expansion is therefore
  head `(r / 64) / 4 = r / 256`, row `r % 64` of the view of `t`, that is channel `64 (r / 256) + r % 64` of `t`.
-/
import proofs.«172733_j81681688035849_2_alg».proof.Proof.Gen.ReferenceIdeal
import proofs.«172733_j81681688035849_2_alg».proof.Proof.RefTerm
import proofs.«172733_j81681688035849_2_alg».proof.Proof.Spec
import proofs.«172733_j81681688035849_2_alg».proof.Proof.LibGatherMid
import proofs.«172733_j81681688035849_2_alg».proof.Proof.LibLayout4
import Idealize.ShloMosaic.Lib.ValueIdx
import Idealize.ShloMosaic.Lib.Pipeline.Value

noncomputable section

namespace Cert.ReferenceIdeal.Expand

open Cert.ReferenceIdeal Idealize.ShloMosaic Idealize.ShloMosaic.ValueIdx

/-! ## The index chain on one word -/

/-- The sign of a 32-bit word, as a word: 0, -1 or 1. -/
def sgnW (x : BitVec 32) : BitVec 32 := if x = 0 then 0 else if x.msb then -1 else 1

/-- The traced floor division on one word: the truncating quotient, less one where the signs of dividend and divisor
    differ and the remainder is not zero. -/
def floorDivW (a d : BitVec 32) : BitVec 32 :=
  Scalar.select
    (IntOp.andi (IntOp.cmpi .ne (sgnW a) (sgnW d)) (IntOp.cmpi .ne (IntOp.remsi .host a d) 0#32))
    (IntOp.subi (IntOp.divsi .host a d) 1#32)
    (IntOp.divsi .host a d)

/-- The head index on one word: the floor division by 4, plus 4 where that is negative. -/
def headW (a : BitVec 32) : BitVec 32 :=
  Scalar.select (IntOp.cmpi .slt (floorDivW a 4#32) 0#32) (IntOp.addi (floorDivW a 4#32) 4#32) (floorDivW a 4#32)

/-- On the words `0 … 15` the head index, read signed, is the quotient by 4: sixteen closed computations. -/
theorem headW_val (h : Fin 16) : (headW (BitVec.ofNat 32 h.val)).toInt.toNat = h.val / 4 := by
  fin_cases h <;> decide

section
variable {F : FTy → Type} [FloatOps F] [Facts]

/-- The column of head indices at row `h` is the one-word chain at the word `h`: every operation of the column is
    elementwise, a broadcast reads its scalar, and the iota reads the row number. -/
theorem headIdx_word (h : Fin 16) :
    Term.headIdx (F := F) (ix2 h (0 : Fin 1)) = headW (BitVec.ofNat 32 h.val) := rfl

/-- The head index at row `h`, read signed: `h / 4`. -/
theorem headIdx_val (h : Fin 16) : (Term.headIdx (F := F) (ix2 h (0 : Fin 1))).toInt.toNat = h.val / 4 := by
  rw [headIdx_word, headW_val]

/-- The gather's start on the head axis, clamped into `[0, 3]`: still `h / 4`. -/
theorem head_start (h : Fin 16) :
    min (Term.headIdx (F := F) (ix2 h (0 : Fin 1))).toInt.toNat (4 - 1) = h.val / 4 := by
  rw [headIdx_val]
  have := h.isLt
  omega

/-! ## The expansion at an index -/

/-- Row `r` of the expansion is channel `64 (r / 256) + r % 64` of the operand, for any element type. -/
theorem expand_apply_any (t : (⟨S4x256x4096, .f32⟩ : BufTy).Contents (Elt F)) (b : Fin 4) (r : Fin 1024) (l : Fin 4096) :
    Term.expand (F := F) t (ix3 b r l)
      = t (ix3 b (⟨Cert.Gates.kvRow r.val, Cert.Gates.kvRow_lt r.isLt⟩ : Fin 256) l) := by
  unfold Term.expand
  -- the outer view: row r is head r / 64, row r % 64
  refine (Cert.Lib.Layout4.shapeCast_merge_row_apply (B := 4) (M := 1024) (L := 4096) (K := 16) (J := 64) _
    Facts₀.shapeCasts_S4x16x64x4096_S4x1024x4096 rfl (by decide) b r l).trans ?_
  -- the gather: head e reads the operand's head at the clamped start index
  refine (Cert.Lib.GatherMid.gather_mid_apply (B := 4) (N := 4) (H := 64) (D := 4096) (E := 16) (by decide)
    Facts₀.gather_S4x4x64x4096_S16x1_S4x16x64x4096_023_1_n_n_1_1_41644096_wf _ _ b _ _ l).trans ?_
  -- the inner view: head k, row j is channel 64 k + j
  refine Cert.Lib.Layout4.shapeCast_split_apply (B := 4) (M := 256) (L := 4096) (K := 4) (J := 64) t
    Facts₀.shapeCasts_S4x256x4096_S4x4x64x4096 rfl b _ _ l _ ?_
  show Cert.Gates.kvRow r.val
    = min (Term.headIdx (F := F) (ix2 (⟨r.val / 64, _⟩ : Fin 16) (0 : Fin 1))).toInt.toNat (4 - 1) * 64 + r.val % 64
  rw [head_start]
  show Cert.Gates.kvRow r.val = r.val / 64 / 4 * 64 + r.val % 64
  unfold Cert.Gates.kvRow
  omega

end

/-- Row `r` of the expansion at the ideal instance: channel `64 (r / 256) + r % 64` of the operand. -/
theorem expand_apply (t : FVec Ideal S4x256x4096 .f32) (b : Fin 4) (r : Fin 1024) (l : Fin 4096) :
    Cert.ReferenceIdeal.Term.expand (F := Ideal) t (ix3 b r l)
      = t (ix3 b (⟨Cert.Gates.kvRow r.val, Cert.Gates.kvRow_lt r.isLt⟩ : Fin 256) l) :=
  expand_apply_any (F := Ideal) t b r l

end Cert.ReferenceIdeal.Expand

end
-- ==== Proof.RefRunOps.lean ====
/-
  The reference program's @main as one straight line of its seventy-eight host operations — its own forty-four, and
  the sixteen operations of the traced floor division with the one select of its inner function, written out at each
  of the two places @main calls it, over that call's own buffers — and its run: every weakly fair execution terminates
  with each buffer at the fold of the operations' results over the launch contents.
-/
import proofs.«172733_j81681688035849_2_alg».proof.Proof.Gen.ReferenceIdeal
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Facts₀

variable {F : FTy → Type} [FloatOps F]

/-- @main's operations in order, the two calls of the floor division unfolded: each is the divisor's conversion
    (the identity), its broadcast, the truncating quotient, the two signs and their comparison, the remainder and its
    comparison with zero, the conjunction, the quotient less one, and the inner function's select, into the
    buffers of that call's record. -/
abbrev ops : List (HloOp τ sig (Elt F)) :=
  [ binary main_arg1 main_arg0 main_v0 ((fun l r => Host.dotGeneral dot_S16x2048_S4x4096x2048_S16x4x4096_1_2_0_01_n_n none l r) : (⟨S16x2048, .f32⟩ : BufTy).Contents (Elt F) → (⟨S4x4096x2048, .f32⟩ : BufTy).Contents (Elt F) → (⟨S16x4x4096, .f32⟩ : BufTy).Contents (Elt F)),
    unary main_v0 main_v1 ((transpose S4x16x4096 [1, 0, 2] · transposes_S16x4x4096_S4x16x4096_1_0_2) : (⟨S16x4x4096, .f32⟩ : BufTy).Contents (Elt F) → (⟨S4x16x4096, .f32⟩ : BufTy).Contents (Elt F)),
    unary main_arg2 main_v2 (broadcastInDim S1x16x1 ![1] bcast_S16_S1x16x1_1 : (⟨S16, .f32⟩ : BufTy).Contents (Elt F) → (⟨S1x16x1, .f32⟩ : BufTy).Contents (Elt F)),
    unary main_v2 main_v3 (broadcastInDim S4x16x4096 ![0, 1, 2] bcast_S1x16x1_S4x16x4096_0_1_2 : (⟨S1x16x1, .f32⟩ : BufTy).Contents (Elt F) → (⟨S4x16x4096, .f32⟩ : BufTy).Contents (Elt F)),
    binary main_v1 main_v3 main_v4 (addf : (⟨S4x16x4096, .f32⟩ : BufTy).Contents (Elt F) → (⟨S4x16x4096, .f32⟩ : BufTy).Contents (Elt F) → (⟨S4x16x4096, .f32⟩ : BufTy).Contents (Elt F)),
    binary main_arg3 main_arg0 main_v5 ((fun l r => Host.dotGeneral dot_S256x2048_S4x4096x2048_S256x4x4096_1_2_0_01_n_n none l r) : (⟨S256x2048, .f32⟩ : BufTy).Contents (Elt F) → (⟨S4x4096x2048, .f32⟩ : BufTy).Contents (Elt F) → (⟨S256x4x4096, .f32⟩ : BufTy).Contents (Elt F)),
    unary main_v5 main_v6 ((transpose S4x256x4096 [1, 0, 2] · transposes_S256x4x4096_S4x256x4096_1_0_2) : (⟨S256x4x4096, .f32⟩ : BufTy).Contents (Elt F) → (⟨S4x256x4096, .f32⟩ : BufTy).Contents (Elt F)),
    unary main_arg4 main_v7 (broadcastInDim S1x256x1 ![1] bcast_S256_S1x256x1_1 : (⟨S256, .f32⟩ : BufTy).Contents (Elt F) → (⟨S1x256x1, .f32⟩ : BufTy).Contents (Elt F)),
    unary main_v7 main_v8 (broadcastInDim S4x256x4096 ![0, 1, 2] bcast_S1x256x1_S4x256x4096_0_1_2 : (⟨S1x256x1, .f32⟩ : BufTy).Contents (Elt F) → (⟨S4x256x4096, .f32⟩ : BufTy).Contents (Elt F)),
    binary main_v6 main_v8 main_v9 (addf : (⟨S4x256x4096, .f32⟩ : BufTy).Contents (Elt F) → (⟨S4x256x4096, .f32⟩ : BufTy).Contents (Elt F) → (⟨S4x256x4096, .f32⟩ : BufTy).Contents (Elt F)),
    binary main_arg5 main_arg0 main_v10 ((fun l r => Host.dotGeneral dot_S256x2048_S4x4096x2048_S256x4x4096_1_2_0_01_n_n none l r) : (⟨S256x2048, .f32⟩ : BufTy).Contents (Elt F) → (⟨S4x4096x2048, .f32⟩ : BufTy).Contents (Elt F) → (⟨S256x4x4096, .f32⟩ : BufTy).Contents (Elt F)),
    unary main_v10 main_v11 ((transpose S4x256x4096 [1, 0, 2] · transposes_S256x4x4096_S4x256x4096_1_0_2) : (⟨S256x4x4096, .f32⟩ : BufTy).Contents (Elt F) → (⟨S4x256x4096, .f32⟩ : BufTy).Contents (Elt F)),
    unary main_arg6 main_v12 (broadcastInDim S1x256x1 ![1] bcast_S256_S1x256x1_1 : (⟨S256, .f32⟩ : BufTy).Contents (Elt F) → (⟨S1x256x1, .f32⟩ : BufTy).Contents (Elt F)),
    unary main_v12 main_v13 (broadcastInDim S4x256x4096 ![0, 1, 2] bcast_S1x256x1_S4x256x4096_0_1_2 : (⟨S1x256x1, .f32⟩ : BufTy).Contents (Elt F) → (⟨S4x256x4096, .f32⟩ : BufTy).Contents (Elt F)),
    binary main_v11 main_v13 main_v14 (addf : (⟨S4x256x4096, .f32⟩ : BufTy).Contents (Elt F) → (⟨S4x256x4096, .f32⟩ : BufTy).Contents (Elt F) → (⟨S4x256x4096, .f32⟩ : BufTy).Contents (Elt F)),
    binary main_arg7 main_arg0 main_v15 ((fun l r => Host.dotGeneral dot_S1024x2048_S4x4096x2048_S1024x4x4096_1_2_0_01_n_n none l r) : (⟨S1024x2048, .f32⟩ : BufTy).Contents (Elt F) → (⟨S4x4096x2048, .f32⟩ : BufTy).Contents (Elt F) → (⟨S1024x4x4096, .f32⟩ : BufTy).Contents (Elt F)),
    unary main_v15 main_v16 ((transpose S4x1024x4096 [1, 0, 2] · transposes_S1024x4x4096_S4x1024x4096_1_0_2) : (⟨S1024x4x4096, .f32⟩ : BufTy).Contents (Elt F) → (⟨S4x1024x4096, .f32⟩ : BufTy).Contents (Elt F)),
    nullary main_v17 (iotaInDim S16 32 0),
    nullary main_c (constantI S_ 32 4#32),
    TRef.unary (.of main_c) main_call0.v0 id,
    TRef.unary main_call0.v0 main_call0.v1 (broadcastInDim S16 ![] bcast_S_S16),
    TRef.binary (.of main_v17) main_call0.v1 main_call0.v2 Host.divsi,
    TRef.unary (.of main_v17) main_call0.v3 signi,
    TRef.unary main_call0.v0 main_call0.v4 signi,
    TRef.unary main_call0.v4 main_call0.v5 (broadcastInDim S16 ![] bcast_S_S16),
    TRef.binary main_call0.v3 main_call0.v5 main_call0.v6 (cmpi .ne),
    TRef.unary main_call0.v0 main_call0.v7 (broadcastInDim S16 ![] bcast_S_S16),
    TRef.binary (.of main_v17) main_call0.v7 main_call0.v8 Host.remsi,
    TRef.nullary main_call0.c (constantI S_ 32 0#32),
    TRef.unary main_call0.c main_call0.v9 (broadcastInDim S16 ![] bcast_S_S16),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S16 ![] bcast_S_S16),
    TRef.binary main_call0.v2 main_call0.v12 main_call0.v13 subi,
    TRef.ternary main_call0.v11 main_call0.v13 main_call0.v2 main_call0.call0.v0 select,
    reshape main_v9 main_v19 rfl shapeCasts_S4x256x4096_S4x4x64x4096,
    nullary main_c_0 (constantI S_ 32 0#32),
    unary main_c_0 main_v20 (broadcastInDim S16 ![] bcast_S_S16 : (⟨S_, .i32⟩ : BufTy).Contents (Elt F) → (⟨S16, .i32⟩ : BufTy).Contents (Elt F)),
    binary main_v18 main_v20 main_v21 (cmpi .slt : (⟨S16, .i32⟩ : BufTy).Contents (Elt F) → (⟨S16, .i32⟩ : BufTy).Contents (Elt F) → (⟨S16, .i1⟩ : BufTy).Contents (Elt F)),
    nullary main_c_1 (constantI S_ 32 4#32),
    unary main_c_1 main_v22 (broadcastInDim S16 ![] bcast_S_S16 : (⟨S_, .i32⟩ : BufTy).Contents (Elt F) → (⟨S16, .i32⟩ : BufTy).Contents (Elt F)),
    binary main_v18 main_v22 main_v23 (addi : (⟨S16, .i32⟩ : BufTy).Contents (Elt F) → (⟨S16, .i32⟩ : BufTy).Contents (Elt F) → (⟨S16, .i32⟩ : BufTy).Contents (Elt F)),
    ternary main_v21 main_v23 main_v18 main_v24 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v24 main_v25 (broadcastInDim S16x1 ![0] bcast_S16_S16x1_0 : (⟨S16, .i32⟩ : BufTy).Contents (Elt F) → (⟨S16x1, .i32⟩ : BufTy).Contents (Elt F)),
    binary main_v19 main_v25 main_v26 ((fun x i => Host.gather gather_S4x4x64x4096_S16x1_S4x16x64x4096_023_1_n_n_1_1_41644096 x i) : (⟨S4x4x64x4096, .f32⟩ : BufTy).Contents (Elt F) → (⟨S16x1, .i32⟩ : BufTy).Contents (Elt F) → (⟨S4x16x64x4096, .f32⟩ : BufTy).Contents (Elt F)),
    reshape main_v26 main_v27 rfl shapeCasts_S4x16x64x4096_S4x1024x4096,
    nullary main_v28 (iotaInDim S16 32 0),
    nullary main_c_2 (constantI S_ 32 4#32),
    TRef.unary (.of main_c_2) main_call1.v0 id,
    TRef.unary main_call1.v0 main_call1.v1 (broadcastInDim S16 ![] bcast_S_S16),
    TRef.binary (.of main_v28) main_call1.v1 main_call1.v2 Host.divsi,
    TRef.unary (.of main_v28) main_call1.v3 signi,
    TRef.unary main_call1.v0 main_call1.v4 signi,
    TRef.unary main_call1.v4 main_call1.v5 (broadcastInDim S16 ![] bcast_S_S16),
    TRef.binary main_call1.v3 main_call1.v5 main_call1.v6 (cmpi .ne),
    TRef.unary main_call1.v0 main_call1.v7 (broadcastInDim S16 ![] bcast_S_S16),
    TRef.binary (.of main_v28) main_call1.v7 main_call1.v8 Host.remsi,
    TRef.nullary main_call1.c (constantI S_ 32 0#32),
    TRef.unary main_call1.c main_call1.v9 (broadcastInDim S16 ![] bcast_S_S16),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S16 ![] bcast_S_S16),
    TRef.binary main_call1.v2 main_call1.v12 main_call1.v13 subi,
    TRef.ternary main_call1.v11 main_call1.v13 main_call1.v2 main_call1.call0.v0 select,
    reshape main_v14 main_v30 rfl shapeCasts_S4x256x4096_S4x4x64x4096,
    nullary main_c_3 (constantI S_ 32 0#32),
    unary main_c_3 main_v31 (broadcastInDim S16 ![] bcast_S_S16 : (⟨S_, .i32⟩ : BufTy).Contents (Elt F) → (⟨S16, .i32⟩ : BufTy).Contents (Elt F)),
    binary main_v29 main_v31 main_v32 (cmpi .slt : (⟨S16, .i32⟩ : BufTy).Contents (Elt F) → (⟨S16, .i32⟩ : BufTy).Contents (Elt F) → (⟨S16, .i1⟩ : BufTy).Contents (Elt F)),
    nullary main_c_4 (constantI S_ 32 4#32),
    unary main_c_4 main_v33 (broadcastInDim S16 ![] bcast_S_S16 : (⟨S_, .i32⟩ : BufTy).Contents (Elt F) → (⟨S16, .i32⟩ : BufTy).Contents (Elt F)),
    binary main_v29 main_v33 main_v34 (addi : (⟨S16, .i32⟩ : BufTy).Contents (Elt F) → (⟨S16, .i32⟩ : BufTy).Contents (Elt F) → (⟨S16, .i32⟩ : BufTy).Contents (Elt F)),
    ternary main_v32 main_v34 main_v29 main_v35 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v35 main_v36 (broadcastInDim S16x1 ![0] bcast_S16_S16x1_0 : (⟨S16, .i32⟩ : BufTy).Contents (Elt F) → (⟨S16x1, .i32⟩ : BufTy).Contents (Elt F)),
    binary main_v30 main_v36 main_v37 ((fun x i => Host.gather gather_S4x4x64x4096_S16x1_S4x16x64x4096_023_1_n_n_1_1_41644096 x i) : (⟨S4x4x64x4096, .f32⟩ : BufTy).Contents (Elt F) → (⟨S16x1, .i32⟩ : BufTy).Contents (Elt F) → (⟨S4x16x64x4096, .f32⟩ : BufTy).Contents (Elt F)),
    reshape main_v37 main_v38 rfl shapeCasts_S4x16x64x4096_S4x1024x4096,
    nary ![main_v27, main_v16, main_v38, main_v4] main_v39 (fun u => concatenate S4x3088x4096 1 [⟨S4x1024x4096, u 0⟩, ⟨S4x1024x4096, u 1⟩, ⟨S4x1024x4096, u 2⟩, ⟨S4x16x4096, u 3⟩] concatenates_S4x1024x4096_S4x1024x4096_S4x1024x4096_S4x16x4096_S4x3088x4096_d1) ]

set_option maxRecDepth 8192 in
/-- @main is that straight line: with the two functions' definitions unfolded at their calls both sides compute to one
    chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., unary_bufs_sub .., binary_bufs_sub ..,
    binary_bufs_sub .., unary_bufs_sub .., unary_bufs_sub .., unary_bufs_sub .., binary_bufs_sub ..,
    binary_bufs_sub .., unary_bufs_sub .., unary_bufs_sub .., unary_bufs_sub .., binary_bufs_sub ..,
    binary_bufs_sub .., unary_bufs_sub .., nullary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., reshape_bufs_sub ..,
    nullary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., reshape_bufs_sub ..,
    nary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.RefRun.lean ====
/-
  What the reference program's buffers hold once its seventy-eight operations have run, read back in five stages:
  the four projections with the first iota and divisor; the first floor division; the first expansion with the second
  iota and divisor; the second floor division; the second expansion and the concatenation. Each stage is a short line
  whose results are read off as pure terms of what the buffers held before it; composed, the result buffer holds
  `Term.refOut` of the eight arguments' launch contents, and no operation writes an argument.
-/
import proofs.«172733_j81681688035849_2_alg».proof.Proof.RefRunOps
import proofs.«172733_j81681688035849_2_alg».proof.Proof.RefTerm

noncomputable section

namespace Cert.ReferenceIdeal.Run

open Cert.ReferenceIdeal Idealize.ShloMosaic Idealize.ShloMosaic.TcCoe Idealize.SL.Sem Idealize.ShloMosaic.StableHlo
open Facts₀

variable {F : FTy → Type} [FloatOps F]

/-- The fold over two lines run one after the other is the second's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The five stages -/

/-- The four projections, the first iota and the first divisor: nineteen operations. -/
abbrev seg1 : List (HloOp τ sig (Elt F)) :=
  [ binary main_arg1 main_arg0 main_v0 ((fun l r => Host.dotGeneral dot_S16x2048_S4x4096x2048_S16x4x4096_1_2_0_01_n_n none l r) : (⟨S16x2048, .f32⟩ : BufTy).Contents (Elt F) → (⟨S4x4096x2048, .f32⟩ : BufTy).Contents (Elt F) → (⟨S16x4x4096, .f32⟩ : BufTy).Contents (Elt F)),
    unary main_v0 main_v1 ((transpose S4x16x4096 [1, 0, 2] · transposes_S16x4x4096_S4x16x4096_1_0_2) : (⟨S16x4x4096, .f32⟩ : BufTy).Contents (Elt F) → (⟨S4x16x4096, .f32⟩ : BufTy).Contents (Elt F)),
    unary main_arg2 main_v2 (broadcastInDim S1x16x1 ![1] bcast_S16_S1x16x1_1 : (⟨S16, .f32⟩ : BufTy).Contents (Elt F) → (⟨S1x16x1, .f32⟩ : BufTy).Contents (Elt F)),
    unary main_v2 main_v3 (broadcastInDim S4x16x4096 ![0, 1, 2] bcast_S1x16x1_S4x16x4096_0_1_2 : (⟨S1x16x1, .f32⟩ : BufTy).Contents (Elt F) → (⟨S4x16x4096, .f32⟩ : BufTy).Contents (Elt F)),
    binary main_v1 main_v3 main_v4 (addf : (⟨S4x16x4096, .f32⟩ : BufTy).Contents (Elt F) → (⟨S4x16x4096, .f32⟩ : BufTy).Contents (Elt F) → (⟨S4x16x4096, .f32⟩ : BufTy).Contents (Elt F)),
    binary main_arg3 main_arg0 main_v5 ((fun l r => Host.dotGeneral dot_S256x2048_S4x4096x2048_S256x4x4096_1_2_0_01_n_n none l r) : (⟨S256x2048, .f32⟩ : BufTy).Contents (Elt F) → (⟨S4x4096x2048, .f32⟩ : BufTy).Contents (Elt F) → (⟨S256x4x4096, .f32⟩ : BufTy).Contents (Elt F)),
    unary main_v5 main_v6 ((transpose S4x256x4096 [1, 0, 2] · transposes_S256x4x4096_S4x256x4096_1_0_2) : (⟨S256x4x4096, .f32⟩ : BufTy).Contents (Elt F) → (⟨S4x256x4096, .f32⟩ : BufTy).Contents (Elt F)),
    unary main_arg4 main_v7 (broadcastInDim S1x256x1 ![1] bcast_S256_S1x256x1_1 : (⟨S256, .f32⟩ : BufTy).Contents (Elt F) → (⟨S1x256x1, .f32⟩ : BufTy).Contents (Elt F)),
    unary main_v7 main_v8 (broadcastInDim S4x256x4096 ![0, 1, 2] bcast_S1x256x1_S4x256x4096_0_1_2 : (⟨S1x256x1, .f32⟩ : BufTy).Contents (Elt F) → (⟨S4x256x4096, .f32⟩ : BufTy).Contents (Elt F)),
    binary main_v6 main_v8 main_v9 (addf : (⟨S4x256x4096, .f32⟩ : BufTy).Contents (Elt F) → (⟨S4x256x4096, .f32⟩ : BufTy).Contents (Elt F) → (⟨S4x256x4096, .f32⟩ : BufTy).Contents (Elt F)),
    binary main_arg5 main_arg0 main_v10 ((fun l r => Host.dotGeneral dot_S256x2048_S4x4096x2048_S256x4x4096_1_2_0_01_n_n none l r) : (⟨S256x2048, .f32⟩ : BufTy).Contents (Elt F) → (⟨S4x4096x2048, .f32⟩ : BufTy).Contents (Elt F) → (⟨S256x4x4096, .f32⟩ : BufTy).Contents (Elt F)),
    unary main_v10 main_v11 ((transpose S4x256x4096 [1, 0, 2] · transposes_S256x4x4096_S4x256x4096_1_0_2) : (⟨S256x4x4096, .f32⟩ : BufTy).Contents (Elt F) → (⟨S4x256x4096, .f32⟩ : BufTy).Contents (Elt F)),
    unary main_arg6 main_v12 (broadcastInDim S1x256x1 ![1] bcast_S256_S1x256x1_1 : (⟨S256, .f32⟩ : BufTy).Contents (Elt F) → (⟨S1x256x1, .f32⟩ : BufTy).Contents (Elt F)),
    unary main_v12 main_v13 (broadcastInDim S4x256x4096 ![0, 1, 2] bcast_S1x256x1_S4x256x4096_0_1_2 : (⟨S1x256x1, .f32⟩ : BufTy).Contents (Elt F) → (⟨S4x256x4096, .f32⟩ : BufTy).Contents (Elt F)),
    binary main_v11 main_v13 main_v14 (addf : (⟨S4x256x4096, .f32⟩ : BufTy).Contents (Elt F) → (⟨S4x256x4096, .f32⟩ : BufTy).Contents (Elt F) → (⟨S4x256x4096, .f32⟩ : BufTy).Contents (Elt F)),
    binary main_arg7 main_arg0 main_v15 ((fun l r => Host.dotGeneral dot_S1024x2048_S4x4096x2048_S1024x4x4096_1_2_0_01_n_n none l r) : (⟨S1024x2048, .f32⟩ : BufTy).Contents (Elt F) → (⟨S4x4096x2048, .f32⟩ : BufTy).Contents (Elt F) → (⟨S1024x4x4096, .f32⟩ : BufTy).Contents (Elt F)),
    unary main_v15 main_v16 ((transpose S4x1024x4096 [1, 0, 2] · transposes_S1024x4x4096_S4x1024x4096_1_0_2) : (⟨S1024x4x4096, .f32⟩ : BufTy).Contents (Elt F) → (⟨S4x1024x4096, .f32⟩ : BufTy).Contents (Elt F)),
    nullary main_v17 (iotaInDim S16 32 0),
    nullary main_c (constantI S_ 32 4#32) ]

/-- The first call of the floor division: seventeen operations into that call's buffers. -/
abbrev seg2 : List (HloOp τ sig (Elt F)) :=
  [ TRef.unary (.of main_c) main_call0.v0 id,
    TRef.unary main_call0.v0 main_call0.v1 (broadcastInDim S16 ![] bcast_S_S16),
    TRef.binary (.of main_v17) main_call0.v1 main_call0.v2 Host.divsi,
    TRef.unary (.of main_v17) main_call0.v3 signi,
    TRef.unary main_call0.v0 main_call0.v4 signi,
    TRef.unary main_call0.v4 main_call0.v5 (broadcastInDim S16 ![] bcast_S_S16),
    TRef.binary main_call0.v3 main_call0.v5 main_call0.v6 (cmpi .ne),
    TRef.unary main_call0.v0 main_call0.v7 (broadcastInDim S16 ![] bcast_S_S16),
    TRef.binary (.of main_v17) main_call0.v7 main_call0.v8 Host.remsi,
    TRef.nullary main_call0.c (constantI S_ 32 0#32),
    TRef.unary main_call0.c main_call0.v9 (broadcastInDim S16 ![] bcast_S_S16),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S16 ![] bcast_S_S16),
    TRef.binary main_call0.v2 main_call0.v12 main_call0.v13 subi,
    TRef.ternary main_call0.v11 main_call0.v13 main_call0.v2 main_call0.call0.v0 select ]

/-- The first expansion, then the second iota and divisor: thirteen operations. -/
abbrev seg3 : List (HloOp τ sig (Elt F)) :=
  [ reshape main_v9 main_v19 rfl shapeCasts_S4x256x4096_S4x4x64x4096,
    nullary main_c_0 (constantI S_ 32 0#32),
    unary main_c_0 main_v20 (broadcastInDim S16 ![] bcast_S_S16 : (⟨S_, .i32⟩ : BufTy).Contents (Elt F) → (⟨S16, .i32⟩ : BufTy).Contents (Elt F)),
    binary main_v18 main_v20 main_v21 (cmpi .slt : (⟨S16, .i32⟩ : BufTy).Contents (Elt F) → (⟨S16, .i32⟩ : BufTy).Contents (Elt F) → (⟨S16, .i1⟩ : BufTy).Contents (Elt F)),
    nullary main_c_1 (constantI S_ 32 4#32),
    unary main_c_1 main_v22 (broadcastInDim S16 ![] bcast_S_S16 : (⟨S_, .i32⟩ : BufTy).Contents (Elt F) → (⟨S16, .i32⟩ : BufTy).Contents (Elt F)),
    binary main_v18 main_v22 main_v23 (addi : (⟨S16, .i32⟩ : BufTy).Contents (Elt F) → (⟨S16, .i32⟩ : BufTy).Contents (Elt F) → (⟨S16, .i32⟩ : BufTy).Contents (Elt F)),
    ternary main_v21 main_v23 main_v18 main_v24 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v24 main_v25 (broadcastInDim S16x1 ![0] bcast_S16_S16x1_0 : (⟨S16, .i32⟩ : BufTy).Contents (Elt F) → (⟨S16x1, .i32⟩ : BufTy).Contents (Elt F)),
    binary main_v19 main_v25 main_v26 ((fun x i => Host.gather gather_S4x4x64x4096_S16x1_S4x16x64x4096_023_1_n_n_1_1_41644096 x i) : (⟨S4x4x64x4096, .f32⟩ : BufTy).Contents (Elt F) → (⟨S16x1, .i32⟩ : BufTy).Contents (Elt F) → (⟨S4x16x64x4096, .f32⟩ : BufTy).Contents (Elt F)),
    reshape main_v26 main_v27 rfl shapeCasts_S4x16x64x4096_S4x1024x4096,
    nullary main_v28 (iotaInDim S16 32 0),
    nullary main_c_2 (constantI S_ 32 4#32) ]

/-- The second call of the floor division: seventeen operations into that call's buffers. -/
abbrev seg4 : List (HloOp τ sig (Elt F)) :=
  [ TRef.unary (.of main_c_2) main_call1.v0 id,
    TRef.unary main_call1.v0 main_call1.v1 (broadcastInDim S16 ![] bcast_S_S16),
    TRef.binary (.of main_v28) main_call1.v1 main_call1.v2 Host.divsi,
    TRef.unary (.of main_v28) main_call1.v3 signi,
    TRef.unary main_call1.v0 main_call1.v4 signi,
    TRef.unary main_call1.v4 main_call1.v5 (broadcastInDim S16 ![] bcast_S_S16),
    TRef.binary main_call1.v3 main_call1.v5 main_call1.v6 (cmpi .ne),
    TRef.unary main_call1.v0 main_call1.v7 (broadcastInDim S16 ![] bcast_S_S16),
    TRef.binary (.of main_v28) main_call1.v7 main_call1.v8 Host.remsi,
    TRef.nullary main_call1.c (constantI S_ 32 0#32),
    TRef.unary main_call1.c main_call1.v9 (broadcastInDim S16 ![] bcast_S_S16),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S16 ![] bcast_S_S16),
    TRef.binary main_call1.v2 main_call1.v12 main_call1.v13 subi,
    TRef.ternary main_call1.v11 main_call1.v13 main_call1.v2 main_call1.call0.v0 select ]

/-- The second expansion and the concatenation: twelve operations. -/
abbrev seg5 : List (HloOp τ sig (Elt F)) :=
  [ reshape main_v14 main_v30 rfl shapeCasts_S4x256x4096_S4x4x64x4096,
    nullary main_c_3 (constantI S_ 32 0#32),
    unary main_c_3 main_v31 (broadcastInDim S16 ![] bcast_S_S16 : (⟨S_, .i32⟩ : BufTy).Contents (Elt F) → (⟨S16, .i32⟩ : BufTy).Contents (Elt F)),
    binary main_v29 main_v31 main_v32 (cmpi .slt : (⟨S16, .i32⟩ : BufTy).Contents (Elt F) → (⟨S16, .i32⟩ : BufTy).Contents (Elt F) → (⟨S16, .i1⟩ : BufTy).Contents (Elt F)),
    nullary main_c_4 (constantI S_ 32 4#32),
    unary main_c_4 main_v33 (broadcastInDim S16 ![] bcast_S_S16 : (⟨S_, .i32⟩ : BufTy).Contents (Elt F) → (⟨S16, .i32⟩ : BufTy).Contents (Elt F)),
    binary main_v29 main_v33 main_v34 (addi : (⟨S16, .i32⟩ : BufTy).Contents (Elt F) → (⟨S16, .i32⟩ : BufTy).Contents (Elt F) → (⟨S16, .i32⟩ : BufTy).Contents (Elt F)),
    ternary main_v32 main_v34 main_v29 main_v35 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v35 main_v36 (broadcastInDim S16x1 ![0] bcast_S16_S16x1_0 : (⟨S16, .i32⟩ : BufTy).Contents (Elt F) → (⟨S16x1, .i32⟩ : BufTy).Contents (Elt F)),
    binary main_v30 main_v36 main_v37 ((fun x i => Host.gather gather_S4x4x64x4096_S16x1_S4x16x64x4096_023_1_n_n_1_1_41644096 x i) : (⟨S4x4x64x4096, .f32⟩ : BufTy).Contents (Elt F) → (⟨S16x1, .i32⟩ : BufTy).Contents (Elt F) → (⟨S4x16x64x4096, .f32⟩ : BufTy).Contents (Elt F)),
    reshape main_v37 main_v38 rfl shapeCasts_S4x16x64x4096_S4x1024x4096,
    nary ![main_v27, main_v16, main_v38, main_v4] main_v39 (fun u => concatenate S4x3088x4096 1 [⟨S4x1024x4096, u 0⟩, ⟨S4x1024x4096, u 1⟩, ⟨S4x1024x4096, u 2⟩, ⟨S4x16x4096, u 3⟩] concatenates_S4x1024x4096_S4x1024x4096_S4x1024x4096_S4x16x4096_S4x3088x4096_d1) ]

/-- The line is the five stages in order. -/
theorem ops_split : (ops : List (HloOp τ sig (Elt F))) = seg1 ++ (seg2 ++ (seg3 ++ (seg4 ++ seg5))) := rfl

/-! ## The expansion as a function of the quotients -/

/-- The column of head indices the sixteen quotients give: a negative one wrapped by adding 4. -/
def wrapIdx (fd : (⟨S16, .i32⟩ : BufTy).Contents (Elt F)) : (⟨S16x1, .i32⟩ : BufTy).Contents (Elt F) :=
  broadcastInDim S16x1 ![0] bcast_S16_S16x1_0
    (select (cmpi .slt fd (broadcastInDim S16 ![] bcast_S_S16 (constantI S_ 32 0#32)))
      (addi fd (broadcastInDim S16 ![] bcast_S_S16 (constantI S_ 32 4#32))) fd)

/-- A 256-channel tensor expanded to 1024 channels by gathering its heads at the indices the quotients give. -/
def expandAt (t : (⟨S4x256x4096, .f32⟩ : BufTy).Contents (Elt F)) (fd : (⟨S16, .i32⟩ : BufTy).Contents (Elt F)) :
    (⟨S4x1024x4096, .f32⟩ : BufTy).Contents (Elt F) :=
  shapeCast S4x1024x4096
    (Host.gather gather_S4x4x64x4096_S16x1_S4x16x64x4096_023_1_n_n_1_1_41644096
      (shapeCast S4x4x64x4096 t shapeCasts_S4x256x4096_S4x4x64x4096) (wrapIdx fd))
    shapeCasts_S4x16x64x4096_S4x1024x4096

/-- The reference term's expansion is that one at the floor division of 0 … 15 by 4. -/
theorem expand_eq (t : (⟨S4x256x4096, .f32⟩ : BufTy).Contents (Elt F)) :
    Term.expand t = expandAt t (Term.floorDiv (F := F) (iotaInDim S16 32 0) (constantI S_ 32 4#32)) := rfl

/-! ## Stage one -/

theorem seg1_v4 (V : Valuation τ sig (Elt F)) :
    after seg1 V (main_v4 : DevRef τ sig)
      = Term.projA (V (main_arg0 : DevRef τ sig)) (V (main_arg1 : DevRef τ sig)) (V (main_arg2 : DevRef τ sig)) := by
  after_results_simp
  rfl

theorem seg1_v9 (V : Valuation τ sig (Elt F)) :
    after seg1 V (main_v9 : DevRef τ sig)
      = Term.projK (V (main_arg0 : DevRef τ sig)) (V (main_arg3 : DevRef τ sig)) (V (main_arg4 : DevRef τ sig)) := by
  after_results_simp
  rfl

theorem seg1_v14 (V : Valuation τ sig (Elt F)) :
    after seg1 V (main_v14 : DevRef τ sig)
      = Term.projK (V (main_arg0 : DevRef τ sig)) (V (main_arg5 : DevRef τ sig)) (V (main_arg6 : DevRef τ sig)) := by
  after_results_simp
  rfl

theorem seg1_v16 (V : Valuation τ sig (Elt F)) :
    after seg1 V (main_v16 : DevRef τ sig)
      = Term.projV (V (main_arg0 : DevRef τ sig)) (V (main_arg7 : DevRef τ sig)) := by
  after_results_simp
  rfl

theorem seg1_v17 (V : Valuation τ sig (Elt F)) :
    after seg1 V (main_v17 : DevRef τ sig) = iotaInDim S16 32 0 := by
  after_results_simp

theorem seg1_c (V : Valuation τ sig (Elt F)) :
    after seg1 V (main_c : DevRef τ sig) = constantI S_ 32 4#32 := by
  after_results_simp

/-! ## Stage two -/

theorem seg2_v18 (V : Valuation τ sig (Elt F)) :
    after seg2 V (main_v18 : DevRef τ sig)
      = Term.floorDiv (V (main_v17 : DevRef τ sig)) (V (main_c : DevRef τ sig)) := by
  after_results_simp
  rfl

theorem seg2_v4 (V : Valuation τ sig (Elt F)) :
    after seg2 V (main_v4 : DevRef τ sig) = V (main_v4 : DevRef τ sig) := by
  after_results_simp

theorem seg2_v9 (V : Valuation τ sig (Elt F)) :
    after seg2 V (main_v9 : DevRef τ sig) = V (main_v9 : DevRef τ sig) := by
  after_results_simp

theorem seg2_v14 (V : Valuation τ sig (Elt F)) :
    after seg2 V (main_v14 : DevRef τ sig) = V (main_v14 : DevRef τ sig) := by
  after_results_simp

theorem seg2_v16 (V : Valuation τ sig (Elt F)) :
    after seg2 V (main_v16 : DevRef τ sig) = V (main_v16 : DevRef τ sig) := by
  after_results_simp

/-! ## Stage three -/

theorem seg3_v27 (V : Valuation τ sig (Elt F)) :
    after seg3 V (main_v27 : DevRef τ sig)
      = expandAt (V (main_v9 : DevRef τ sig)) (V (main_v18 : DevRef τ sig)) := by
  after_results_simp
  rfl

theorem seg3_v28 (V : Valuation τ sig (Elt F)) :
    after seg3 V (main_v28 : DevRef τ sig) = iotaInDim S16 32 0 := by
  after_results_simp

theorem seg3_c_2 (V : Valuation τ sig (Elt F)) :
    after seg3 V (main_c_2 : DevRef τ sig) = constantI S_ 32 4#32 := by
  after_results_simp

theorem seg3_v4 (V : Valuation τ sig (Elt F)) :
    after seg3 V (main_v4 : DevRef τ sig) = V (main_v4 : DevRef τ sig) := by
  after_results_simp

theorem seg3_v14 (V : Valuation τ sig (Elt F)) :
    after seg3 V (main_v14 : DevRef τ sig) = V (main_v14 : DevRef τ sig) := by
  after_results_simp

theorem seg3_v16 (V : Valuation τ sig (Elt F)) :
    after seg3 V (main_v16 : DevRef τ sig) = V (main_v16 : DevRef τ sig) := by
  after_results_simp

/-! ## Stage four -/

theorem seg4_v29 (V : Valuation τ sig (Elt F)) :
    after seg4 V (main_v29 : DevRef τ sig)
      = Term.floorDiv (V (main_v28 : DevRef τ sig)) (V (main_c_2 : DevRef τ sig)) := by
  after_results_simp
  rfl

theorem seg4_v4 (V : Valuation τ sig (Elt F)) :
    after seg4 V (main_v4 : DevRef τ sig) = V (main_v4 : DevRef τ sig) := by
  after_results_simp

theorem seg4_v14 (V : Valuation τ sig (Elt F)) :
    after seg4 V (main_v14 : DevRef τ sig) = V (main_v14 : DevRef τ sig) := by
  after_results_simp

theorem seg4_v16 (V : Valuation τ sig (Elt F)) :
    after seg4 V (main_v16 : DevRef τ sig) = V (main_v16 : DevRef τ sig) := by
  after_results_simp

theorem seg4_v27 (V : Valuation τ sig (Elt F)) :
    after seg4 V (main_v27 : DevRef τ sig) = V (main_v27 : DevRef τ sig) := by
  after_results_simp

/-! ## Stage five -/

theorem seg5_v39 (V : Valuation τ sig (Elt F)) :
    after seg5 V (main_v39 : DevRef τ sig)
      = concatenate S4x3088x4096 1
          [⟨S4x1024x4096, V (main_v27 : DevRef τ sig)⟩, ⟨S4x1024x4096, V (main_v16 : DevRef τ sig)⟩,
            ⟨S4x1024x4096, expandAt (V (main_v14 : DevRef τ sig)) (V (main_v29 : DevRef τ sig))⟩,
            ⟨S4x16x4096, V (main_v4 : DevRef τ sig)⟩]
          concatenates_S4x1024x4096_S4x1024x4096_S4x1024x4096_S4x16x4096_S4x3088x4096_d1 := by
  after_results_simp
  rfl

/-! ## The whole line -/

/-- The result buffer holds the reference term of the arguments' contents. -/
theorem out_eq (V : Valuation τ sig (Elt F)) :
    after ops V (main_v39 : DevRef τ sig)
      = Term.refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  rw [ops_split, after_app, after_app, after_app, after_app, seg5_v39,
    seg4_v27, seg4_v16, seg4_v14, seg4_v29, seg4_v4,
    seg3_v27, seg3_v16, seg3_v14, seg3_v28, seg3_c_2, seg3_v4,
    seg2_v9, seg2_v16, seg2_v14, seg2_v18, seg2_v4,
    seg1_v9, seg1_v16, seg1_v14, seg1_v17, seg1_c, seg1_v4]
  unfold Term.refOut
  rw [expand_eq, expand_eq]

/-! ## The arguments: no operation writes one -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

/-! ## The run -/

/-- On every device, for any float values, from any memory with zero counters: every weakly fair execution of @main
    terminates with the result buffer at the reference term of the eight arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v39) = Cert.ReferenceIdeal.Term.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := F)) _ _).mono (fun _ h c => ⟨(h c main_v39).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_main m ρ)

end Cert.ReferenceIdeal.Run

end
-- ==== Proof.lean ====
/-
  The certificate of the fused gate projection: a kernel that forms one stacked product [Wb; Wc; Wv; Wa] · xᵀ per
  (batch, position-tile) grid point and scatters its rows into the packed [4, 3088, 4096] result, against four separate
  projections followed by a head repeat (a gather along the head axis) and a concatenation.

  Frames. The two kernel programs (word level and idealized) are six host operations and one pipelined region; each
  frame is the library's frame run over the body's triple (Proof/KernelFrame.lean, Proof/KernelIdealFrame.lean). The
  reference is a straight line of host operations; its frame is its run with the result dropped (Proof/RefRun.lean).

  Preservation. The ideal pass rewrote no operation.

  Equivalence on the extended reals. Both idealized programs end at `Cert.Gates.packed` of the arguments
  (Proof/Spec.lean): entry (b, r, p) is Σ_d W[c, d] · x[b, p, d] (+ bias[c]) for the matrix W and channel c that packed
  row r selects. The kernel's side: the block a grid point writes is the stacked product's rows in packed order
  (Proof/KernelIdealBlock.lean), the blocks fill the result (Proof/KernelIdealValue.lean), the stacked arrays are the
  concatenated arguments (Proof/KernelIdealHost.lean), and the stacked arrangement agrees with the specification row by
  row — zero bias on Wv's rows, x + 0 = x (Proof/StackedAlgebra.lean, Proof/Bridge.lean). The reference's side: each
  projection is a contraction over the last axes, transposed (Proof/RefProj.lean), the head repeat reads head r / 256 of
  the 256-channel projection (Proof/RefExpand.lean), and the concatenation selects the piece (Proof/RefValue.lean). No
  step needs the inputs to be finite: only commutativity of the finite sums' terms and x + 0 = x are used.
-/
import proofs.«172733_j81681688035849_2_alg».proof.Defs
import proofs.«172733_j81681688035849_2_alg».proof.Proof.Gen.Kernel
import proofs.«172733_j81681688035849_2_alg».proof.Proof.Gen.KernelIdeal
import proofs.«172733_j81681688035849_2_alg».proof.Proof.Gen.ReferenceIdeal
import proofs.«172733_j81681688035849_2_alg».proof.Proof.Gen.Pre_finite_inputs
import proofs.«172733_j81681688035849_2_alg».proof.Proof.KernelFrame
import proofs.«172733_j81681688035849_2_alg».proof.Proof.KernelIdealFrame
import proofs.«172733_j81681688035849_2_alg».proof.Proof.Bridge
import proofs.«172733_j81681688035849_2_alg».proof.Proof.KernelIdealBlock
import proofs.«172733_j81681688035849_2_alg».proof.Proof.KernelIdealHost
import proofs.«172733_j81681688035849_2_alg».proof.Proof.StackedAlgebra
import proofs.«172733_j81681688035849_2_alg».proof.Proof.RefValue
import proofs.«172733_j81681688035849_2_alg».proof.Proof.RefExpand
import proofs.«172733_j81681688035849_2_alg».proof.Proof.RefRun

noncomputable section

namespace Cert.Proof

open Idealize.ShloMosaic Idealize.ShloMosaic.TcCoe Idealize.SL.Sem

/-! ## The facts proved in the modules, by the names the assembly uses -/

theorem block_spec : Cert.KernelIdeal.Value.BlockSpec := Cert.KernelIdeal.BlockValue.out3_apply
theorem weights_spec : Cert.Bridge.WeightsSpec := Cert.KernelIdeal.HostSide.V_weights
theorem bias_spec : Cert.Bridge.BiasSpec := Cert.KernelIdeal.HostSide.V_bias
theorem stacked_spec : Cert.Bridge.StackedSpec := Cert.Gates.packedAt_eq_cat
theorem ref_spec : Cert.Bridge.RefSpec := Cert.ReferenceIdeal.Value.refOut_eq_packed Cert.ReferenceIdeal.Expand.expand_apply
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
        r.2.mem ((c.tc : Thread Cert.ReferenceIdeal.nD Cert.ReferenceIdeal.τ).loc Cert.ReferenceIdeal.main_v39)
          = Cert.ReferenceIdeal.Term.refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7) :=
  Cert.ReferenceIdeal.Run.run (F := Ideal) m ρ

/-- The word-level kernel's program runs, and its arguments end as launched. -/
theorem frame_kernel : Cert.frame_Kernel := fun m ρ _ => Cert.Kernel.Frame.frame m ρ

/-- So does the idealized kernel's. -/
theorem frame_kernel_ideal : Cert.frame_KernelIdeal := fun m ρ _ => Cert.KernelIdeal.Frame.frame m ρ

/-- The reference has no region: its frame is its run with the result dropped. -/
theorem frame_reference_ideal : Cert.frame_ReferenceIdeal := fun m ρ _ =>
  (θ_run Cert.ReferenceIdeal.defs _ _).mono (fun _ h c => (h c).2) (ref_run m ρ)

/-- The ideal pass rewrote nothing, so there is nothing to preserve. -/
theorem preserves : Cert.preserves_Kernel_KernelIdeal := trivial

/-- From memories that agree on the eight arguments both idealized programs end with their result at the packed
    specification of those arguments: the kernel by its run read block by block and the stacked arrangement's algebra,
    the reference by its run and its term read index by index. -/
theorem algebraic : Cert.algebraic_KernelIdeal_ReferenceIdeal := by
  intro m ρ m' ρ' _ hagree
  refine ⟨fun c => Cert.Gates.packed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.Bridge.kernel_run block_spec weights_spec bias_spec stacked_spec m ρ, ?_⟩
  refine (θ_run Cert.ReferenceIdeal.defs _ _).mono (fun _ h c => ⟨(h c).1.trans ?_, (h c).2⟩) (ref_run m' ρ')
  rw [ref_spec, (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
